-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x64 : Shape := ⟨2, ![4096, 64]⟩
abbrev S64x64 : Shape := ⟨2, ![64, 64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S4096x4096 .f32) (main_arg1 : FVec F S4096x64 .f32) (main_arg2 : FVec F S64x64 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S4096x4096 : Shape := ⟨2, ![4096, 4096]⟩
abbrev S4096x64 : Shape := ⟨2, ![4096, 64]⟩
abbrev S64x64 : Shape := ⟨2, ![64, 64]⟩
abbrev S512x4096 : Shape := ⟨2, ![512, 4096]⟩
abbrev S4096x1 : Shape := ⟨2, ![4096, 1]⟩
abbrev S512 : Shape := ⟨1, ![512]⟩
abbrev S512x1 : Shape := ⟨2, ![512, 1]⟩
abbrev S512x64 : Shape := ⟨2, ![512, 64]⟩
abbrev S2048x2048 : Shape := ⟨2, ![2048, 2048]⟩
abbrev S2048x64 : Shape := ⟨2, ![2048, 64]⟩
abbrev S1024x2048 : Shape := ⟨2, ![1024, 2048]⟩
abbrev S1024x64 : Shape := ⟨2, ![1024, 64]⟩
abbrev S2048x1024 : Shape := ⟨2, ![2048, 1024]⟩
abbrev S512x3072 : Shape := ⟨2, ![512, 3072]⟩
abbrev S3072x64 : Shape := ⟨2, ![3072, 64]⟩
abbrev S1024x1024 : Shape := ⟨2, ![1024, 1024]⟩
abbrev S3072x512 : Shape := ⟨2, ![3072, 512]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S64x64, .f32⟩
  | .hbm, ⟨3, _⟩ => ⟨S4096x64, .f32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S64x64, .f32⟩
  | .local _ .vmem, ⟨4, _⟩ => ⟨S4096x64, .f32⟩
  | .local _ .vmem, ⟨5, _⟩ => ⟨S4096x4096, .bf16⟩
  | .local _ .vmem, ⟨6, _⟩ => ⟨S4096x1, .f32⟩
  | .local _ .vmem, ⟨7, _⟩ => ⟨S4096x64, .f32⟩
  | .local _ .vmem, ⟨8, _⟩ => ⟨S4096x64, .bf16⟩
  | .local _ .vmem, ⟨9, _⟩ => ⟨S4096x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v12 : BitVec 32 := Scalar.muli arg0 c512_i32
  let v13 : Index := Scalar.indexCast v12
  let c0_4 : Index := 0#32
  ![v13.toNat, 0]
def k0_off2 (i : grid0.Coords) : Fin 2 → Nat :=
  let arg0 : BitVec 32 := BitVec.ofNat 32 (i 0).val
  let c512_i32_5 : BitVec 32 := 512#32
  let v18 : BitVec 32 := Scalar.muli arg0 c512_i32_5
  let v19 : Index := Scalar.indexCast v18
  let c0_6 : Index := 0#32
  ![v19.toNat, 0]
def k0_off3 (i : grid0.Coords) : Fin 2 → Nat :=
  let arg0 : BitVec 32 := BitVec.ofNat 32 (i 0).val
  let c512_i32_7 : BitVec 32 := 512#32
  let v23 : BitVec 32 := Scalar.muli arg0 c512_i32_7
  let v24 : Index := Scalar.indexCast v23
  let c0_8 : Index := 0#32
  ![v24.toNat, 0]
def k0_cond5 (i : grid0.Coords) : BitVec 1 :=
  let arg0 : BitVec 32 := BitVec.ofNat 32 (i 0).val
  let c7_i32 : BitVec 32 := 7#32
  let v43 : BitVec 1 := Scalar.cmpi .eq arg0 c7_i32
  let v44 : BitVec 32 := Scalar.extui v43
  let c0_i32_14 : BitVec 32 := 0#32
  let v45 : BitVec 1 := Scalar.cmpi .ne v44 c0_i32_14
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S4096x64_S4096x64_0_0 : ∀ a, (![0, 0] : Fin 2 → Nat) a + S4096x64.size a ≤ S4096x64.size a
  h_S4096x64 : 0 < S4096x64.numel
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S4096x64_S4096x64 : S4096x64.ShapeCasts S4096x64
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  h_S512x1 : 0 < S512x1.numel
  shapeCasts_S512x1_S512x1 : S512x1.ShapeCasts S512x1
  bitsLt_bf16_f32 : FTy.bits .bf16 < FTy.bits .f32
  shapeCasts_S512x4096_S512x4096 : S512x4096.ShapeCasts S512x4096
  h_S512x64 : 0 < S512x64.numel
  broadcasts_S512x1_S512x64 : S512x1.Broadcasts S512x64
  shapeCasts_S512x64_S512x64 : S512x64.ShapeCasts S512x64
  inb_S4096x4096_S2048x2048_0_0 : ∀ a, (![0, 0] : Fin 2 → Nat) a + S2048x2048.size a ≤ S4096x4096.size a
  h_S2048x2048 : 0 < S2048x2048.numel
  inb_S4096x64_S2048x64_0_0 : ∀ a, (![0, 0] : Fin 2 → Nat) a + S2048x64.size a ≤ S4096x64.size a
  h_S2048x64 : 0 < S2048x64.numel
  shapeCasts_S2048x64_S2048x64 : S2048x64.ShapeCasts S2048x64
  inb_S4096x4096_S1024x2048_2048_0 : ∀ a, (![2048, 0] : Fin 2 → Nat) a + S1024x2048.size a ≤ S4096x4096.size a
  h_S1024x2048 : 0 < S1024x2048.numel
  inb_S4096x64_S1024x64_2048_0 : ∀ a, (![2048, 0] : Fin 2 → Nat) a + S1024x64.size a ≤ S4096x64.size a
  h_S1024x64 : 0 < S1024x64.numel
  shapeCasts_S1024x64_S1024x64 : S1024x64.ShapeCasts S1024x64
  inb_S4096x4096_S2048x1024_0_2048 : ∀ a, (![0, 2048] : Fin 2 → Nat) a + S2048x1024.size a ≤ S4096x4096.size a
  h_S2048x1024 : 0 < S2048x1024.numel
  inb_S4096x4096_S512x3072_3072_0 : ∀ a, (![3072, 0] : Fin 2 → Nat) a + S512x3072.size a ≤ S4096x4096.size a
  h_S512x3072 : 0 < S512x3072.numel
  inb_S4096x64_S3072x64_0_0 : ∀ a, (![0, 0] : Fin 2 → Nat) a + S3072x64.size a ≤ S4096x64.size a
  h_S3072x64 : 0 < S3072x64.numel
  inb_S4096x64_S512x64_3072_0 : ∀ a, (![3072, 0] : Fin 2 → Nat) a + S512x64.size a ≤ S4096x64.size a
  inb_S4096x4096_S1024x1024_2048_2048 : ∀ a, (![2048, 2048] : Fin 2 → Nat) a + S1024x1024.size a ≤ S4096x4096.size a
  h_S1024x1024 : 0 < S1024x1024.numel
  inb_S4096x4096_S3072x512_0_3072 : ∀ a, (![0, 3072] : Fin 2 → Nat) a + S3072x512.size a ≤ S4096x4096.size a
  h_S3072x512 : 0 < S3072x512.numel
  shapeCasts_S3072x64_S3072x64 : S3072x64.ShapeCasts S3072x64
  inb_S4096x4096_S3072x512_0_3584 : ∀ a, (![0, 3584] : Fin 2 → Nat) a + S3072x512.size a ≤ S4096x4096.size a
  inb_S4096x64_S512x64_3584_0 : ∀ a, (![3584, 0] : Fin 2 → Nat) a + S512x64.size a ≤ S4096x64.size a
  inb_S4096x4096_S512x1024_3072_3072 : ∀ a, (![3072, 3072] : Fin 2 → Nat) a + S512x1024.size a ≤ S4096x4096.size a
  h_S512x1024 : 0 < S512x1024.numel
  inb_S4096x64_S1024x64_3072_0 : ∀ a, (![3072, 0] : Fin 2 → Nat) a + S1024x64.size a ≤ S4096x64.size a
  inb_S4096x4096_S512x4096_3584_0 : ∀ a, (![3584, 0] : Fin 2 → Nat) a + S512x4096.size a ≤ S4096x4096.size a
  inb_S4096x1_S4096x1_0_0 : ∀ a, (![0, 0] : Fin 2 → Nat) a + S4096x1.size a ≤ S4096x1.size a
  h_S4096x1 : 0 < S4096x1.numel
  broadcasts_S4096x1_S4096x64 : S4096x1.Broadcasts S4096x64
  dot_S4096x64_S64x64_S4096x64_1_0_0_1_n_n_wf : DotDims.WF S4096x64 S64x64 S4096x64 [1] [0] [0] [1] [] []
  dot_S2048x2048_S2048x64_S2048x64_1_0_0_1_n_n_wf : DotDims.WF S2048x2048 S2048x64 S2048x64 [1] [0] [0] [1] [] []
  dot_S1024x2048_S2048x64_S1024x64_1_0_0_1_n_n_wf : DotDims.WF S1024x2048 S2048x64 S1024x64 [1] [0] [0] [1] [] []
  dot_S2048x1024_S1024x64_S2048x64_1_0_0_1_n_n_wf : DotDims.WF S2048x1024 S1024x64 S2048x64 [1] [0] [0] [1] [] []
  dot_S512x3072_S3072x64_S512x64_1_0_0_1_n_n_wf : DotDims.WF S512x3072 S3072x64 S512x64 [1] [0] [0] [1] [] []
  dot_S1024x1024_S1024x64_S1024x64_1_0_0_1_n_n_wf : DotDims.WF S1024x1024 S1024x64 S1024x64 [1] [0] [0] [1] [] []
  dot_S3072x512_S512x64_S3072x64_1_0_0_1_n_n_wf : DotDims.WF S3072x512 S512x64 S3072x64 [1] [0] [0] [1] [] []
  dot_S512x1024_S1024x64_S512x64_1_0_0_1_n_n_wf : DotDims.WF S512x1024 S1024x64 S512x64 [1] [0] [0] [1] [] []
  dot_S512x4096_S4096x64_S512x64_1_0_0_1_n_n_wf : DotDims.WF S512x4096 S4096x64 S512x64 [1] [0] [0] [1] [] []
  hrank0 : 0 < grid0.rank
  k0_off1_inb : ∀ i : grid0.Coords, ∀ a, (k0_off1 i) a + S512x1.size a ≤ S4096x1.size a
  k0_off2_inb : ∀ i : grid0.Coords, ∀ a, (k0_off2 i) a + S512x4096.size a ≤ S4096x4096.size a
  k0_off2_packedbf16 : ∀ i : grid0.Coords, (Rect.unit (s := S4096x4096) (k0_off2 i) S512x4096.size (k0_off2_inb i)).PackedRows (EltTy.packing .bf16)
  k0_off3_inb : ∀ i : grid0.Coords, ∀ a, (k0_off3 i) a + S512x64.size a ≤ S4096x64.size a
  k0_off3_packedbf16 : ∀ i : grid0.Coords, (Rect.unit (s := S4096x64) (k0_off3 i) S512x64.size (k0_off3_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .f32 = 32 ∨ (Rect.block (s := S4096x64) S4096x64.size (cc0_transform_3 i) (hinb0_3 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S512x3072_S3072x64_S512x64_1_0_0_1_n_n : DotDims S512x3072 S3072x64 S512x64 where
  lhsContracting := [1]
  rhsContracting := [0]
  lhsNonContracting := [0]
  rhsNonContracting := [1]
  lhsBatch := []
  rhsBatch := []
  wf := dot_S512x3072_S3072x64_S512x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S3072x512_S512x64_S3072x64_1_0_0_1_n_n : DotDims S3072x512 S512x64 S3072x64 where
  lhsContracting := [1]
  rhsContracting := [0]
  lhsNonContracting := [0]
  rhsNonContracting := [1]
  lhsBatch := []
  rhsBatch := []
  wf := dot_S3072x512_S512x64_S3072x64_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond5 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x64 : Shape := ⟨2, ![4096, 64]⟩
abbrev S64x64 : Shape := ⟨2, ![64, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S64x64, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .i1⟩
  | .hbm, ⟨12, _⟩ => ⟨S_, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x64, .f32⟩
  | .hbm, ⟨23, _⟩ => ⟨S64x64, .f32⟩
  | .hbm, ⟨24, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S64x64_S64x64_1_0 : S64x64.Transposes [1, 0] S64x64
  dot_S4096x4096_S4096x64_S4096x64_1_0_0_1_n_n_wf : DotDims.WF S4096x4096 S4096x64 S4096x64 [1] [0] [0] [1] [] []
  dot_S4096x64_S64x64_S4096x64_1_0_0_1_n_n_wf : DotDims.WF S4096x64 S64x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

class Facts : Prop extends Facts₀ where

variable [Facts]
-- ==== Proof.RefRun.lean ====
/-
  The reference program's run, read back: every execution of the reference ends with its result array at the
  composed term of its operations applied to the argument arrays, and the arguments unchanged.
-/
import proofs.«166917_g34531537059966_cont_sun_m_1070_24_alg».proof.Defs
import proofs.«166917_g34531537059966_cont_sun_m_1070_24_alg».proof.Proof.Gen.ReferenceIdeal.Read

noncomputable section

namespace Cert.Proof.RefSide

open Idealize.ShloMosaic Idealize.ShloMosaic.TcCoe Idealize.SL.Sem

/-- The reference keeps its arguments: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.Spec.lean ====
/-
  The layer's result as one function of the three argument arrays, over the extended reals.

  With `deg r = ∑ₖ A[r,k]` the degree of node `r`, `kscale s` the reciprocal square root of a degree with an
  infinite value replaced by zero, and `proj k o = ∑ⱼ F[k,j] · W[o,j]` the projected features, the result is
  `out r o = kscale (deg r) · ∑ₖ A[r,k] · (kscale (deg k) · proj k o)`:
  the adjacency matrix is scaled on both sides by the inverse square roots of the degrees and applied to the
  projected features.
-/
import Idealize.ShloMosaic.PureOps.Ideal
import Idealize.ShloMosaic.Lib.ValueIdx

noncomputable section

open scoped BigOperators

namespace Cert.Proof.Spec

open Idealize.ShloMosaic Idealize.ShloMosaic.ValueIdx

/-- The degree of node `r`: the sum of row `r` of the adjacency matrix. -/
def deg (A : (⟨2, ![4096, 4096]⟩ : Shape).Idx → EReal) (r : Fin 4096) : EReal := ∑ k : Fin 4096, A (ix2 r k)

/-- The scale of a degree: its reciprocal square root, an infinite value replaced by zero. -/
def kscale (s : EReal) : EReal := if Ideal.rsqrt s = ⊤ ∨ Ideal.rsqrt s = ⊥ then 0 else Ideal.rsqrt s

/-- The projected features: row `k` of the feature matrix against row `o` of the weight matrix. -/
def proj (Fm : (⟨2, ![4096, 64]⟩ : Shape).Idx → EReal) (W : (⟨2, ![64, 64]⟩ : Shape).Idx → EReal) (k : Fin 4096) (o : Fin 64) : EReal :=
  ∑ j : Fin 64, Fm (ix2 k j) * W (ix2 o j)

/-- The layer's result at row `r`, column `o`. -/
def out (A : (⟨2, ![4096, 4096]⟩ : Shape).Idx → EReal) (Fm : (⟨2, ![4096, 64]⟩ : Shape).Idx → EReal)
    (W : (⟨2, ![64, 64]⟩ : Shape).Idx → EReal) (r : Fin 4096) (o : Fin 64) : EReal :=
  kscale (deg A r) * ∑ k : Fin 4096, A (ix2 r k) * (kscale (deg A k) * proj Fm W k o)

end Cert.Proof.Spec

end
-- ==== Proof.RefScale.lean ====
/-
  The reference's scale of a degree is the specification's.

  The reference raises a degree to the power -1/2 and replaces an infinite result by zero. On the extended
  reals the power of a real base to a real exponent is the real power, which at the exponent -1/2 is zero for a
  base that is zero (a zero base to a nonzero exponent) or negative (the real power of a negative base carries
  the factor cos(-π/2) = 0) and is the reciprocal of the square root for a positive base; the power of +∞ to a
  negative exponent is 0, and the power of -∞ is -∞, whose absolute value is +∞ and is masked. The specification
  takes the reciprocal square root, which is -∞, +∞, the reciprocal of the square root on a negative, zero,
  positive real, 0 at +∞ and -∞ at -∞, and masks the infinite values. So the two scales agree at every extended
  real: both are the reciprocal of the square root of a positive real degree and zero everywhere else.
-/
import proofs.«166917_g34531537059966_cont_sun_m_1070_24_alg».proof.Proof.Spec
import Idealize.ShloMosaic.PureOps.Ideal.Laws

noncomputable section

namespace Cert.Proof.RefSide.Scale

open Idealize.ShloMosaic

/-- The three literals of the masked power: +0.0, +∞ and -1/2. -/
theorem ofBits_zero : Ideal.ofBits .f32 0x00000000#32 = 0 := by simp [Ideal.ofBits, Ideal.ieee]
theorem ofBits_inf : Ideal.ofBits .f32 0x7F800000#32 = ⊤ := by simp [Ideal.ofBits, Ideal.ieee]
theorem ofBits_neg_half : Ideal.ofBits .f32 0xBF000000#32 = ((-(1 / 2) : ℝ) : EReal) := by
  simp [Ideal.ofBits, Ideal.ieee, -EReal.coe_mul]; norm_num

/-- The real scale of a real degree: the reciprocal of its square root when it is positive, zero otherwise. -/
def rscale (x : ℝ) : ℝ := if 0 < x then (Real.sqrt x)⁻¹ else 0

/-- The real power -1/2 is that scale. -/
theorem rpow_neg_half (x : ℝ) : Real.rpow x (-(1 / 2)) = rscale x := by
  unfold rscale
  rcases lt_trichotomy x 0 with h | h | h
  · rw [if_neg (not_lt.mpr h.le), Real.rpow_eq_pow, Real.rpow_def_of_neg h]
    have : Real.cos (-(1 / 2) * Real.pi) = 0 := by
      rw [show -(1 / 2) * Real.pi = -(Real.pi / 2) by ring, Real.cos_neg, Real.cos_pi_div_two]
    rw [this, mul_zero]
  · subst h
    rw [if_neg (lt_irrefl _), Real.rpow_eq_pow, Real.zero_rpow (by norm_num)]
  · rw [if_pos h, Real.rpow_eq_pow, Real.rpow_neg h.le, Real.sqrt_eq_rpow]

/-- The specification's scale of a real degree is that scale too. -/
theorem kscale_coe (x : ℝ) : Spec.kscale (x : EReal) = ((rscale x : ℝ) : EReal) := by
  unfold Spec.kscale rscale
  rw [Ideal.rsqrt_coe]
  rcases lt_trichotomy x 0 with h | h | h
  · rw [if_pos h, if_pos (Or.inr rfl), if_neg (not_lt.mpr h.le)]; rfl
  · subst h
    rw [if_neg (lt_irrefl _), if_pos rfl, if_pos (Or.inl rfl), if_neg (lt_irrefl _)]; rfl
  · rw [if_neg (not_lt.mpr h.le), if_neg h.ne', if_pos h,
      if_neg (by rintro (h' | h') <;> simp at h')]

/-- The reference's masked power at any extended real is the specification's scale. -/
theorem masked_pow (s : Ideal .f32) :
    Scalar.select (FloatOps.cmpf (F := Ideal) (φ := .f32) .oeq
        (FloatOps.hostAbsf (FloatOps.hostPowf s (FloatOps.ofBits .f32 0xBF000000#32))) (FloatOps.ofBits .f32 0x7F800000#32))
      (FloatOps.ofBits (F := Ideal) .f32 0x00000000#32) (FloatOps.hostPowf s (FloatOps.ofBits .f32 0xBF000000#32))
    = Spec.kscale s := by
  simp only [Ideal.ofBits_def, Ideal.hostPowf_def, Ideal.hostAbsf_def, Ideal.absf_def, Ideal.cmpf_def, Ideal.cmp,
    ofBits_zero, ofBits_inf, ofBits_neg_half, Scalar.select]
  induction s using EReal.rec with
  | bot =>
    have : Spec.kscale ⊥ = 0 := by unfold Spec.kscale; rw [Ideal.rsqrt_bot, if_pos (Or.inr rfl)]
    rw [this, Ideal.pow_bot]; simp
  | top =>
    have : Spec.kscale ⊤ = 0 := by unfold Spec.kscale; rw [Ideal.rsqrt_top, if_neg (by simp)]
    rw [this, Ideal.pow_top]; simp
  | coe x =>
    rw [Ideal.pow_coe_coe, rpow_neg_half, kscale_coe]
    have : max ((rscale x : ℝ) : EReal) (-((rscale x : ℝ) : EReal)) ≠ ⊤ := by
      rw [← EReal.coe_neg]
      rcases max_choice ((rscale x : ℝ) : EReal) ((-rscale x : ℝ) : EReal) with h | h <;> rw [h] <;> exact EReal.coe_ne_top _
    simp [this]

end Cert.Proof.RefSide.Scale

end
-- ==== Proof.RefRead.lean ====
/-
  The reference's result read at an index, as explicit sums over the argument arrays.

  Row r, column o of the reference's result is the product of the scaled adjacency matrix with the feature
  matrix, times the transposed weight matrix: ∑ⱼ (∑ₖ ((s_r · A[r,k]) · s_k) · F[k,j]) · W[o,j], where the scale
  s_r of node r is the masked power -1/2 of its degree 0 + ∑ₖ A[r,k]: the specification's scale of the degree.
-/
import proofs.«166917_g34531537059966_cont_sun_m_1070_24_alg».proof.Proof.Gen.ReferenceIdeal.Read
import proofs.«166917_g34531537059966_cont_sun_m_1070_24_alg».proof.Proof.Spec
import proofs.«166917_g34531537059966_cont_sun_m_1070_24_alg».proof.Proof.RefScale

noncomputable section

open scoped BigOperators

namespace Cert.Proof.RefSide.ReadAt

open Idealize.ShloMosaic Idealize.ShloMosaic.ValueIdx Cert.ReferenceIdeal Cert.ReferenceIdeal.Read

/-! ### The operations' index maps at coordinates -/

theorem lidx13 (r : Fin 4096) (o j : Fin 64) : lidx_main_v13 (ix2 r o) j = ix2 r j :=
  funext fun a => by match a with | ⟨0, _⟩ => rfl | ⟨1, _⟩ => rfl
theorem ridx13 (r : Fin 4096) (o j : Fin 64) : ridx_main_v13 (ix2 r o) j = ix2 j o :=
  funext fun a => by match a with | ⟨0, _⟩ => rfl | ⟨1, _⟩ => rfl
theorem idx12 (j o : Fin 64) : idx_main_v12 (ix2 j o) = ix2 o j :=
  funext fun a => by match a with | ⟨0, _⟩ => rfl | ⟨1, _⟩ => rfl
theorem lidx11 (r : Fin 4096) (j : Fin 64) (k : Fin 4096) : lidx_main_v11 (ix2 r j) k = ix2 r k :=
  funext fun a => by match a with | ⟨0, _⟩ => rfl | ⟨1, _⟩ => rfl
theorem ridx11 (r : Fin 4096) (j : Fin 64) (k : Fin 4096) : ridx_main_v11 (ix2 r j) k = ix2 k j :=
  funext fun a => by match a with | ⟨0, _⟩ => rfl | ⟨1, _⟩ => rfl
theorem idx6 (r k : Fin 4096) : idx_main_v5 (idx_main_v6 (ix2 r k)) = ix1 r :=
  funext fun a => by match a with | ⟨0, _⟩ => rfl
theorem idx9 (r k : Fin 4096) : idx_main_v8 (idx_main_v9 (ix2 r k)) = ix1 k :=
  funext fun a => by match a with | ⟨0, _⟩ => rfl
theorem idx0 (r k : Fin 4096) : idx_main_v0 (ix1 r) k = ix2 r k :=
  funext fun a => by match a with | ⟨0, _⟩ => rfl | ⟨1, _⟩ => rfl

/-! ### The scale -/

/-- The reference's scale of node r is the specification's scale of its degree. -/
theorem scale_eq (A : (⟨S4096x4096, .f32⟩ : BufTy).Contents (Elt Ideal)) (r : Fin 4096) :
    val_main_v4 (F := Ideal) A (ix1 r) = Spec.kscale (Spec.deg A r) := by
  rw [val_main_v4_apply, val_main_v3_apply, val_main_call0_v0_apply, val_main_v2_apply, val_main_call0_v1_apply,
    val_main_call0_cst_apply, val_main_call1_v1_apply, val_main_call1_v0_apply, val_main_cst_1_apply, val_main_v1_apply,
    val_main_cst_0_apply]
  refine (Scale.masked_pow _).trans ?_
  rw [val_main_v0_apply, val_main_cst_apply, Ideal.ofBits_def, Scale.ofBits_zero, zero_add]
  simp only [idx0]
  rfl

/-! ### The result -/

/-- The reference's result at row r, column o. -/
theorem result_at (A : (⟨S4096x4096, .f32⟩ : BufTy).Contents (Elt Ideal)) (Fm : (⟨S4096x64, .f32⟩ : BufTy).Contents (Elt Ideal))
    (W : (⟨S64x64, .f32⟩ : BufTy).Contents (Elt Ideal)) (r : Fin 4096) (o : Fin 64) :
    val_main_v13 (F := Ideal) A Fm W (ix2 r o)
      = ∑ j : Fin 64, (∑ k : Fin 4096, ((Spec.kscale (Spec.deg A r) * A (ix2 r k)) * Spec.kscale (Spec.deg A k)) * Fm (ix2 k j))
          * W (ix2 o j) := by
  rw [val_main_v13_apply]
  refine Finset.sum_congr rfl fun j _ => ?_
  rw [lidx13, ridx13, val_main_v12_apply, idx12, val_main_v11_apply]
  refine congrArg (· * W (ix2 o j)) ?_
  refine Finset.sum_congr rfl fun k _ => ?_
  rw [lidx11, ridx11, val_main_v10_apply, val_main_v7_apply, val_main_v9_apply, val_main_v6_apply, val_main_v8_apply,
    val_main_v5_apply, idx6, idx9, scale_eq, scale_eq]
  rfl

end Cert.Proof.RefSide.ReadAt

end
-- ==== Proof.RefAlgebra.lean ====
/-
  The algebra between the reference's arrangement and the specification's, over the reals.

  The reference scales the adjacency matrix on both sides, multiplies by the feature matrix and then by the
  transposed weight matrix: at row r, column o it is ∑ⱼ (∑ₖ ((s_r · a[r,k]) · s_k) · f[k,j]) · w[o,j]. The
  specification projects the features first: s_r · ∑ₖ a[r,k] · (s_k · ∑ⱼ f[k,j] · w[o,j]). Over the reals the two
  are equal by distributivity and by exchanging the two finite sums. On the extended reals distributivity fails
  at the infinities, so the law is stated for real arrays read as extended reals: every product and finite sum
  of reals is the real product and sum, read as an extended real.
-/
import Idealize.ShloMosaic.PureOps.Ideal

noncomputable section

open scoped BigOperators

namespace Cert.Proof.RefSide.Algebra

/-- A finite sum of reals read as an extended real is the sum of the terms read as extended reals. -/
theorem coe_sum {ι : Type*} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The law over the reals: scale, multiply by the features, then by the weights = scale the projected features. -/
theorem real_law {ι κ : Type*} [Fintype ι] [Fintype κ] (s : ι → ℝ) (a : ι → ℝ) (f : ι → κ → ℝ) (w : κ → ℝ) (sr : ℝ) :
    ∑ j, (∑ k, ((sr * a k) * s k) * f k j) * w j = sr * ∑ k, a k * (s k * ∑ j, f k j * w j) := by
  simp only [Finset.mul_sum, Finset.sum_mul]
  rw [Finset.sum_comm]
  exact Finset.sum_congr rfl fun k _ => Finset.sum_congr rfl fun j _ => by ring

/-- The same law for real arrays read as extended reals. -/
theorem ereal_law {ι κ : Type*} [Fintype ι] [Fintype κ] (s : ι → ℝ) (a : ι → ℝ) (f : ι → κ → ℝ) (w : κ → ℝ) (sr : ℝ) :
    ∑ j, (∑ k, (((sr : EReal) * (a k : EReal)) * (s k : EReal)) * (f k j : EReal)) * (w j : EReal)
      = (sr : EReal) * ∑ k, (a k : EReal) * ((s k : EReal) * ∑ j, (f k j : EReal) * (w j : EReal)) := by
  simp only [← EReal.coe_mul, ← coe_sum]
  exact congrArg _ (real_law s a f w sr)

end Cert.Proof.RefSide.Algebra

end
-- ==== Proof.RefValue.lean ====
/-
  The reference's result is the specification's function of its three argument arrays, when their entries are real.

  At row r, column o the reference is ∑ⱼ (∑ₖ ((s_r · A[r,k]) · s_k) · F[k,j]) · W[o,j] with s the specification's
  scale of the degrees; the specification is s_r · ∑ₖ A[r,k] · (s_k · ∑ⱼ F[k,j] · W[o,j]). With real entries the
  degrees are real, the scale of a real degree is real, and the two arrangements are equal by the law of the
  reals: distributivity and the exchange of the two finite sums.
-/
import proofs.«166917_g34531537059966_cont_sun_m_1070_24_alg».proof.Proof.RefRead
import proofs.«166917_g34531537059966_cont_sun_m_1070_24_alg».proof.Proof.RefAlgebra

noncomputable section

open scoped BigOperators

namespace Cert.Proof.RefSide.RefValue

open Idealize.ShloMosaic Idealize.ShloMosaic.ValueIdx Cert.ReferenceIdeal Cert.ReferenceIdeal.Read

/-- The degree of a node of a real adjacency matrix is the real sum of its row. -/
theorem deg_coe (a : S4096x4096.Idx → ℝ) (r : Fin 4096) :
    Spec.deg (fun i => (a i : EReal)) r = ((∑ k : Fin 4096, a (ix2 r k) : ℝ) : EReal) :=
  (Algebra.coe_sum _ _).symm

/-- The reference's result array, for entrywise real arguments, is the specification's. -/
theorem result_eq (A : (⟨S4096x4096, .f32⟩ : BufTy).Contents (Elt Ideal)) (Fm : (⟨S4096x64, .f32⟩ : BufTy).Contents (Elt Ideal))
    (W : (⟨S64x64, .f32⟩ : BufTy).Contents (Elt Ideal))
    (hA : ∀ i, ∃ x : ℝ, A i = (x : EReal)) (hF : ∀ i, ∃ x : ℝ, Fm i = (x : EReal)) (hW : ∀ i, ∃ x : ℝ, W i = (x : EReal)) :
    val_main_v13 (F := Ideal) A Fm W = fun i => Spec.out A Fm W (i 0) (i 1) := by
  funext i
  obtain ⟨r, o, rfl⟩ : ∃ (r : Fin 4096) (o : Fin 64), i = ix2 r o := ⟨i 0, i 1, eq_ix2 i⟩
  rw [ReadAt.result_at]
  show _ = Spec.out A Fm W r o
  choose a ha using hA
  choose f hf using hF
  choose w hw using hW
  obtain rfl : A = fun i => (a i : EReal) := funext ha
  obtain rfl : Fm = fun i => (f i : EReal) := funext hf
  obtain rfl : W = fun i => (w i : EReal) := funext hw
  unfold Spec.out Spec.proj
  simp only [deg_coe, Scale.kscale_coe]
  exact Algebra.ereal_law (fun k => Scale.rscale (∑ k' : Fin 4096, a (ix2 k k'))) (fun k => a (ix2 r k))
    (fun k j => f (ix2 k j)) (fun j => w (ix2 o j)) (Scale.rscale (∑ k : Fin 4096, a (ix2 r k)))

end Cert.Proof.RefSide.RefValue

end
-- ==== Proof.Finite.lean ====
/-
  The precondition makes every entry of the three argument arrays a real number.

  The precondition is the conjunction, over the three arrays, of "every entry's absolute value is below +∞",
  each a reduction by "and" of the entrywise comparisons. A conjunction that is 1 has both conjuncts 1; a
  reduction by "and" over all axes that is 1 had a 1 at every index; and an extended real whose absolute value
  max x (-x) is below +∞ is neither +∞ nor -∞ (the absolute value of either is +∞): it is a real.
-/
import proofs.«166917_g34531537059966_cont_sun_m_1070_24_alg».proof.Defs
import proofs.«166917_g34531537059966_cont_sun_m_1070_24_alg».proof.Proof.Gen.Pre_finite_inputs
import Idealize.ShloMosaic.Lib.ReduceAll
import Idealize.ShloMosaic.Lib.ValueIdx

noncomputable section

namespace Cert.Proof.RefSide.Finite

open Idealize.ShloMosaic Idealize.ShloMosaic.TcCoe Idealize.SL.Sem

/-- The scalar shape has one index. -/
instance : Subsingleton Cert.Pre_finite_inputs.S_.Idx := ⟨fun a b => funext fun d => d.elim0⟩

/-- An extended real whose absolute value is below +∞ is a real. -/
theorem real_of_abs_lt_inf (x : EReal)
    (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

/-- The printed predicate at the ideal instance, all ones: each of its three arrays is entrywise real. -/
theorem of_fn [Cert.Pre_finite_inputs.Facts] (A : FVec Ideal Cert.Pre_finite_inputs.S4096x4096 .f32)
    (Fm : FVec Ideal Cert.Pre_finite_inputs.S4096x64 .f32) (W : FVec Ideal Cert.Pre_finite_inputs.S64x64 .f32)
    (h : Cert.Pre_finite_inputs.fn (F := Ideal) A Fm W = fun _ => 1#1) :
    (∀ i, ∃ x : ℝ, A i = (x : EReal)) ∧ (∀ i, ∃ x : ℝ, Fm i = (x : EReal)) ∧ (∀ i, ∃ x : ℝ, W i = (x : EReal)) := by
  have h0 := congrFun h ValueIdx.ix0
  dsimp only [Cert.Pre_finite_inputs.fn] at h0
  obtain ⟨h8, h12⟩ := IntOp.andi_eq_one.1 h0
  obtain ⟨h3, h7⟩ := IntOp.andi_eq_one.1 h8
  exact ⟨fun i => real_of_abs_lt_inf _ (Host.reduce_andi_all _ _ _ _ _ h3 i),
    fun i => real_of_abs_lt_inf _ (Host.reduce_andi_all _ _ _ _ _ h7 i),
    fun i => real_of_abs_lt_inf _ (Host.reduce_andi_all _ _ _ _ _ h12 i)⟩

/-- Under the kernel's precondition its three argument arrays, on every device, are entrywise real. -/
theorem of_pre [Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal)) :=
  of_fn _ _ _ (h c)

end Cert.Proof.RefSide.Finite

end
-- ==== Proof.RefAssembly.lean ====
/-
  The reference half of the algebraic claim: every run of the reference, from a memory that agrees with the
  kernel's on the three arguments and under the kernel's precondition, ends with its result array at the
  specification's function of the kernel's argument arrays, and its arguments unchanged.

  The reference's run ends with its result at the composed term of its operations; the precondition makes the
  argument arrays entrywise real; and for entrywise real arrays that term is the specification's function.
-/
import proofs.«166917_g34531537059966_cont_sun_m_1070_24_alg».proof.Proof.RefValue
import proofs.«166917_g34531537059966_cont_sun_m_1070_24_alg».proof.Proof.Finite

noncomputable section

namespace Cert.Proof.RefSide

open Idealize.ShloMosaic Idealize.ShloMosaic.TcCoe Idealize.SL.Sem

/-- The reference's run, with its result as the specification's function of the kernel's arguments. -/
theorem ref_run [Cert.KernelIdeal.Facts] [Cert.ReferenceIdeal.Facts] [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v13)
          = (fun i => Spec.out (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2)) (i 0) (i 1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono (fun _ h c => by
      obtain ⟨hA, hF, hW⟩ := Finite.of_pre m hpre c
      refine ⟨(h c).1.trans ?_, (h c).2⟩
      rw [Cert.ReferenceIdeal.Read.val_main_v13_eq, (hagree c).1, (hagree c).2.1, (hagree c).2.2]
      exact RefValue.result_eq _ _ _ hA hF hW)
    (Cert.ReferenceIdeal.Value.run (F := Ideal) m' g')

end Cert.Proof.RefSide

end
-- ==== Proof.KI.Shared.lean ====
/-
  What the runs of the kernel body share: the five conditions the body branches on, as statements about the grid
  point, each decided over the eight points; where the output window is idle; the staging and scratch memrefs the
  body is called with; and the region's invariant opened into its five scratch buffers.
-/
import proofs.«166917_g34531537059966_cont_sun_m_1070_24_alg».proof.Proof.Gen.KernelIdeal.Launch
import proofs.«166917_g34531537059966_cont_sun_m_1070_24_alg».proof.Proof.Gen.KernelIdeal.Skeleton
import proofs.«166917_g34531537059966_cont_sun_m_1070_24_alg».proof.Proof.Gen.KernelIdeal.Points
import proofs.«166917_g34531537059966_cont_sun_m_1070_24_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The body's first branch: taken at the point whose coordinate equals `k`. -/
abbrev condEq (k : BitVec 32) (i : grid0.Coords) : Prop :=
  (Scalar.cmpi .ne (Scalar.extui (Scalar.cmpi .eq (BitVec.ofNat 32 (i 0).val) k)) 0#32) = 1#1

abbrev cond0 (i : grid0.Coords) : Prop := condEq 0#32 i
abbrev cond4 (i : grid0.Coords) : Prop := condEq 4#32 i
abbrev cond5 (i : grid0.Coords) : Prop := condEq 5#32 i
abbrev cond6 (i : grid0.Coords) : Prop := condEq 6#32 i
abbrev cond7 (i : grid0.Coords) : Prop := k0_cond5 i = 1#1

theorem hcond0 : ∀ t : Fin cfg0.N, cond0 (grid0.coords t) ↔ t.val = 0 :=
  (by decide +kernel : ∀ t : Fin grid0.N, cond0 (grid0.coords t) ↔ t.val = 0)
theorem hcond4 : ∀ t : Fin cfg0.N, cond4 (grid0.coords t) ↔ t.val = 4 :=
  (by decide +kernel : ∀ t : Fin grid0.N, cond4 (grid0.coords t) ↔ t.val = 4)
theorem hcond5 : ∀ t : Fin cfg0.N, cond5 (grid0.coords t) ↔ t.val = 5 :=
  (by decide +kernel : ∀ t : Fin grid0.N, cond5 (grid0.coords t) ↔ t.val = 5)
theorem hcond6 : ∀ t : Fin cfg0.N, cond6 (grid0.coords t) ↔ t.val = 6 :=
  (by decide +kernel : ∀ t : Fin grid0.N, cond6 (grid0.coords t) ↔ t.val = 6)
theorem hcond7 : ∀ t : Fin cfg0.N, cond7 (grid0.coords t) ↔ t.val = 7 :=
  (by decide +kernel : ∀ t : Fin grid0.N, cond7 (grid0.coords t) ↔ t.val = 7)

/-- The point's coordinate is the point's number. -/
theorem coord_val : ∀ t : Fin cfg0.N, (grid0.coords t 0).val = t.val :=
  (by decide +kernel : ∀ t : Fin grid0.N, (grid0.coords t 0).val = t.val)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- The output window is idle, and not written back, at every point but the last. -/
theorem idleAt3 : ∀ t : Fin cfg0.N, t.val ≠ 7 → cfg0.idle 3 (grid0.coords t) = true := by decide +kernel
theorem noFlush3 : ∀ t : Fin cfg0.N, t.val ≠ 7 → (cfg0.win 3).flush t = false := by decide +kernel
theorem liveAt3 : ∀ t : Fin cfg0.N, t.val = 7 → cfg0.idle 3 (grid0.coords t) = false := by decide +kernel

/-! ## The memrefs the body is called with -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x64 .f32 := win0_3.stage (cfg0.slots t 3)
abbrev hs3 (t : Fin cfg0.N) : (ms3 t).IsWhole := hstage0_3 ((cfg0.slots t 3).cast nbuf0_3)

/-- The five scratch buffers: the stashed matrix, the degree scales, the projected features, the scaled
    projected features, and the accumulator. -/
abbrev scA : Memref sig .tc .vmem S4096x4096 .bf16 := Memref.whole cc0_scratch0
abbrev scD : Memref sig .tc .vmem S4096x1 .f32 := Memref.whole cc0_scratch1
abbrev scG : Memref sig .tc .vmem S4096x64 .f32 := Memref.whole cc0_scratch2
abbrev scS : Memref sig .tc .vmem S4096x64 .bf16 := Memref.whole cc0_scratch3
abbrev scC : Memref sig .tc .vmem S4096x64 .f32 := Memref.whole cc0_scratch4

/-- The region's invariant, with the scratch buffers as memrefs owned at some contents. -/
theorem PhiA_eq (c : Dev nD) :
    (Pipeline.ΦA spec0 c : sProp 𝕄)
      = iprop(iprop((∃ d, owns (c : Thread nD τ) scA fullShare d) ∗ (∃ d, owns (c : Thread nD τ) scD fullShare d)
          ∗ (∃ d, owns (c : Thread nD τ) scG fullShare d) ∗ (∃ d, owns (c : Thread nD τ) scS fullShare d)
          ∗ (∃ d, owns (c : Thread nD τ) scC fullShare d)) ∗ (∃ r, prngReg c r)) := by
  unfold Pipeline.ΦA; rw [scopedRest0_eq]; simp only [scA, scD, scG, scS, scC, owns_whole]; try rfl

end Cert.KernelIdeal.Body

end
-- ==== Proof.KI.RunB.lean ====
/-
  The body at the points where none of its branches is taken (points 1, 2 and 3): the point's block of the matrix is summed along its rows, the degree scales stored, the block stashed, and the block's rows of the scaled projected features stored.
-/
import proofs.«166917_g34531537059966_cont_sun_m_1070_24_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunB (c : Dev nD) (i : grid0.Coords) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (hc0 : ¬cond0 i) (hc4 : ¬cond4 i) (hc5 : ¬cond5 i) (hc6 : ¬cond6 i) (hc7 : ¬cond7 i)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, ?_, [], ?_, [], fun xi3 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HA]; · iexact HA
    isplitl [HD]; · iexact HD
    isplitl [HG]; · iexact HG
    isplitl [HS]; · iexact HS
    iexact HC

end Cert.KernelIdeal.Body

end
-- ==== Proof.KI.RunA.lean ====
/-
  The body at the first point: the projected features are computed whole and stored; then, as at every point, the block's degree scales, the stashed block and the block's rows of the scaled projected features.
-/
import proofs.«166917_g34531537059966_cont_sun_m_1070_24_alg».proof.Proof.KI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunA (c : Dev nD) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel (grid0.coords t0_0) arg1 harg1 arg2 harg2 arg3 harg3 arg4 harg4 arg5 harg5 arg6 harg6 arg7 harg7 arg8 harg8 arg9 harg9) K } := by
  refine ⟨?_, ?_, ?_, ?_, [], fun xi3 E K => ?run⟩
  case run =>
    have hc0 : cond0 (grid0.coords t0_0) := (hcond0 t0_0).mpr rfl
    have hc4 : ¬cond4 (grid0.coords t0_0) := fun h => absurd ((hcond4 t0_0).mp h) (by decide)
    have hc5 : ¬cond5 (grid0.coords t0_0) := fun h => absurd ((hcond5 t0_0).mp h) (by decide)
    have hc6 : ¬cond6 (grid0.coords t0_0) := fun h => absurd ((hcond6 t0_0).mp h) (by decide)
    have hc7 : ¬cond7 (grid0.coords t0_0) := fun h => absurd ((hcond7 t0_0).mp h) (by decide)
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HA]; · iexact HA
    isplitl [HD]; · iexact HD
    isplitl [HG]; · iexact HG
    isplitl [HS]; · iexact HS
    iexact HC

end Cert.KernelIdeal.Body

end
-- ==== Proof.KI.RunC.lean ====
/-
  The body at point 4: after the point's own stores, the accumulator's first 2048 rows are set to the product of the stashed matrix's first 2048 rows and columns with the first 2048 rows of the scaled projected features.
-/
import proofs.«166917_g34531537059966_cont_sun_m_1070_24_alg».proof.Proof.KI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunC (c : Dev nD) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel (grid0.coords t0_4) arg1 harg1 arg2 harg2 arg3 harg3 arg4 harg4 arg5 harg5 arg6 harg6 arg7 harg7 arg8 harg8 arg9 harg9) K } := by
  refine ⟨?_, ?_, [], ?_, ?_, fun xi3 E K => ?run⟩
  case run =>
    have hc0 : ¬cond0 (grid0.coords t0_4) := fun h => absurd ((hcond0 t0_4).mp h) (by decide)
    have hc4 : cond4 (grid0.coords t0_4) := (hcond4 t0_4).mpr rfl
    have hc5 : ¬cond5 (grid0.coords t0_4) := fun h => absurd ((hcond5 t0_4).mp h) (by decide)
    have hc6 : ¬cond6 (grid0.coords t0_4) := fun h => absurd ((hcond6 t0_4).mp h) (by decide)
    have hc7 : ¬cond7 (grid0.coords t0_4) := fun h => absurd ((hcond7 t0_4).mp h) (by decide)
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HA]; · iexact HA
    isplitl [HD]; · iexact HD
    isplitl [HG]; · iexact HG
    isplitl [HS]; · iexact HS
    iexact HC

end Cert.KernelIdeal.Body

end
-- ==== Proof.KI.RunD.lean ====
/-
  The body at point 5: rows 2048 to 3071 of the accumulator are set to their product over the first 2048 columns, and the first 2048 rows gain their product over columns 2048 to 3071.
-/
import proofs.«166917_g34531537059966_cont_sun_m_1070_24_alg».proof.Proof.KI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunD (c : Dev nD) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel (grid0.coords t0_5) arg1 harg1 arg2 harg2 arg3 harg3 arg4 harg4 arg5 harg5 arg6 harg6 arg7 harg7 arg8 harg8 arg9 harg9) K } := by
  refine ⟨?_, ?_, [], ?_, ?_, fun xi3 E K => ?run⟩
  case run =>
    have hc0 : ¬cond0 (grid0.coords t0_5) := fun h => absurd ((hcond0 t0_5).mp h) (by decide)
    have hc4 : ¬cond4 (grid0.coords t0_5) := fun h => absurd ((hcond4 t0_5).mp h) (by decide)
    have hc5 : cond5 (grid0.coords t0_5) := (hcond5 t0_5).mpr rfl
    have hc6 : ¬cond6 (grid0.coords t0_5) := fun h => absurd ((hcond6 t0_5).mp h) (by decide)
    have hc7 : ¬cond7 (grid0.coords t0_5) := fun h => absurd ((hcond7 t0_5).mp h) (by decide)
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HA]; · iexact HA
    isplitl [HD]; · iexact HD
    isplitl [HG]; · iexact HG
    isplitl [HS]; · iexact HS
    iexact HC

end Cert.KernelIdeal.Body

end
-- ==== Proof.KI.RunE.lean ====
/-
  The body at point 6: rows 3072 to 3583 of the accumulator are set to their product over the first 3072 columns, rows 2048 to 3071 gain columns 2048 to 3071, and the first 3072 rows gain columns 3072 to 3583.
-/
import proofs.«166917_g34531537059966_cont_sun_m_1070_24_alg».proof.Proof.KI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunE (c : Dev nD) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel (grid0.coords t0_6) arg1 harg1 arg2 harg2 arg3 harg3 arg4 harg4 arg5 harg5 arg6 harg6 arg7 harg7 arg8 harg8 arg9 harg9) K } := by
  refine ⟨?_, ?_, [], ?_, ?_, fun xi3 E K => ?run⟩
  case run =>
    have hc0 : ¬cond0 (grid0.coords t0_6) := fun h => absurd ((hcond0 t0_6).mp h) (by decide)
    have hc4 : ¬cond4 (grid0.coords t0_6) := fun h => absurd ((hcond4 t0_6).mp h) (by decide)
    have hc5 : ¬cond5 (grid0.coords t0_6) := fun h => absurd ((hcond5 t0_6).mp h) (by decide)
    have hc6 : cond6 (grid0.coords t0_6) := (hcond6 t0_6).mpr rfl
    have hc7 : ¬cond7 (grid0.coords t0_6) := fun h => absurd ((hcond7 t0_6).mp h) (by decide)
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HA]; · iexact HA
    isplitl [HD]; · iexact HD
    isplitl [HG]; · iexact HG
    isplitl [HS]; · iexact HS
    iexact HC

end Cert.KernelIdeal.Body

end
-- ==== Proof.KI.RunF.lean ====
/-
  The body at the last point: the remaining column ranges are added to the accumulator, its last 512 rows are set to their whole product, and the output block is the accumulator scaled row by row by the degree scales.
-/
import proofs.«166917_g34531537059966_cont_sun_m_1070_24_alg».proof.Proof.KI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunF (c : Dev nD) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LO : List (View.Piece (Elt F) S4096x64 .f32)) (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ (arg4.view.loc (c : Thread nD τ) ↦[arg4.view.set]{fullShare} arg4.view.writes (Elt F) (harg4.unread xi3) LO)
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel (grid0.coords t0_7) arg1 harg1 arg2 harg2 arg3 harg3 arg4 harg4 arg5 harg5 arg6 harg6 arg7 harg7 arg8 harg8 arg9 harg9) K } := by
  refine ⟨?_, ?_, ?_, [], ?_, ?_, fun xi3 E K => ?run⟩
  case run =>
    have hc0 : ¬cond0 (grid0.coords t0_7) := fun h => absurd ((hcond0 t0_7).mp h) (by decide)
    have hc4 : ¬cond4 (grid0.coords t0_7) := fun h => absurd ((hcond4 t0_7).mp h) (by decide)
    have hc5 : ¬cond5 (grid0.coords t0_7) := fun h => absurd ((hcond5 t0_7).mp h) (by decide)
    have hc6 : ¬cond6 (grid0.coords t0_7) := fun h => absurd ((hcond6 t0_7).mp h) (by decide)
    have hc7 : cond7 (grid0.coords t0_7) := (hcond7 t0_7).mpr rfl
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexact H3
    isplitl [HA]; · iexact HA
    isplitl [HD]; · iexact HD
    isplitl [HG]; · iexact HG
    isplitl [HS]; · iexact HS
    iexact HC

end Cert.KernelIdeal.Body

end
-- ==== Proof.KI.State.lean ====
/-
  The five scratch buffers' contents as one state, and the body as a step on it: in each of the six cases of the
  body's branches the new state is the old one overwritten by the pieces that case's run found.
-/
import proofs.«166917_g34531537059966_cont_sun_m_1070_24_alg».proof.Proof.KI.RunA
import proofs.«166917_g34531537059966_cont_sun_m_1070_24_alg».proof.Proof.KI.RunC
import proofs.«166917_g34531537059966_cont_sun_m_1070_24_alg».proof.Proof.KI.RunD
import proofs.«166917_g34531537059966_cont_sun_m_1070_24_alg».proof.Proof.KI.RunE
import proofs.«166917_g34531537059966_cont_sun_m_1070_24_alg».proof.Proof.KI.RunF

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contents of the five scratch buffers: the stashed matrix, the degree scales, the projected features, the
    scaled projected features, the accumulator. -/
structure St (F : FTy → Type) where
  A : Vec F S4096x4096 .bf16
  D : Vec F S4096x1 .f32
  G : Vec F S4096x64 .f32
  S : Vec F S4096x64 .bf16
  C : Vec F S4096x64 .f32

abbrev hwA : scA.IsWhole := Memref.isWhole_whole _
abbrev hwD : scD.IsWhole := Memref.isWhole_whole _
abbrev hwG : scG.IsWhole := Memref.isWhole_whole _
abbrev hwS : scS.IsWhole := Memref.isWhole_whole _
abbrev hwC : scC.IsWhole := Memref.isWhole_whole _

/-- What a whole buffer that held `x` reads after the pieces `L` (newest first) are written into it. -/
def wr {s : Shape} {e : EltTy} (mr : Memref sig .tc .vmem s e) (h : mr.IsWhole) (x : Vec F s e) (L : List (View.Piece (Elt F) s e)) : Vec F s e :=
  mr.view.read (Elt F) (mr.view.writes (Elt F) (h.unread x) L)

/-- The five scratch buffers owned at the state's contents. -/
def owned (c : Dev nD) (s : St F) : sProp 𝕄 :=
  iprop(owns (c : Thread nD τ) scA fullShare s.A ∗ owns (c : Thread nD τ) scD fullShare s.D ∗ owns (c : Thread nD τ) scG fullShare s.G
    ∗ owns (c : Thread nD τ) scS fullShare s.S ∗ owns (c : Thread nD τ) scC fullShare s.C)

/-- The scratch state after the body in case A: each buffer at its previous contents overwritten by the pieces the run found. -/
def stepA (c : Dev nD) (x0 : Vec F S512x4096 .f32) (x1 : Vec F S4096x64 .f32) (x2 : Vec F S64x64 .f32) (s : St F) : St F :=
  ⟨wr scA hwA s.A (kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).1, wr scD hwD s.D (kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.1, wr scG hwG s.G (kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.2.1,
   wr scS hwS s.S (kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.2.2.1, wr scC hwC s.C (kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.2.2.2.1⟩

set_option maxHeartbeats 1000000 in
/-- The body in case A, from the scratch state `s` and the input blocks, to the state `stepA … s`. -/
theorem soundA (c : Dev nD) (x0 : Vec F S512x4096 .f32) (x1 : Vec F S4096x64 .f32) (x2 : Vec F S64x64 .f32) (s : St F) (d3 : Vec F S4096x64 .f32) :
    iprop(owned c s ∗ owns (c : Thread nD τ) (ms0 t0_0) fullShare x0 ∗ owns (c : Thread nD τ) (ms1 t0_0) fullShare x1 ∗ owns (c : Thread nD τ) (ms2 t0_0) fullShare x2 ∗ owns (c : Thread nD τ) (ms3 t0_0) fullShare d3)
      ⊢ wp frame (wpE (defs₀ (F := F)) Variants.none c none) Set.univ (bodyAt0 t0_0) (fun _ =>
          iprop(owned c (stepA c x0 x1 x2 s) ∗ owns (c : Thread nD τ) (ms0 t0_0) fullShare x0 ∗ owns (c : Thread nD τ) (ms1 t0_0) fullShare x1 ∗ owns (c : Thread nD τ) (ms2 t0_0) fullShare x2 ∗ owns (c : Thread nD τ) (ms3 t0_0) fullShare d3)) := by
  unfold owned bodyAt0
  iintro ⟨⟨HA, HD, HG, HS, HC⟩, H0, H1, H2, H3⟩
  iapply ((kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepA wr; dsimp only; iexists _; isplitr
      swap; · iexact HA
      ipureintro; rfl
    isplitl [HD]
    · unfold owns stepA wr; dsimp only; iexists _; isplitr
      swap; · iexact HD
      ipureintro; rfl
    isplitl [HG]
    · unfold owns stepA wr; dsimp only; iexists _; isplitr
      swap; · iexact HG
      ipureintro; rfl
    isplitl [HS]
    · unfold owns stepA wr; dsimp only; iexists _; isplitr
      swap; · iexact HS
      ipureintro; rfl
    unfold owns stepA wr; dsimp only; iexists _; isplitr
    swap; · iexact HC
    ipureintro; rfl
  isplitl [H0]; · iexact H0
  isplitl [H1]; · iexact H1
  isplitl [H2]; · iexact H2
  iexact H3

/-- The scratch state after the body in case B: each buffer at its previous contents overwritten by the pieces the run found. -/
def stepB (c : Dev nD) (t : Fin cfg0.N) (hc0 : ¬cond0 (grid0.coords t)) (hc4 : ¬cond4 (grid0.coords t)) (hc5 : ¬cond5 (grid0.coords t)) (hc6 : ¬cond6 (grid0.coords t)) (hc7 : ¬cond7 (grid0.coords t)) (x0 : Vec F S512x4096 .f32) (x1 : Vec F S4096x64 .f32) (x2 : Vec F S64x64 .f32) (s : St F) : St F :=
  ⟨wr scA hwA s.A (kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).1, wr scD hwD s.D (kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.1, wr scG hwG s.G (kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.2.1,
   wr scS hwS s.S (kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.2.2.1, wr scC hwC s.C (kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.2.2.2.1⟩

set_option maxHeartbeats 1000000 in
/-- The body in case B, from the scratch state `s` and the input blocks, to the state `stepB … s`. -/
theorem soundB (c : Dev nD) (t : Fin cfg0.N) (hc0 : ¬cond0 (grid0.coords t)) (hc4 : ¬cond4 (grid0.coords t)) (hc5 : ¬cond5 (grid0.coords t)) (hc6 : ¬cond6 (grid0.coords t)) (hc7 : ¬cond7 (grid0.coords t)) (x0 : Vec F S512x4096 .f32) (x1 : Vec F S4096x64 .f32) (x2 : Vec F S64x64 .f32) (s : St F) (d3 : Vec F S4096x64 .f32) :
    iprop(owned c s ∗ owns (c : Thread nD τ) (ms0 t) fullShare x0 ∗ owns (c : Thread nD τ) (ms1 t) fullShare x1 ∗ owns (c : Thread nD τ) (ms2 t) fullShare x2 ∗ owns (c : Thread nD τ) (ms3 t) fullShare d3)
      ⊢ wp frame (wpE (defs₀ (F := F)) Variants.none c none) Set.univ (bodyAt0 t) (fun _ =>
          iprop(owned c (stepB c t hc0 hc4 hc5 hc6 hc7 x0 x1 x2 s) ∗ owns (c : Thread nD τ) (ms0 t) fullShare x0 ∗ owns (c : Thread nD τ) (ms1 t) fullShare x1 ∗ owns (c : Thread nD τ) (ms2 t) fullShare x2 ∗ owns (c : Thread nD τ) (ms3 t) fullShare d3)) := by
  unfold owned bodyAt0
  iintro ⟨⟨HA, HD, HG, HS, HC⟩, H0, H1, H2, H3⟩
  iapply ((kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepB wr; dsimp only; iexists _; isplitr
      swap; · iexact HA
      ipureintro; rfl
    isplitl [HD]
    · unfold owns stepB wr; dsimp only; iexists _; isplitr
      swap; · iexact HD
      ipureintro; rfl
    isplitl [HG]
    · unfold owns stepB wr; dsimp only; iexists _; isplitr
      swap; · iexact HG
      ipureintro; rfl
    isplitl [HS]
    · unfold owns stepB wr; dsimp only; iexists _; isplitr
      swap; · iexact HS
      ipureintro; rfl
    unfold owns stepB wr; dsimp only; iexists _; isplitr
    swap; · iexact HC
    ipureintro; rfl
  isplitl [H0]; · iexact H0
  isplitl [H1]; · iexact H1
  isplitl [H2]; · iexact H2
  iexact H3

/-- The scratch state after the body in case C: each buffer at its previous contents overwritten by the pieces the run found. -/
def stepC (c : Dev nD) (x0 : Vec F S512x4096 .f32) (x1 : Vec F S4096x64 .f32) (x2 : Vec F S64x64 .f32) (s : St F) : St F :=
  ⟨wr scA hwA s.A (kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).1, wr scD hwD s.D (kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.1, wr scG hwG s.G (kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.2.1,
   wr scS hwS s.S (kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.2.2.1, wr scC hwC s.C (kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.2.2.2.1⟩

set_option maxHeartbeats 1000000 in
/-- The body in case C, from the scratch state `s` and the input blocks, to the state `stepC … s`. -/
theorem soundC (c : Dev nD) (x0 : Vec F S512x4096 .f32) (x1 : Vec F S4096x64 .f32) (x2 : Vec F S64x64 .f32) (s : St F) (d3 : Vec F S4096x64 .f32) :
    iprop(owned c s ∗ owns (c : Thread nD τ) (ms0 t0_4) fullShare x0 ∗ owns (c : Thread nD τ) (ms1 t0_4) fullShare x1 ∗ owns (c : Thread nD τ) (ms2 t0_4) fullShare x2 ∗ owns (c : Thread nD τ) (ms3 t0_4) fullShare d3)
      ⊢ wp frame (wpE (defs₀ (F := F)) Variants.none c none) Set.univ (bodyAt0 t0_4) (fun _ =>
          iprop(owned c (stepC c x0 x1 x2 s) ∗ owns (c : Thread nD τ) (ms0 t0_4) fullShare x0 ∗ owns (c : Thread nD τ) (ms1 t0_4) fullShare x1 ∗ owns (c : Thread nD τ) (ms2 t0_4) fullShare x2 ∗ owns (c : Thread nD τ) (ms3 t0_4) fullShare d3)) := by
  unfold owned bodyAt0
  iintro ⟨⟨HA, HD, HG, HS, HC⟩, H0, H1, H2, H3⟩
  iapply ((kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepC wr; dsimp only; iexists _; isplitr
      swap; · iexact HA
      ipureintro; rfl
    isplitl [HD]
    · unfold owns stepC wr; dsimp only; iexists _; isplitr
      swap; · iexact HD
      ipureintro; rfl
    isplitl [HG]
    · unfold owns stepC wr; dsimp only; iexists _; isplitr
      swap; · iexact HG
      ipureintro; rfl
    isplitl [HS]
    · unfold owns stepC wr; dsimp only; iexists _; isplitr
      swap; · iexact HS
      ipureintro; rfl
    unfold owns stepC wr; dsimp only; iexists _; isplitr
    swap; · iexact HC
    ipureintro; rfl
  isplitl [H0]; · iexact H0
  isplitl [H1]; · iexact H1
  isplitl [H2]; · iexact H2
  iexact H3

/-- The scratch state after the body in case D: each buffer at its previous contents overwritten by the pieces the run found. -/
def stepD (c : Dev nD) (x0 : Vec F S512x4096 .f32) (x1 : Vec F S4096x64 .f32) (x2 : Vec F S64x64 .f32) (s : St F) : St F :=
  ⟨wr scA hwA s.A (kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).1, wr scD hwD s.D (kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.1, wr scG hwG s.G (kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.2.1,
   wr scS hwS s.S (kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.2.2.1, wr scC hwC s.C (kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.2.2.2.1⟩

set_option maxHeartbeats 1000000 in
/-- The body in case D, from the scratch state `s` and the input blocks, to the state `stepD … s`. -/
theorem soundD (c : Dev nD) (x0 : Vec F S512x4096 .f32) (x1 : Vec F S4096x64 .f32) (x2 : Vec F S64x64 .f32) (s : St F) (d3 : Vec F S4096x64 .f32) :
    iprop(owned c s ∗ owns (c : Thread nD τ) (ms0 t0_5) fullShare x0 ∗ owns (c : Thread nD τ) (ms1 t0_5) fullShare x1 ∗ owns (c : Thread nD τ) (ms2 t0_5) fullShare x2 ∗ owns (c : Thread nD τ) (ms3 t0_5) fullShare d3)
      ⊢ wp frame (wpE (defs₀ (F := F)) Variants.none c none) Set.univ (bodyAt0 t0_5) (fun _ =>
          iprop(owned c (stepD c x0 x1 x2 s) ∗ owns (c : Thread nD τ) (ms0 t0_5) fullShare x0 ∗ owns (c : Thread nD τ) (ms1 t0_5) fullShare x1 ∗ owns (c : Thread nD τ) (ms2 t0_5) fullShare x2 ∗ owns (c : Thread nD τ) (ms3 t0_5) fullShare d3)) := by
  unfold owned bodyAt0
  iintro ⟨⟨HA, HD, HG, HS, HC⟩, H0, H1, H2, H3⟩
  iapply ((kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepD wr; dsimp only; iexists _; isplitr
      swap; · iexact HA
      ipureintro; rfl
    isplitl [HD]
    · unfold owns stepD wr; dsimp only; iexists _; isplitr
      swap; · iexact HD
      ipureintro; rfl
    isplitl [HG]
    · unfold owns stepD wr; dsimp only; iexists _; isplitr
      swap; · iexact HG
      ipureintro; rfl
    isplitl [HS]
    · unfold owns stepD wr; dsimp only; iexists _; isplitr
      swap; · iexact HS
      ipureintro; rfl
    unfold owns stepD wr; dsimp only; iexists _; isplitr
    swap; · iexact HC
    ipureintro; rfl
  isplitl [H0]; · iexact H0
  isplitl [H1]; · iexact H1
  isplitl [H2]; · iexact H2
  iexact H3

/-- The scratch state after the body in case E: each buffer at its previous contents overwritten by the pieces the run found. -/
def stepE (c : Dev nD) (x0 : Vec F S512x4096 .f32) (x1 : Vec F S4096x64 .f32) (x2 : Vec F S64x64 .f32) (s : St F) : St F :=
  ⟨wr scA hwA s.A (kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).1, wr scD hwD s.D (kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.1, wr scG hwG s.G (kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.2.1,
   wr scS hwS s.S (kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.2.2.1, wr scC hwC s.C (kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.2.2.2.1⟩

set_option maxHeartbeats 1000000 in
/-- The body in case E, from the scratch state `s` and the input blocks, to the state `stepE … s`. -/
theorem soundE (c : Dev nD) (x0 : Vec F S512x4096 .f32) (x1 : Vec F S4096x64 .f32) (x2 : Vec F S64x64 .f32) (s : St F) (d3 : Vec F S4096x64 .f32) :
    iprop(owned c s ∗ owns (c : Thread nD τ) (ms0 t0_6) fullShare x0 ∗ owns (c : Thread nD τ) (ms1 t0_6) fullShare x1 ∗ owns (c : Thread nD τ) (ms2 t0_6) fullShare x2 ∗ owns (c : Thread nD τ) (ms3 t0_6) fullShare d3)
      ⊢ wp frame (wpE (defs₀ (F := F)) Variants.none c none) Set.univ (bodyAt0 t0_6) (fun _ =>
          iprop(owned c (stepE c x0 x1 x2 s) ∗ owns (c : Thread nD τ) (ms0 t0_6) fullShare x0 ∗ owns (c : Thread nD τ) (ms1 t0_6) fullShare x1 ∗ owns (c : Thread nD τ) (ms2 t0_6) fullShare x2 ∗ owns (c : Thread nD τ) (ms3 t0_6) fullShare d3)) := by
  unfold owned bodyAt0
  iintro ⟨⟨HA, HD, HG, HS, HC⟩, H0, H1, H2, H3⟩
  iapply ((kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepE wr; dsimp only; iexists _; isplitr
      swap; · iexact HA
      ipureintro; rfl
    isplitl [HD]
    · unfold owns stepE wr; dsimp only; iexists _; isplitr
      swap; · iexact HD
      ipureintro; rfl
    isplitl [HG]
    · unfold owns stepE wr; dsimp only; iexists _; isplitr
      swap; · iexact HG
      ipureintro; rfl
    isplitl [HS]
    · unfold owns stepE wr; dsimp only; iexists _; isplitr
      swap; · iexact HS
      ipureintro; rfl
    unfold owns stepE wr; dsimp only; iexists _; isplitr
    swap; · iexact HC
    ipureintro; rfl
  isplitl [H0]; · iexact H0
  isplitl [H1]; · iexact H1
  isplitl [H2]; · iexact H2
  iexact H3

/-- The scratch state after the body in case F: each buffer at its previous contents overwritten by the pieces the run found. -/
def stepF (c : Dev nD) (x0 : Vec F S512x4096 .f32) (x1 : Vec F S4096x64 .f32) (x2 : Vec F S64x64 .f32) (s : St F) : St F :=
  ⟨wr scA hwA s.A (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.1, wr scD hwD s.D (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.1, wr scG hwG s.G (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.2.1,
   wr scS hwS s.S (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.2.2.1, wr scC hwC s.C (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.2.2.2.1⟩

/-- What the last point leaves in the output block: the pieces it stores there, which cover the block. -/
def outF (c : Dev nD) (x0 : Vec F S512x4096 .f32) (x1 : Vec F S4096x64 .f32) (x2 : Vec F S64x64 .f32) (s : St F) : Vec F S4096x64 .f32 :=
  (ms3 t0_7).view.read (Elt F) ((ms3 t0_7).view.writes (Elt F) (ms3 t0_7).view.junk (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).1)

theorem coverF (c : Dev nD) (x0 : Vec F S512x4096 .f32) (x1 : Vec F S4096x64 .f32) (x2 : Vec F S64x64 .f32) (s : St F) (y : S4096x64.Idx) :
    ∃ pc ∈ (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).1, y ∈ pc.1.set :=
  View.cover_of_tiledL (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).1 S4096x64.size (by sl_kernel_rfl) y

set_option maxHeartbeats 1000000 in
/-- The body in case F, from the scratch state `s` and the input blocks, to the state `stepF … s`. -/
theorem soundF (c : Dev nD) (x0 : Vec F S512x4096 .f32) (x1 : Vec F S4096x64 .f32) (x2 : Vec F S64x64 .f32) (s : St F) (d3 : Vec F S4096x64 .f32) :
    iprop(owned c s ∗ owns (c : Thread nD τ) (ms0 t0_7) fullShare x0 ∗ owns (c : Thread nD τ) (ms1 t0_7) fullShare x1 ∗ owns (c : Thread nD τ) (ms2 t0_7) fullShare x2 ∗ owns (c : Thread nD τ) (ms3 t0_7) fullShare d3)
      ⊢ wp frame (wpE (defs₀ (F := F)) Variants.none c none) Set.univ (bodyAt0 t0_7) (fun _ =>
          iprop(owned c (stepF c x0 x1 x2 s) ∗ owns (c : Thread nD τ) (ms0 t0_7) fullShare x0 ∗ owns (c : Thread nD τ) (ms1 t0_7) fullShare x1 ∗ owns (c : Thread nD τ) (ms2 t0_7) fullShare x2 ∗ owns (c : Thread nD τ) (ms3 t0_7) fullShare (outF c x0 x1 x2 s))) := by
  unfold owned bodyAt0
  iintro ⟨⟨HA, HD, HG, HS, HC⟩, H0, H1, H2, H3⟩
  iapply ((kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepF wr; dsimp only; iexists _; isplitr
      swap; · iexact HA
      ipureintro; rfl
    isplitl [HD]
    · unfold owns stepF wr; dsimp only; iexists _; isplitr
      swap; · iexact HD
      ipureintro; rfl
    isplitl [HG]
    · unfold owns stepF wr; dsimp only; iexists _; isplitr
      swap; · iexact HG
      ipureintro; rfl
    isplitl [HS]
    · unfold owns stepF wr; dsimp only; iexists _; isplitr
      swap; · iexact HS
      ipureintro; rfl
    unfold owns stepF wr; dsimp only; iexists _; isplitr
    swap; · iexact HC
    ipureintro; rfl
  isplitl [H0]; · iexact H0
  isplitl [H1]; · iexact H1
  isplitl [H2]; · iexact H2
  unfold owns outF; iexists _; isplitr
  swap; · iexact H3
  ipureintro; exact View.read_writes_of_cover _ _ _ _ _ (coverF c x0 x1 x2 s)

end Cert.KernelIdeal.Body

end
-- ==== Proof.KI.Sound.lean ====
/-
  The body's run in each of its six cases, stated to an arbitrary continuation: from the scratch buffers owned at a state
  and the staging buffers at their blocks, the body runs to the continuation with the scratch buffers owned at the
  stepped state, the input buffers as they were, and the output buffer untouched or, at the last point, at the block stored.
-/
import proofs.«166917_g34531537059966_cont_sun_m_1070_24_alg».proof.Proof.KI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body in case A, to any continuation that takes the stepped state. -/
theorem runA (c : Dev nD) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t0_0) fullShare x0 ∗ owns (c : Thread nD τ) (ms1 t0_0) fullShare x1 ∗ owns (c : Thread nD τ) (ms2 t0_0) fullShare x2 ∗ owns (c : Thread nD τ) (ms3 t0_0) fullShare d3
        ∗ (iprop(owned c (stepA c x0 x1 x2 s) ∗ owns (c : Thread nD τ) (ms0 t0_0) fullShare x0 ∗ owns (c : Thread nD τ) (ms1 t0_0) fullShare x1 ∗ owns (c : Thread nD τ) (ms2 t0_0) fullShare x2 ∗ owns (c : Thread nD τ) (ms3 t0_0) fullShare d3) -∗ K ⟨⟩))
      ⊢ wp frame (wpE (defs₀ (F := F)) Variants.none c none) Set.univ (bodyAt0 t0_0) K := by
  unfold owned bodyAt0
  iintro ⟨⟨HA, HD, HG, HS, HC⟩, H0, H1, H2, H3, Hk⟩
  iapply ((kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepA wr; dsimp only; iexists _; isplitr
      swap; · iexact HA
      ipureintro; rfl
    isplitl [HD]
    · unfold owns stepA wr; dsimp only; iexists _; isplitr
      swap; · iexact HD
      ipureintro; rfl
    isplitl [HG]
    · unfold owns stepA wr; dsimp only; iexists _; isplitr
      swap; · iexact HG
      ipureintro; rfl
    isplitl [HS]
    · unfold owns stepA wr; dsimp only; iexists _; isplitr
      swap; · iexact HS
      ipureintro; rfl
    unfold owns stepA wr; dsimp only; iexists _; isplitr
    swap; · iexact HC
    ipureintro; rfl
  isplitl [H0]; · iexact H0
  isplitl [H1]; · iexact H1
  isplitl [H2]; · iexact H2
  iexact H3

set_option maxHeartbeats 1000000 in
/-- The body in case B, to any continuation that takes the stepped state. -/
theorem runB (c : Dev nD) (t : Fin cfg0.N) (hc0 : ¬cond0 (grid0.coords t)) (hc4 : ¬cond4 (grid0.coords t)) (hc5 : ¬cond5 (grid0.coords t)) (hc6 : ¬cond6 (grid0.coords t)) (hc7 : ¬cond7 (grid0.coords t)) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t) fullShare x0 ∗ owns (c : Thread nD τ) (ms1 t) fullShare x1 ∗ owns (c : Thread nD τ) (ms2 t) fullShare x2 ∗ owns (c : Thread nD τ) (ms3 t) fullShare d3
        ∗ (iprop(owned c (stepB c t hc0 hc4 hc5 hc6 hc7 x0 x1 x2 s) ∗ owns (c : Thread nD τ) (ms0 t) fullShare x0 ∗ owns (c : Thread nD τ) (ms1 t) fullShare x1 ∗ owns (c : Thread nD τ) (ms2 t) fullShare x2 ∗ owns (c : Thread nD τ) (ms3 t) fullShare d3) -∗ K ⟨⟩))
      ⊢ wp frame (wpE (defs₀ (F := F)) Variants.none c none) Set.univ (bodyAt0 t) K := by
  unfold owned bodyAt0
  iintro ⟨⟨HA, HD, HG, HS, HC⟩, H0, H1, H2, H3, Hk⟩
  iapply ((kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepB wr; dsimp only; iexists _; isplitr
      swap; · iexact HA
      ipureintro; rfl
    isplitl [HD]
    · unfold owns stepB wr; dsimp only; iexists _; isplitr
      swap; · iexact HD
      ipureintro; rfl
    isplitl [HG]
    · unfold owns stepB wr; dsimp only; iexists _; isplitr
      swap; · iexact HG
      ipureintro; rfl
    isplitl [HS]
    · unfold owns stepB wr; dsimp only; iexists _; isplitr
      swap; · iexact HS
      ipureintro; rfl
    unfold owns stepB wr; dsimp only; iexists _; isplitr
    swap; · iexact HC
    ipureintro; rfl
  isplitl [H0]; · iexact H0
  isplitl [H1]; · iexact H1
  isplitl [H2]; · iexact H2
  iexact H3

set_option maxHeartbeats 1000000 in
/-- The body in case C, to any continuation that takes the stepped state. -/
theorem runC (c : Dev nD) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t0_4) fullShare x0 ∗ owns (c : Thread nD τ) (ms1 t0_4) fullShare x1 ∗ owns (c : Thread nD τ) (ms2 t0_4) fullShare x2 ∗ owns (c : Thread nD τ) (ms3 t0_4) fullShare d3
        ∗ (iprop(owned c (stepC c x0 x1 x2 s) ∗ owns (c : Thread nD τ) (ms0 t0_4) fullShare x0 ∗ owns (c : Thread nD τ) (ms1 t0_4) fullShare x1 ∗ owns (c : Thread nD τ) (ms2 t0_4) fullShare x2 ∗ owns (c : Thread nD τ) (ms3 t0_4) fullShare d3) -∗ K ⟨⟩))
      ⊢ wp frame (wpE (defs₀ (F := F)) Variants.none c none) Set.univ (bodyAt0 t0_4) K := by
  unfold owned bodyAt0
  iintro ⟨⟨HA, HD, HG, HS, HC⟩, H0, H1, H2, H3, Hk⟩
  iapply ((kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepC wr; dsimp only; iexists _; isplitr
      swap; · iexact HA
      ipureintro; rfl
    isplitl [HD]
    · unfold owns stepC wr; dsimp only; iexists _; isplitr
      swap; · iexact HD
      ipureintro; rfl
    isplitl [HG]
    · unfold owns stepC wr; dsimp only; iexists _; isplitr
      swap; · iexact HG
      ipureintro; rfl
    isplitl [HS]
    · unfold owns stepC wr; dsimp only; iexists _; isplitr
      swap; · iexact HS
      ipureintro; rfl
    unfold owns stepC wr; dsimp only; iexists _; isplitr
    swap; · iexact HC
    ipureintro; rfl
  isplitl [H0]; · iexact H0
  isplitl [H1]; · iexact H1
  isplitl [H2]; · iexact H2
  iexact H3

set_option maxHeartbeats 1000000 in
/-- The body in case D, to any continuation that takes the stepped state. -/
theorem runD (c : Dev nD) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t0_5) fullShare x0 ∗ owns (c : Thread nD τ) (ms1 t0_5) fullShare x1 ∗ owns (c : Thread nD τ) (ms2 t0_5) fullShare x2 ∗ owns (c : Thread nD τ) (ms3 t0_5) fullShare d3
        ∗ (iprop(owned c (stepD c x0 x1 x2 s) ∗ owns (c : Thread nD τ) (ms0 t0_5) fullShare x0 ∗ owns (c : Thread nD τ) (ms1 t0_5) fullShare x1 ∗ owns (c : Thread nD τ) (ms2 t0_5) fullShare x2 ∗ owns (c : Thread nD τ) (ms3 t0_5) fullShare d3) -∗ K ⟨⟩))
      ⊢ wp frame (wpE (defs₀ (F := F)) Variants.none c none) Set.univ (bodyAt0 t0_5) K := by
  unfold owned bodyAt0
  iintro ⟨⟨HA, HD, HG, HS, HC⟩, H0, H1, H2, H3, Hk⟩
  iapply ((kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepD wr; dsimp only; iexists _; isplitr
      swap; · iexact HA
      ipureintro; rfl
    isplitl [HD]
    · unfold owns stepD wr; dsimp only; iexists _; isplitr
      swap; · iexact HD
      ipureintro; rfl
    isplitl [HG]
    · unfold owns stepD wr; dsimp only; iexists _; isplitr
      swap; · iexact HG
      ipureintro; rfl
    isplitl [HS]
    · unfold owns stepD wr; dsimp only; iexists _; isplitr
      swap; · iexact HS
      ipureintro; rfl
    unfold owns stepD wr; dsimp only; iexists _; isplitr
    swap; · iexact HC
    ipureintro; rfl
  isplitl [H0]; · iexact H0
  isplitl [H1]; · iexact H1
  isplitl [H2]; · iexact H2
  iexact H3

set_option maxHeartbeats 1000000 in
/-- The body in case E, to any continuation that takes the stepped state. -/
theorem runE (c : Dev nD) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t0_6) fullShare x0 ∗ owns (c : Thread nD τ) (ms1 t0_6) fullShare x1 ∗ owns (c : Thread nD τ) (ms2 t0_6) fullShare x2 ∗ owns (c : Thread nD τ) (ms3 t0_6) fullShare d3
        ∗ (iprop(owned c (stepE c x0 x1 x2 s) ∗ owns (c : Thread nD τ) (ms0 t0_6) fullShare x0 ∗ owns (c : Thread nD τ) (ms1 t0_6) fullShare x1 ∗ owns (c : Thread nD τ) (ms2 t0_6) fullShare x2 ∗ owns (c : Thread nD τ) (ms3 t0_6) fullShare d3) -∗ K ⟨⟩))
      ⊢ wp frame (wpE (defs₀ (F := F)) Variants.none c none) Set.univ (bodyAt0 t0_6) K := by
  unfold owned bodyAt0
  iintro ⟨⟨HA, HD, HG, HS, HC⟩, H0, H1, H2, H3, Hk⟩
  iapply ((kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepE wr; dsimp only; iexists _; isplitr
      swap; · iexact HA
      ipureintro; rfl
    isplitl [HD]
    · unfold owns stepE wr; dsimp only; iexists _; isplitr
      swap; · iexact HD
      ipureintro; rfl
    isplitl [HG]
    · unfold owns stepE wr; dsimp only; iexists _; isplitr
      swap; · iexact HG
      ipureintro; rfl
    isplitl [HS]
    · unfold owns stepE wr; dsimp only; iexists _; isplitr
      swap; · iexact HS
      ipureintro; rfl
    unfold owns stepE wr; dsimp only; iexists _; isplitr
    swap; · iexact HC
    ipureintro; rfl
  isplitl [H0]; · iexact H0
  isplitl [H1]; · iexact H1
  isplitl [H2]; · iexact H2
  iexact H3

set_option maxHeartbeats 1000000 in
/-- The body in case F, to any continuation that takes the stepped state. -/
theorem runF (c : Dev nD) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t0_7) fullShare x0 ∗ owns (c : Thread nD τ) (ms1 t0_7) fullShare x1 ∗ owns (c : Thread nD τ) (ms2 t0_7) fullShare x2 ∗ owns (c : Thread nD τ) (ms3 t0_7) fullShare d3
        ∗ (iprop(owned c (stepF c x0 x1 x2 s) ∗ owns (c : Thread nD τ) (ms0 t0_7) fullShare x0 ∗ owns (c : Thread nD τ) (ms1 t0_7) fullShare x1 ∗ owns (c : Thread nD τ) (ms2 t0_7) fullShare x2 ∗ owns (c : Thread nD τ) (ms3 t0_7) fullShare (outF c x0 x1 x2 s)) -∗ K ⟨⟩))
      ⊢ wp frame (wpE (defs₀ (F := F)) Variants.none c none) Set.univ (bodyAt0 t0_7) K := by
  unfold owned bodyAt0
  iintro ⟨⟨HA, HD, HG, HS, HC⟩, H0, H1, H2, H3, Hk⟩
  iapply ((kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepF wr; dsimp only; iexists _; isplitr
      swap; · iexact HA
      ipureintro; rfl
    isplitl [HD]
    · unfold owns stepF wr; dsimp only; iexists _; isplitr
      swap; · iexact HD
      ipureintro; rfl
    isplitl [HG]
    · unfold owns stepF wr; dsimp only; iexists _; isplitr
      swap; · iexact HG
      ipureintro; rfl
    isplitl [HS]
    · unfold owns stepF wr; dsimp only; iexists _; isplitr
      swap; · iexact HS
      ipureintro; rfl
    unfold owns stepF wr; dsimp only; iexists _; isplitr
    swap; · iexact HC
    ipureintro; rfl
  isplitl [H0]; · iexact H0
  isplitl [H1]; · iexact H1
  isplitl [H2]; · iexact H2
  unfold owns outF; iexists _; isplitr
  swap; · iexact H3
  ipureintro; exact View.read_writes_of_cover _ _ _ _ _ (coverF c x0 x1 x2 s)

end Cert.KernelIdeal.Body

end
-- ==== Proof.KI.Chain.lean ====
/-
  The scratch state after each of the eight grid points, as the six steps composed in the grid's order: the first
  point's step, three plain steps, then the four steps that also accumulate; and the output block the last step leaves.
-/
import proofs.«166917_g34531537059966_cont_sun_m_1070_24_alg».proof.Proof.KI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem nc0 (t : Fin cfg0.N) (h : t.val ≠ 0) : ¬cond0 (grid0.coords t) := fun hc => h ((hcond0 t).mp hc)
theorem nc4 (t : Fin cfg0.N) (h : t.val ≠ 4) : ¬cond4 (grid0.coords t) := fun hc => h ((hcond4 t).mp hc)
theorem nc5 (t : Fin cfg0.N) (h : t.val ≠ 5) : ¬cond5 (grid0.coords t) := fun hc => h ((hcond5 t).mp hc)
theorem nc6 (t : Fin cfg0.N) (h : t.val ≠ 6) : ¬cond6 (grid0.coords t) := fun hc => h ((hcond6 t).mp hc)
theorem nc7 (t : Fin cfg0.N) (h : t.val ≠ 7) : ¬cond7 (grid0.coords t) := fun hc => h ((hcond7 t).mp hc)

/-- The step the body makes at point `n`. -/
def stepAt (c : Dev nD) (x0 : Fin 8 → Vec F S512x4096 .f32) (x1 : Vec F S4096x64 .f32) (x2 : Vec F S64x64 .f32) : ℕ → St F → St F
  | 0, s => stepA c (x0 0) x1 x2 s
  | 1, s => stepB c t0_1 (nc0 t0_1 (by decide)) (nc4 t0_1 (by decide)) (nc5 t0_1 (by decide)) (nc6 t0_1 (by decide)) (nc7 t0_1 (by decide)) (x0 1) x1 x2 s
  | 2, s => stepB c t0_2 (nc0 t0_2 (by decide)) (nc4 t0_2 (by decide)) (nc5 t0_2 (by decide)) (nc6 t0_2 (by decide)) (nc7 t0_2 (by decide)) (x0 2) x1 x2 s
  | 3, s => stepB c t0_3 (nc0 t0_3 (by decide)) (nc4 t0_3 (by decide)) (nc5 t0_3 (by decide)) (nc6 t0_3 (by decide)) (nc7 t0_3 (by decide)) (x0 3) x1 x2 s
  | 4, s => stepC c (x0 4) x1 x2 s
  | 5, s => stepD c (x0 5) x1 x2 s
  | 6, s => stepE c (x0 6) x1 x2 s
  | 7, s => stepF c (x0 7) x1 x2 s
  | _ + 8, s => s

/-- The scratch state after the first `n` points, from the state `s0` the region starts with, the point's block of the
    matrix `x0 j` at point `j`, and the two whole input blocks `x1`, `x2`. -/
def st (c : Dev nD) (x0 : Fin 8 → Vec F S512x4096 .f32) (x1 : Vec F S4096x64 .f32) (x2 : Vec F S64x64 .f32) (s0 : St F) : ℕ → St F
  | 0 => s0
  | n + 1 => stepAt c x0 x1 x2 n (st c x0 x1 x2 s0 n)

/-- The output block the last point leaves, from the state the region starts with. -/
def outLast (c : Dev nD) (x0 : Fin 8 → Vec F S512x4096 .f32) (x1 : Vec F S4096x64 .f32) (x2 : Vec F S64x64 .f32) (s0 : St F) : Vec F S4096x64 .f32 :=
  outF c (x0 7) x1 x2 (st c x0 x1 x2 s0 7)

end Cert.KernelIdeal.Body

end
-- ==== Proof.KI.BodyData.lean ====
/-
  The pipeline's proof data for the kernel. The region's invariant after the first `n` points says: for SOME contents
  the scratch buffers started with, they now hold the state `n` steps later. Each input window's buffer holds its block
  at every point; the output window is idle until the last point, where it takes the block `after3`.
-/
import proofs.«166917_g34531537059966_cont_sun_m_1070_24_alg».proof.Proof.KI.Sound
import proofs.«166917_g34531537059966_cont_sun_m_1070_24_alg».proof.Proof.KI.Chain

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `j` of the grid. -/
abbrev tOf (j : Fin 8) : Fin cfg0.N := Fin.cast N_0.symm j

/-- The matrix's block at point `j`, and the two whole input blocks. -/
def X0 (c : Dev nD) (j : Fin 8) : Vec F S512x4096 .f32 := iblk m c 0 (tOf j)
def X1 (c : Dev nD) : Vec F S4096x64 .f32 := iblk m c 1 t0_0
def X2 (c : Dev nD) : Vec F S64x64 .f32 := iblk m c 2 t0_0

/-- The second and third windows have one block: at every point it is the block of the first. -/
theorem iblk1_const (c : Dev nD) (t : Fin cfg0.N) : (iblk m c 1 t : Vec F S4096x64 .f32) = X1 m c := by
  rcases fin_N0 t with rfl | rfl | rfl | rfl | rfl | rfl | rfl | rfl <;> rfl
theorem iblk2_const (c : Dev nD) (t : Fin cfg0.N) : (iblk m c 2 t : Vec F S64x64 .f32) = X2 m c := by
  rcases fin_N0 t with rfl | rfl | rfl | rfl | rfl | rfl | rfl | rfl <;> rfl

/-- The region invariant before point `n`: the class's before the first point (every scratch at anything); afterwards
    the scratch buffers at the state `n` steps after SOME starting state, and the generator register at some state. -/
def PhiS (c : Dev nD) : (n : ℕ) → sProp 𝕄
  | 0 => Pipeline.ΦA spec0 c
  | n + 1 => iprop(iprop(∃ s0 : St F, owned c (st c (X0 m c) (X1 m c) (X2 m c) s0 (n + 1))) ∗ (∃ r, prngReg c r))

variable (after3 : Dev nD → Vec F S4096x64 .f32)

/-- The proof data: the arrays as the region finds them; each input's buffer at its block; the output's at `after3`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => after3 c
  Φ t := PhiS m c t.val
  q _ := fullShare
  owed _ := 0

theorem A_eq (c : Dev nD) (w : Fin cfg0.W) : (dats m after3 0 c).A w = V m c (Pipeline.arrRef spec0 w) := by
  dsimp only [dats]

theorem after0_0 (c : Dev nD) (t : Fin cfg0.N) : (dats m after3 0 c).after 0 t = iblk m c 0 t := by dsimp only [dats]
theorem after0_1 (c : Dev nD) (t : Fin cfg0.N) : (dats m after3 0 c).after 1 t = iblk m c 1 t := by dsimp only [dats]
theorem after0_2 (c : Dev nD) (t : Fin cfg0.N) : (dats m after3 0 c).after 2 t = iblk m c 2 t := by dsimp only [dats]
theorem after0_3 (c : Dev nD) (t : Fin cfg0.N) : (dats m after3 0 c).after 3 t = after3 c := by dsimp only [dats]

theorem before0_0 (c : Dev nD) (t : Fin cfg0.N) (d) : (dats m after3 0 c).before 0 t d = iblk m c 0 t :=
  before0_0_of m (dats m after3 0 c) (A_eq m after3 c 0) (after0_0 m after3 c) t d
theorem before0_1 (c : Dev nD) (t : Fin cfg0.N) (d) : (dats m after3 0 c).before 1 t d = iblk m c 1 t :=
  before0_1_of m (dats m after3 0 c) (A_eq m after3 c 1) (after0_1 m after3 c) t d
theorem before0_2 (c : Dev nD) (t : Fin cfg0.N) (d) : (dats m after3 0 c).before 2 t d = iblk m c 2 t :=
  before0_2_of m (dats m after3 0 c) (A_eq m after3 c 2) (after0_2 m after3 c) t d

/-- What the body is called with at point `t`, -/
def bodyPre (c : Dev nD) (t : Fin cfg0.N) : sProp 𝕄 :=
  iprop((dats m after3 0 c).Φ t.castSucc ∗ (dats m after3 0 c).owesAt () t.castSucc
    ∗ (∃ d, owns (c : Thread nD τ) (ms0 t) fullShare ((dats m after3 0 c).before 0 t d))
    ∗ (∃ d, owns (c : Thread nD τ) (ms1 t) fullShare ((dats m after3 0 c).before 1 t d))
    ∗ (∃ d, owns (c : Thread nD τ) (ms2 t) fullShare ((dats m after3 0 c).before 2 t d))
    ∗ (∃ d, owns (c : Thread nD τ) (ms3 t) fullShare ((dats m after3 0 c).before 3 t d)))

/-- and what it returns. -/
def bodyPost (c : Dev nD) (t : Fin cfg0.N) : sProp 𝕄 :=
  iprop((dats m after3 0 c).Φ t.succ ∗ (dats m after3 0 c).owesAt () t.succ
    ∗ (dats m after3 0 c).leavesExact 0 t
    ∗ (dats m after3 0 c).leavesExact 1 t
    ∗ (dats m after3 0 c).leavesExact 2 t
    ∗ (dats m after3 0 c).leavesExact 3 t)

/-! ## The chain of steps, one equation per point -/

theorem st_1 (c : Dev nD) (x0 : Fin 8 → Vec F S512x4096 .f32) (x1 : Vec F S4096x64 .f32) (x2 : Vec F S64x64 .f32) (s0 : St F) : st c x0 x1 x2 s0 1 = stepA c (x0 0) x1 x2 s0 := rfl
theorem st_2 (c : Dev nD) (x0 : Fin 8 → Vec F S512x4096 .f32) (x1 : Vec F S4096x64 .f32) (x2 : Vec F S64x64 .f32) (s0 : St F) : st c x0 x1 x2 s0 2 = stepB c t0_1 (nc0 t0_1 (by decide)) (nc4 t0_1 (by decide)) (nc5 t0_1 (by decide)) (nc6 t0_1 (by decide)) (nc7 t0_1 (by decide)) (x0 1) x1 x2 (st c x0 x1 x2 s0 1) := rfl
theorem st_3 (c : Dev nD) (x0 : Fin 8 → Vec F S512x4096 .f32) (x1 : Vec F S4096x64 .f32) (x2 : Vec F S64x64 .f32) (s0 : St F) : st c x0 x1 x2 s0 3 = stepB c t0_2 (nc0 t0_2 (by decide)) (nc4 t0_2 (by decide)) (nc5 t0_2 (by decide)) (nc6 t0_2 (by decide)) (nc7 t0_2 (by decide)) (x0 2) x1 x2 (st c x0 x1 x2 s0 2) := rfl
theorem st_4 (c : Dev nD) (x0 : Fin 8 → Vec F S512x4096 .f32) (x1 : Vec F S4096x64 .f32) (x2 : Vec F S64x64 .f32) (s0 : St F) : st c x0 x1 x2 s0 4 = stepB c t0_3 (nc0 t0_3 (by decide)) (nc4 t0_3 (by decide)) (nc5 t0_3 (by decide)) (nc6 t0_3 (by decide)) (nc7 t0_3 (by decide)) (x0 3) x1 x2 (st c x0 x1 x2 s0 3) := rfl
theorem st_5 (c : Dev nD) (x0 : Fin 8 → Vec F S512x4096 .f32) (x1 : Vec F S4096x64 .f32) (x2 : Vec F S64x64 .f32) (s0 : St F) : st c x0 x1 x2 s0 5 = stepC c (x0 4) x1 x2 (st c x0 x1 x2 s0 4) := rfl
theorem st_6 (c : Dev nD) (x0 : Fin 8 → Vec F S512x4096 .f32) (x1 : Vec F S4096x64 .f32) (x2 : Vec F S64x64 .f32) (s0 : St F) : st c x0 x1 x2 s0 6 = stepD c (x0 5) x1 x2 (st c x0 x1 x2 s0 5) := rfl
theorem st_7 (c : Dev nD) (x0 : Fin 8 → Vec F S512x4096 .f32) (x1 : Vec F S4096x64 .f32) (x2 : Vec F S64x64 .f32) (s0 : St F) : st c x0 x1 x2 s0 7 = stepE c (x0 6) x1 x2 (st c x0 x1 x2 s0 6) := rfl
theorem st_8 (c : Dev nD) (x0 : Fin 8 → Vec F S512x4096 .f32) (x1 : Vec F S4096x64 .f32) (x2 : Vec F S64x64 .f32) (s0 : St F) : st c x0 x1 x2 s0 8 = stepF c (x0 7) x1 x2 (st c x0 x1 x2 s0 7) := rfl

/-- The invariant at a point's start and end, by the point's number. -/
theorem Phi_castSucc (c : Dev nD) (t : Fin cfg0.N) : (dats m after3 0 c).Φ t.castSucc = PhiS m c t.val := rfl
theorem Phi_succ (c : Dev nD) (t : Fin cfg0.N) : (dats m after3 0 c).Φ t.succ = PhiS m c (t.val + 1) := rfl
theorem PhiS_zero (c : Dev nD) : PhiS m c 0 = Pipeline.ΦA spec0 c := rfl
theorem PhiS_succ (c : Dev nD) (n : ℕ) : PhiS m c (n + 1) = iprop(iprop(∃ s0 : St F, owned c (st c (X0 m c) (X1 m c) (X2 m c) s0 (n + 1))) ∗ (∃ r, prngReg c r)) := rfl

/-- What the body is called with, the input buffers at their blocks. -/
theorem bodyPre_eq (c : Dev nD) (t : Fin cfg0.N) :
    bodyPre m after3 c t = iprop(PhiS m c t.val ∗ (dats m after3 0 c).owesAt () t.castSucc
      ∗ (∃ d : (cfg0.win 0).block.Idx → Elt F (cfg0.win 0).elt, owns (c : Thread nD τ) (ms0 t) fullShare (iblk m c 0 t))
      ∗ (∃ d : (cfg0.win 1).block.Idx → Elt F (cfg0.win 1).elt, owns (c : Thread nD τ) (ms1 t) fullShare (X1 m c))
      ∗ (∃ d : (cfg0.win 2).block.Idx → Elt F (cfg0.win 2).elt, owns (c : Thread nD τ) (ms2 t) fullShare (X2 m c))
      ∗ (∃ d, owns (c : Thread nD τ) (ms3 t) fullShare ((dats m after3 0 c).before 3 t d))) := by
  unfold bodyPre
  simp only [before0_0, before0_1, before0_2]
  rw [show (iblk m c 1 t : Vec F S4096x64 .f32) = X1 m c from iblk1_const m c t, show (iblk m c 2 t : Vec F S64x64 .f32) = X2 m c from iblk2_const m c t]
  rfl

/-- What the body returns, the input buffers at their blocks. -/
theorem bodyPost_eq (c : Dev nD) (t : Fin cfg0.N) :
    bodyPost m after3 c t = iprop(PhiS m c (t.val + 1) ∗ (dats m after3 0 c).owesAt () t.castSucc
      ∗ owns (c : Thread nD τ) (ms0 t) fullShare (iblk m c 0 t)
      ∗ owns (c : Thread nD τ) (ms1 t) fullShare (X1 m c)
      ∗ owns (c : Thread nD τ) (ms2 t) fullShare (X2 m c)
      ∗ (dats m after3 0 c).leavesExact 3 t) := by
  unfold bodyPost
  rw [show (dats m after3 0 c).owesAt () t.succ = (dats m after3 0 c).owesAt () t.castSucc from rfl]
  rw [show (dats m after3 0 c).leavesExact 0 t = owns (c : Thread nD τ) (ms0 t) fullShare ((dats m after3 0 c).after 0 t) from by
      unfold Dat.leavesExact; rw [liveAt0 t], after0_0]
  rw [show (dats m after3 0 c).leavesExact 1 t = owns (c : Thread nD τ) (ms1 t) fullShare ((dats m after3 0 c).after 1 t) from by
      unfold Dat.leavesExact; rw [liveAt1 t], after0_1]
  rw [show (dats m after3 0 c).leavesExact 2 t = owns (c : Thread nD τ) (ms2 t) fullShare ((dats m after3 0 c).after 2 t) from by
      unfold Dat.leavesExact; rw [liveAt2 t], after0_2]
  rw [show (iblk m c 1 t : Vec F S4096x64 .f32) = X1 m c from iblk1_const m c t, show (iblk m c 2 t : Vec F S64x64 .f32) = X2 m c from iblk2_const m c t]
  rfl

end Cert.KernelIdeal.Body

end
-- ==== Proof.KI.BodyPt0.lean ====
/-
  The body at point 0 of the grid meets its part of the pipeline's obligation: from the invariant before the point and
  the staging buffers at their blocks, it runs to the invariant after the point, the input buffers as they were and the idle output buffer untouched.
-/
import proofs.«166917_g34531537059966_cont_sun_m_1070_24_alg».proof.Proof.KI.BodyData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (after3 : Dev nD → Vec F S4096x64 .f32)

set_option maxHeartbeats 2000000 in
theorem sound_pt0 (c : Dev nD) :
    bodyPre m after3 c t0_0 ⊢ wp frame (wpE (defs₀ (F := F)) Variants.none c none) Set.univ (bodyAt0 t0_0) (fun _ => bodyPost m after3 c t0_0) := by
  rw [bodyPre_eq, bodyPost_eq]
  rw [show PhiS m c (t0_0).val = Pipeline.ΦA spec0 c from rfl, PhiA_eq]
  rw [show PhiS m c ((t0_0).val + 1) = iprop(iprop(∃ s0 : St F, owned c (st c (X0 m c) (X1 m c) (X2 m c) s0 1)) ∗ (∃ r, prngReg c r)) from rfl]
  rw [Dat.leavesExact_idle (dats m after3 0 c) 3 t0_0 (idleAt3 t0_0 (by decide)) (noFlush3 t0_0 (by decide))]
  rw [show (iblk m c 0 t0_0 : Vec F S512x4096 .f32) = X0 m c 0 from rfl]
  iintro ⟨⟨⟨⟨%dA, HA⟩, ⟨%dD, HD⟩, ⟨%dG, HG⟩, ⟨%dS, HS⟩, ⟨%dC, HC⟩⟩, Hg⟩, Ho, ⟨%d0, H0⟩, ⟨%d1, H1⟩, ⟨%d2, H2⟩, ⟨%d3, H3⟩⟩
  iapply (runA c (X0 m c 0) (X1 m c) (X2 m c) (⟨dA, dD, dG, dS, dC⟩ : St F) _ _)
  isplitl [HA HD HG HS HC]
  · unfold owned; dsimp only
    isplitl [HA]; · iexact HA
    isplitl [HD]; · iexact HD
    isplitl [HG]; · iexact HG
    isplitl [HS]; · iexact HS
    iexact HC
  isplitl [H0]; · iexact H0
  isplitl [H1]; · iexact H1
  isplitl [H2]; · iexact H2
  isplitl [H3]; · iexact H3
  iintro ⟨Hs, H0, H1, H2, H3⟩
  isplitl [Hs Hg]
  · isplitl [Hs]
    · iexists (⟨dA, dD, dG, dS, dC⟩ : St F)
      rw [st_1]
      iexact Hs
    iexact Hg
  isplitl [Ho]; · iexact Ho
  isplitl [H0]; · iexact H0
  isplitl [H1]; · iexact H1
  isplitl [H2]; · iexact H2
  iexists _; iexact H3

end Cert.KernelIdeal.Body

end
-- ==== Proof.KI.BodyPt1.lean ====
/-
  The body at point 1 of the grid meets its part of the pipeline's obligation: from the invariant before the point and
  the staging buffers at their blocks, it runs to the invariant after the point, the input buffers as they were and the idle output buffer untouched.
-/
import proofs.«166917_g34531537059966_cont_sun_m_1070_24_alg».proof.Proof.KI.BodyData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (after3 : Dev nD → Vec F S4096x64 .f32)

set_option maxHeartbeats 2000000 in
theorem sound_pt1 (c : Dev nD) :
    bodyPre m after3 c t0_1 ⊢ wp frame (wpE (defs₀ (F := F)) Variants.none c none) Set.univ (bodyAt0 t0_1) (fun _ => bodyPost m after3 c t0_1) := by
  rw [bodyPre_eq, bodyPost_eq]
  rw [show PhiS m c (t0_1).val = iprop(iprop(∃ s0 : St F, owned c (st c (X0 m c) (X1 m c) (X2 m c) s0 1)) ∗ (∃ r, prngReg c r)) from rfl]
  rw [show PhiS m c ((t0_1).val + 1) = iprop(iprop(∃ s0 : St F, owned c (st c (X0 m c) (X1 m c) (X2 m c) s0 2)) ∗ (∃ r, prngReg c r)) from rfl]
  rw [Dat.leavesExact_idle (dats m after3 0 c) 3 t0_1 (idleAt3 t0_1 (by decide)) (noFlush3 t0_1 (by decide))]
  rw [show (iblk m c 0 t0_1 : Vec F S512x4096 .f32) = X0 m c 1 from rfl]
  iintro ⟨⟨⟨%s0, Hs⟩, Hg⟩, Ho, ⟨%d0, H0⟩, ⟨%d1, H1⟩, ⟨%d2, H2⟩, ⟨%d3, H3⟩⟩
  iapply (runB c t0_1 (nc0 t0_1 (by decide)) (nc4 t0_1 (by decide)) (nc5 t0_1 (by decide)) (nc6 t0_1 (by decide)) (nc7 t0_1 (by decide)) (X0 m c 1) (X1 m c) (X2 m c) (st c (X0 m c) (X1 m c) (X2 m c) s0 1) _ _)
  isplitl [Hs]; · iexact Hs
  isplitl [H0]; · iexact H0
  isplitl [H1]; · iexact H1
  isplitl [H2]; · iexact H2
  isplitl [H3]; · iexact H3
  iintro ⟨Hs, H0, H1, H2, H3⟩
  isplitl [Hs Hg]
  · isplitl [Hs]
    · iexists s0
      rw [st_2]
      iexact Hs
    iexact Hg
  isplitl [Ho]; · iexact Ho
  isplitl [H0]; · iexact H0
  isplitl [H1]; · iexact H1
  isplitl [H2]; · iexact H2
  iexists _; iexact H3

end Cert.KernelIdeal.Body

end
-- ==== Proof.KI.BodyPt2.lean ====
/-
  The body at point 2 of the grid meets its part of the pipeline's obligation: from the invariant before the point and
  the staging buffers at their blocks, it runs to the invariant after the point, the input buffers as they were and the idle output buffer untouched.
-/
import proofs.«166917_g34531537059966_cont_sun_m_1070_24_alg».proof.Proof.KI.BodyData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (after3 : Dev nD → Vec F S4096x64 .f32)

set_option maxHeartbeats 2000000 in
theorem sound_pt2 (c : Dev nD) :
    bodyPre m after3 c t0_2 ⊢ wp frame (wpE (defs₀ (F := F)) Variants.none c none) Set.univ (bodyAt0 t0_2) (fun _ => bodyPost m after3 c t0_2) := by
  rw [bodyPre_eq, bodyPost_eq]
  rw [show PhiS m c (t0_2).val = iprop(iprop(∃ s0 : St F, owned c (st c (X0 m c) (X1 m c) (X2 m c) s0 2)) ∗ (∃ r, prngReg c r)) from rfl]
  rw [show PhiS m c ((t0_2).val + 1) = iprop(iprop(∃ s0 : St F, owned c (st c (X0 m c) (X1 m c) (X2 m c) s0 3)) ∗ (∃ r, prngReg c r)) from rfl]
  rw [Dat.leavesExact_idle (dats m after3 0 c) 3 t0_2 (idleAt3 t0_2 (by decide)) (noFlush3 t0_2 (by decide))]
  rw [show (iblk m c 0 t0_2 : Vec F S512x4096 .f32) = X0 m c 2 from rfl]
  iintro ⟨⟨⟨%s0, Hs⟩, Hg⟩, Ho, ⟨%d0, H0⟩, ⟨%d1, H1⟩, ⟨%d2, H2⟩, ⟨%d3, H3⟩⟩
  iapply (runB c t0_2 (nc0 t0_2 (by decide)) (nc4 t0_2 (by decide)) (nc5 t0_2 (by decide)) (nc6 t0_2 (by decide)) (nc7 t0_2 (by decide)) (X0 m c 2) (X1 m c) (X2 m c) (st c (X0 m c) (X1 m c) (X2 m c) s0 2) _ _)
  isplitl [Hs]; · iexact Hs
  isplitl [H0]; · iexact H0
  isplitl [H1]; · iexact H1
  isplitl [H2]; · iexact H2
  isplitl [H3]; · iexact H3
  iintro ⟨Hs, H0, H1, H2, H3⟩
  isplitl [Hs Hg]
  · isplitl [Hs]
    · iexists s0
      rw [st_3]
      iexact Hs
    iexact Hg
  isplitl [Ho]; · iexact Ho
  isplitl [H0]; · iexact H0
  isplitl [H1]; · iexact H1
  isplitl [H2]; · iexact H2
  iexists _; iexact H3

end Cert.KernelIdeal.Body

end
-- ==== Proof.KI.BodyPt3.lean ====
/-
  The body at point 3 of the grid meets its part of the pipeline's obligation: from the invariant before the point and
  the staging buffers at their blocks, it runs to the invariant after the point, the input buffers as they were and the idle output buffer untouched.
-/
import proofs.«166917_g34531537059966_cont_sun_m_1070_24_alg».proof.Proof.KI.BodyData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (after3 : Dev nD → Vec F S4096x64 .f32)

set_option maxHeartbeats 2000000 in
theorem sound_pt3 (c : Dev nD) :
    bodyPre m after3 c t0_3 ⊢ wp frame (wpE (defs₀ (F := F)) Variants.none c none) Set.univ (bodyAt0 t0_3) (fun _ => bodyPost m after3 c t0_3) := by
  rw [bodyPre_eq, bodyPost_eq]
  rw [show PhiS m c (t0_3).val = iprop(iprop(∃ s0 : St F, owned c (st c (X0 m c) (X1 m c) (X2 m c) s0 3)) ∗ (∃ r, prngReg c r)) from rfl]
  rw [show PhiS m c ((t0_3).val + 1) = iprop(iprop(∃ s0 : St F, owned c (st c (X0 m c) (X1 m c) (X2 m c) s0 4)) ∗ (∃ r, prngReg c r)) from rfl]
  rw [Dat.leavesExact_idle (dats m after3 0 c) 3 t0_3 (idleAt3 t0_3 (by decide)) (noFlush3 t0_3 (by decide))]
  rw [show (iblk m c 0 t0_3 : Vec F S512x4096 .f32) = X0 m c 3 from rfl]
  iintro ⟨⟨⟨%s0, Hs⟩, Hg⟩, Ho, ⟨%d0, H0⟩, ⟨%d1, H1⟩, ⟨%d2, H2⟩, ⟨%d3, H3⟩⟩
  iapply (runB c t0_3 (nc0 t0_3 (by decide)) (nc4 t0_3 (by decide)) (nc5 t0_3 (by decide)) (nc6 t0_3 (by decide)) (nc7 t0_3 (by decide)) (X0 m c 3) (X1 m c) (X2 m c) (st c (X0 m c) (X1 m c) (X2 m c) s0 3) _ _)
  isplitl [Hs]; · iexact Hs
  isplitl [H0]; · iexact H0
  isplitl [H1]; · iexact H1
  isplitl [H2]; · iexact H2
  isplitl [H3]; · iexact H3
  iintro ⟨Hs, H0, H1, H2, H3⟩
  isplitl [Hs Hg]
  · isplitl [Hs]
    · iexists s0
      rw [st_4]
      iexact Hs
    iexact Hg
  isplitl [Ho]; · iexact Ho
  isplitl [H0]; · iexact H0
  isplitl [H1]; · iexact H1
  isplitl [H2]; · iexact H2
  iexists _; iexact H3

end Cert.KernelIdeal.Body

end
-- ==== Proof.KI.BodyPt4.lean ====
/-
  The body at point 4 of the grid meets its part of the pipeline's obligation: from the invariant before the point and
  the staging buffers at their blocks, it runs to the invariant after the point, the input buffers as they were and the idle output buffer untouched.
-/
import proofs.«166917_g34531537059966_cont_sun_m_1070_24_alg».proof.Proof.KI.BodyData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (after3 : Dev nD → Vec F S4096x64 .f32)

set_option maxHeartbeats 2000000 in
theorem sound_pt4 (c : Dev nD) :
    bodyPre m after3 c t0_4 ⊢ wp frame (wpE (defs₀ (F := F)) Variants.none c none) Set.univ (bodyAt0 t0_4) (fun _ => bodyPost m after3 c t0_4) := by
  rw [bodyPre_eq, bodyPost_eq]
  rw [show PhiS m c (t0_4).val = iprop(iprop(∃ s0 : St F, owned c (st c (X0 m c) (X1 m c) (X2 m c) s0 4)) ∗ (∃ r, prngReg c r)) from rfl]
  rw [show PhiS m c ((t0_4).val + 1) = iprop(iprop(∃ s0 : St F, owned c (st c (X0 m c) (X1 m c) (X2 m c) s0 5)) ∗ (∃ r, prngReg c r)) from rfl]
  rw [Dat.leavesExact_idle (dats m after3 0 c) 3 t0_4 (idleAt3 t0_4 (by decide)) (noFlush3 t0_4 (by decide))]
  rw [show (iblk m c 0 t0_4 : Vec F S512x4096 .f32) = X0 m c 4 from rfl]
  iintro ⟨⟨⟨%s0, Hs⟩, Hg⟩, Ho, ⟨%d0, H0⟩, ⟨%d1, H1⟩, ⟨%d2, H2⟩, ⟨%d3, H3⟩⟩
  iapply (runC c (X0 m c 4) (X1 m c) (X2 m c) (st c (X0 m c) (X1 m c) (X2 m c) s0 4) _ _)
  isplitl [Hs]; · iexact Hs
  isplitl [H0]; · iexact H0
  isplitl [H1]; · iexact H1
  isplitl [H2]; · iexact H2
  isplitl [H3]; · iexact H3
  iintro ⟨Hs, H0, H1, H2, H3⟩
  isplitl [Hs Hg]
  · isplitl [Hs]
    · iexists s0
      rw [st_5]
      iexact Hs
    iexact Hg
  isplitl [Ho]; · iexact Ho
  isplitl [H0]; · iexact H0
  isplitl [H1]; · iexact H1
  isplitl [H2]; · iexact H2
  iexists _; iexact H3

end Cert.KernelIdeal.Body

end
-- ==== Proof.KI.BodyPt5.lean ====
/-
  The body at point 5 of the grid meets its part of the pipeline's obligation: from the invariant before the point and
  the staging buffers at their blocks, it runs to the invariant after the point, the input buffers as they were and the idle output buffer untouched.
-/
import proofs.«166917_g34531537059966_cont_sun_m_1070_24_alg».proof.Proof.KI.BodyData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (after3 : Dev nD → Vec F S4096x64 .f32)

set_option maxHeartbeats 2000000 in
theorem sound_pt5 (c : Dev nD) :
    bodyPre m after3 c t0_5 ⊢ wp frame (wpE (defs₀ (F := F)) Variants.none c none) Set.univ (bodyAt0 t0_5) (fun _ => bodyPost m after3 c t0_5) := by
  rw [bodyPre_eq, bodyPost_eq]
  rw [show PhiS m c (t0_5).val = iprop(iprop(∃ s0 : St F, owned c (st c (X0 m c) (X1 m c) (X2 m c) s0 5)) ∗ (∃ r, prngReg c r)) from rfl]
  rw [show PhiS m c ((t0_5).val + 1) = iprop(iprop(∃ s0 : St F, owned c (st c (X0 m c) (X1 m c) (X2 m c) s0 6)) ∗ (∃ r, prngReg c r)) from rfl]
  rw [Dat.leavesExact_idle (dats m after3 0 c) 3 t0_5 (idleAt3 t0_5 (by decide)) (noFlush3 t0_5 (by decide))]
  rw [show (iblk m c 0 t0_5 : Vec F S512x4096 .f32) = X0 m c 5 from rfl]
  iintro ⟨⟨⟨%s0, Hs⟩, Hg⟩, Ho, ⟨%d0, H0⟩, ⟨%d1, H1⟩, ⟨%d2, H2⟩, ⟨%d3, H3⟩⟩
  iapply (runD c (X0 m c 5) (X1 m c) (X2 m c) (st c (X0 m c) (X1 m c) (X2 m c) s0 5) _ _)
  isplitl [Hs]; · iexact Hs
  isplitl [H0]; · iexact H0
  isplitl [H1]; · iexact H1
  isplitl [H2]; · iexact H2
  isplitl [H3]; · iexact H3
  iintro ⟨Hs, H0, H1, H2, H3⟩
  isplitl [Hs Hg]
  · isplitl [Hs]
    · iexists s0
      rw [st_6]
      iexact Hs
    iexact Hg
  isplitl [Ho]; · iexact Ho
  isplitl [H0]; · iexact H0
  isplitl [H1]; · iexact H1
  isplitl [H2]; · iexact H2
  iexists _; iexact H3

end Cert.KernelIdeal.Body

end
-- ==== Proof.KI.BodyPt6.lean ====
/-
  The body at point 6 of the grid meets its part of the pipeline's obligation: from the invariant before the point and
  the staging buffers at their blocks, it runs to the invariant after the point, the input buffers as they were and the idle output buffer untouched.
-/
import proofs.«166917_g34531537059966_cont_sun_m_1070_24_alg».proof.Proof.KI.BodyData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (after3 : Dev nD → Vec F S4096x64 .f32)

set_option maxHeartbeats 2000000 in
theorem sound_pt6 (c : Dev nD) :
    bodyPre m after3 c t0_6 ⊢ wp frame (wpE (defs₀ (F := F)) Variants.none c none) Set.univ (bodyAt0 t0_6) (fun _ => bodyPost m after3 c t0_6) := by
  rw [bodyPre_eq, bodyPost_eq]
  rw [show PhiS m c (t0_6).val = iprop(iprop(∃ s0 : St F, owned c (st c (X0 m c) (X1 m c) (X2 m c) s0 6)) ∗ (∃ r, prngReg c r)) from rfl]
  rw [show PhiS m c ((t0_6).val + 1) = iprop(iprop(∃ s0 : St F, owned c (st c (X0 m c) (X1 m c) (X2 m c) s0 7)) ∗ (∃ r, prngReg c r)) from rfl]
  rw [Dat.leavesExact_idle (dats m after3 0 c) 3 t0_6 (idleAt3 t0_6 (by decide)) (noFlush3 t0_6 (by decide))]
  rw [show (iblk m c 0 t0_6 : Vec F S512x4096 .f32) = X0 m c 6 from rfl]
  iintro ⟨⟨⟨%s0, Hs⟩, Hg⟩, Ho, ⟨%d0, H0⟩, ⟨%d1, H1⟩, ⟨%d2, H2⟩, ⟨%d3, H3⟩⟩
  iapply (runE c (X0 m c 6) (X1 m c) (X2 m c) (st c (X0 m c) (X1 m c) (X2 m c) s0 6) _ _)
  isplitl [Hs]; · iexact Hs
  isplitl [H0]; · iexact H0
  isplitl [H1]; · iexact H1
  isplitl [H2]; · iexact H2
  isplitl [H3]; · iexact H3
  iintro ⟨Hs, H0, H1, H2, H3⟩
  isplitl [Hs Hg]
  · isplitl [Hs]
    · iexists s0
      rw [st_7]
      iexact Hs
    iexact Hg
  isplitl [Ho]; · iexact Ho
  isplitl [H0]; · iexact H0
  isplitl [H1]; · iexact H1
  isplitl [H2]; · iexact H2
  iexists _; iexact H3

end Cert.KernelIdeal.Body

end
-- ==== Proof.KI.BodyPt7.lean ====
/-
  The body at point 7 of the grid meets its part of the pipeline's obligation: from the invariant before the point and
  the staging buffers at their blocks, it runs to the invariant after the point, the input buffers as they were, and the output buffer at the block the chain of steps ends at.
-/
import proofs.«166917_g34531537059966_cont_sun_m_1070_24_alg».proof.Proof.KI.BodyData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (after3 : Dev nD → Vec F S4096x64 .f32)

theorem outLast_eq (c : Dev nD) (s0 : St F) : outLast c (X0 m c) (X1 m c) (X2 m c) s0 = outF c (X0 m c 7) (X1 m c) (X2 m c) (st c (X0 m c) (X1 m c) (X2 m c) s0 7) := rfl

variable (hV : ∀ (c : Dev nD) (s0 : St F), outLast c (X0 m c) (X1 m c) (X2 m c) s0 = after3 c)

include hV in
set_option maxHeartbeats 2000000 in
theorem sound_pt7 (c : Dev nD) :
    bodyPre m after3 c t0_7 ⊢ wp frame (wpE (defs₀ (F := F)) Variants.none c none) Set.univ (bodyAt0 t0_7) (fun _ => bodyPost m after3 c t0_7) := by
  rw [bodyPre_eq, bodyPost_eq]
  rw [show PhiS m c (t0_7).val = iprop(iprop(∃ s0 : St F, owned c (st c (X0 m c) (X1 m c) (X2 m c) s0 7)) ∗ (∃ r, prngReg c r)) from rfl]
  rw [show PhiS m c ((t0_7).val + 1) = iprop(iprop(∃ s0 : St F, owned c (st c (X0 m c) (X1 m c) (X2 m c) s0 8)) ∗ (∃ r, prngReg c r)) from rfl]
  rw [show (dats m after3 0 c).leavesExact 3 t0_7 = owns (c : Thread nD τ) (ms3 t0_7) fullShare ((dats m after3 0 c).after 3 t0_7) from by
      unfold Dat.leavesExact; rw [liveAt3 t0_7 rfl], after0_3]
  rw [show (iblk m c 0 t0_7 : Vec F S512x4096 .f32) = X0 m c 7 from rfl]
  iintro ⟨⟨⟨%s0, Hs⟩, Hg⟩, Ho, ⟨%d0, H0⟩, ⟨%d1, H1⟩, ⟨%d2, H2⟩, ⟨%d3, H3⟩⟩
  iapply (runF c (X0 m c 7) (X1 m c) (X2 m c) (st c (X0 m c) (X1 m c) (X2 m c) s0 7) _ _)
  isplitl [Hs]; · iexact Hs
  isplitl [H0]; · iexact H0
  isplitl [H1]; · iexact H1
  isplitl [H2]; · iexact H2
  isplitl [H3]; · iexact H3
  iintro ⟨Hs, H0, H1, H2, H3⟩
  isplitl [Hs Hg]
  · isplitl [Hs]
    · iexists s0
      rw [st_8]
      iexact Hs
    iexact Hg
  isplitl [Ho]; · iexact Ho
  isplitl [H0]; · iexact H0
  isplitl [H1]; · iexact H1
  isplitl [H2]; · iexact H2
  rw [← hV c s0, outLast_eq]; iexact H3

end Cert.KernelIdeal.Body

end
-- ==== Proof.KI.BodyRun.lean ====
/-
  The eight points together: the pipeline's body obligation, the launch, and what the arrays hold at the end. The output
  array is written back once, at the last point, as one block that is the whole array: it ends holding `after3`; the
  argument arrays end as they began.
-/
import proofs.«166917_g34531537059966_cont_sun_m_1070_24_alg».proof.Proof.KI.BodyPt0
import proofs.«166917_g34531537059966_cont_sun_m_1070_24_alg».proof.Proof.KI.BodyPt1
import proofs.«166917_g34531537059966_cont_sun_m_1070_24_alg».proof.Proof.KI.BodyPt2
import proofs.«166917_g34531537059966_cont_sun_m_1070_24_alg».proof.Proof.KI.BodyPt3
import proofs.«166917_g34531537059966_cont_sun_m_1070_24_alg».proof.Proof.KI.BodyPt4
import proofs.«166917_g34531537059966_cont_sun_m_1070_24_alg».proof.Proof.KI.BodyPt5
import proofs.«166917_g34531537059966_cont_sun_m_1070_24_alg».proof.Proof.KI.BodyPt6
import proofs.«166917_g34531537059966_cont_sun_m_1070_24_alg».proof.Proof.KI.BodyPt7
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (after3 : Dev nD → Vec F S4096x64 .f32)
variable (hV : ∀ (c : Dev nD) (s0 : St F), outLast c (X0 m c) (X1 m c) (X2 m c) s0 = after3 c)

include hV in
/-- The body at any point. -/
theorem sound_body (c : Dev nD) (t : Fin cfg0.N) :
    bodyPre m after3 c t ⊢ wp frame (wpE (defs₀ (F := F)) Variants.none c none) Set.univ (bodyAt0 t) (fun _ => bodyPost m after3 c t) := by
  rcases fin_N0 t with rfl | rfl | rfl | rfl | rfl | rfl | rfl | rfl
  · exact sound_pt0 m after3 c
  · exact sound_pt1 m after3 c
  · exact sound_pt2 m after3 c
  · exact sound_pt3 m after3 c
  · exact sound_pt4 m after3 c
  · exact sound_pt5 m after3 c
  · exact sound_pt6 m after3 c
  · exact sound_pt7 m after3 hV c

include hV in
/-- The library's body obligation, at every point. -/
theorem body_obligation (c : Dev nD) : BodyObligation (dats (F := F) m after3 0 c) (defs₀ (F := F)) Variants.none () Set.univ := fun t => by
  rw [bigSep_W0, bigSep_W0]
  exact sound_body m after3 hV c t

/-- What the launch hands the region is the invariant before the first point. -/
theorem hin (c : Dev nD) : Pipeline.ΦA spec0 c ⊢ (dats m after3 0 c).Φ 0 := by
  rw [show (dats m after3 0 c).Φ 0 = Pipeline.ΦA spec0 c from rfl]

/-- After the last point the invariant gives the class's back: the scratch buffers' contents are forgotten. -/
theorem hout (c : Dev nD) : (dats m after3 0 c).Φ (Fin.last cfg0.N) ⊢ Pipeline.ΦA spec0 c := by
  rw [show (dats m after3 0 c).Φ (Fin.last cfg0.N) = iprop(iprop(∃ s0 : St F, owned c (st c (X0 m c) (X1 m c) (X2 m c) s0 8)) ∗ (∃ r, prngReg c r)) from rfl, PhiA_eq]
  unfold owned
  iintro ⟨⟨%s0, HA, HD, HG, HS, HC⟩, Hg⟩
  isplitr [Hg]
  · isplitl [HA]; · iexists _; iexact HA
    isplitl [HD]; · iexists _; iexact HD
    isplitl [HG]; · iexists _; iexact HG
    isplitl [HS]; · iexists _; iexact HS
    iexists _; iexact HC
  iexact Hg

set_option backward.isDefEq.respectTransparency.types false in
include hV in
/-- Every weakly fair execution of the program terminates, each array of the pipeline ending at what the library
    computes from the proof data and every other unscoped buffer as the region found it. -/
theorem run_main : θ_run defs (onTc (τ := τ) (main (F := F))) (s₀ m ρ) (Pipeline.FramePost cfgs (dats m after3) 0 (V m)) :=
  Pipeline.θ_run_frame_track cfgs (dats m after3) (0 : Fin 1) launch0 defs₀ Variants.none m ρ main
    (hbody := fun c => (body_obligation m after3 hV c).loose) (hshare := fun c => (dats m after3 0 c).share_full fun _ => rfl)
    (howed := fun _ _ => rfl) (V := V m) (hmain := hmain m Variants.none) (hA := A_eq m after3) (hin := hin m after3) (hout := hout m after3)

include hV in
/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m after3) (A_eq m after3) (run_main m ρ after3 hV)

/-! ## The output array at the end -/

/-- The output window has a single block, which starts at the array's origin. -/
theorem out_origin : (fun a => win0_3.index t0_7 a * main_v0.ty.shape.size a) = fun _ => 0 :=
  funext fun a => by fin_cases a <;> decide

/-- That block holds every index of the output array. -/
theorem out_block_full (i : S4096x64.Idx) : i ∈ ((View.whole main_v0).slice (win0_3.rect t0_7)).set := by
  rw [View.set_slice_whole, Rect.mem_set_unit]
  intro a
  have hr : (i 0 : Nat) < 4096 := (i 0).isLt
  have hc : (i 1 : Nat) < 64 := (i 1).isLt
  match a with
  | ⟨0, _⟩ =>
    show win0_3.index t0_7 0 * win0_3.size 0 ≤ (i 0 : Nat) ∧ (i 0 : Nat) < win0_3.index t0_7 0 * win0_3.size 0 + win0_3.xsize (grid0.coords t0_7) 0
    rw [show win0_3.index t0_7 0 * win0_3.size 0 = 0 from by decide +kernel, show win0_3.xsize (grid0.coords t0_7) 0 = 4096 from by decide +kernel]
    omega
  | ⟨1, _⟩ =>
    show win0_3.index t0_7 1 * win0_3.size 1 ≤ (i 1 : Nat) ∧ (i 1 : Nat) < win0_3.index t0_7 1 * win0_3.size 1 + win0_3.xsize (grid0.coords t0_7) 1
    rw [show win0_3.index t0_7 1 * win0_3.size 1 = 0 from by decide +kernel, show win0_3.xsize (grid0.coords t0_7) 1 = 64 from by decide +kernel]
    omega

/-- Only the last point writes the output back, and what it writes is `after3`. -/
theorem written_back (c : Dev nD) (t : Fin cfg0.N) (hf : (cfg0.win 3).flush t = true) :
    (dats m after3 0 c).flushed 3 t = ((cfg0.win 3).blk t).view.read (Elt F) (after3 c) := by
  obtain rfl : t = t0_7 := Fin.ext (by
    have h7 := (flush0_3 t).mp hf
    have hlt := t.isLt
    have hN : cfg0.N = 8 := N_0
    show t.val = 7
    omega)
  show (cfg0.win 3).cut (grid0.coords t0_7) ((dats m after3 0 c).after 3 t0_7) = _
  rw [after0_3]
  exact (Memref.read_access_unit_zero (Elt F) main_v0 out_origin (fun a => by rw [congrFun out_origin a]; simp) (after3 c)).symm

/-- So the output array ends holding `after3`. -/
theorem final_o (c : Dev nD) : (dats m after3 0 c).arrAt 3 cfg0.N = after3 c :=
  (dats m after3 0 c).arrAt_eq_of_cover 3 (after3 c) (written_back m after3 c) fun i =>
    ⟨t0_7, (flush0_3 t0_7).mpr rfl, out_block_full i⟩

include hV in
/-- The run, read: the result array ends at `after3`, the argument arrays as they began. -/
theorem run_value : θ_run defs (onTc (τ := τ) (main (F := F))) ⟨m, fun _ => 0, ρ⟩ (fun r => ∀ c : Dev nD,
      r.2.mem ((c.tc : Thread nD τ).loc main_v0) = after3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final_o m after3 c),
      ((h c).1 0).trans (((dats m after3 0 c).arrAt_in 0 rfl _).trans ((A_eq m after3 c 0).trans (V_main_arg0 m c))),
      ((h c).1 1).trans (((dats m after3 0 c).arrAt_in 1 rfl _).trans ((A_eq m after3 c 1).trans (V_main_arg1 m c))),
      ((h c).1 2).trans (((dats m after3 0 c).arrAt_in 2 rfl _).trans ((A_eq m after3 c 2).trans (V_main_arg2 m c)))⟩)
    (run_main m ρ after3 hV)

/-! ## The input blocks as parts of the argument arrays -/

/-- The first window's block at point `t` is rows `512 t … 512 t + 511` of the first argument. -/
theorem iblk0_apply (c : Dev nD) (t : Fin cfg0.N) (x : S512x4096.Idx) (k : S4096x4096.Idx)
    (hk0 : (k 0).val = 512 * t.val + (x 0).val) (hk1 : (k 1).val = (x 1).val) :
    (iblk m c 0 t : Vec F S512x4096 .f32) x = (m ((c : Thread nD τ).loc main_arg0) : S4096x4096.Idx → Elt F .f32) k := by
  have hi : win0_0.index t 0 = t.val ∧ win0_0.index t 1 = 0 := by
    rcases fin_N0 t with rfl | rfl | rfl | rfl | rfl | rfl | rfl | rfl <;> decide
  unfold iblk
  rw [View.read_apply]
  show V m c main_arg0 _ = m (c.tc.loc main_arg0) _
  unfold V
  congr 1
  funext a
  apply Fin.ext
  match a with
  | ⟨0, _⟩ => show win0_0.index t 0 * 512 + 1 * (x 0).val = (k 0).val; rw [hi.1, hk0]; omega
  | ⟨1, _⟩ => show win0_0.index t 1 * 4096 + 1 * (x 1).val = (k 1).val; rw [hi.2, hk1]; omega

/-- The second window's one block is the second argument, whole. -/
theorem X1_eq (c : Dev nD) : X1 m c = (m ((c : Thread nD τ).loc main_arg1) : S4096x64.Idx → Elt F .f32) := by
  funext x
  unfold X1 iblk
  rw [View.read_apply]
  show V m c main_arg1 _ = m (c.tc.loc main_arg1) _
  unfold V
  congr 1
  funext a
  apply Fin.ext
  match a with
  | ⟨0, _⟩ => show win0_1.index t0_0 0 * 4096 + 1 * (x 0).val = (x 0).val; rw [show win0_1.index t0_0 0 = 0 from by decide]; omega
  | ⟨1, _⟩ => show win0_1.index t0_0 1 * 64 + 1 * (x 1).val = (x 1).val; rw [show win0_1.index t0_0 1 = 0 from by decide]; omega

/-- The third window's one block is the third argument, whole. -/
theorem X2_eq (c : Dev nD) : X2 m c = (m ((c : Thread nD τ).loc main_arg2) : S64x64.Idx → Elt F .f32) := by
  funext x
  unfold X2 iblk
  rw [View.read_apply]
  show V m c main_arg2 _ = m (c.tc.loc main_arg2) _
  unfold V
  congr 1
  funext a
  apply Fin.ext
  match a with
  | ⟨0, _⟩ => show win0_2.index t0_0 0 * 64 + 1 * (x 0).val = (x 0).val; rw [show win0_2.index t0_0 0 = 0 from by decide]; omega
  | ⟨1, _⟩ => show win0_2.index t0_0 1 * 64 + 1 * (x 1).val = (x 1).val; rw [show win0_2.index t0_0 1 = 0 from by decide]; omega

end Cert.KernelIdeal.Body

end
-- ==== Proof.KI.ReadLib.lean ====
/-
  Reading a buffer after a list of stores, one element at a time.

  A whole buffer that held x and was then overwritten by pieces of whole rows reads, at a row under the newest
  piece, that piece's value at the row's position within the piece, and at any other row what the rest of the
  list left; with no piece it reads x. A load through a rectangle reads the buffer at the rectangle's offset plus
  the position; a load that the pieces cover reads the same whatever the buffer held before.
-/
import proofs.«166917_g34531537059966_cont_sun_m_1070_24_alg».proof.Proof.KI.Chain
import Idealize.ShloMosaic.Lib.WritesUnit
import Idealize.ShloMosaic.Lib.ValueIdx
import Idealize.ShloMosaic.Lib.Pipeline.Value

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

variable {F : FTy → Type} [FloatOps F]

/-- The three row offsets the body computes at point t are 512·t. -/
theorem off1_eq (t : Fin cfg0.N) : k0_off1 (grid0.coords t) = ![512 * t.val, 0] := by rw [k0_off1_eq, coord_val]
theorem off2_eq (t : Fin cfg0.N) : k0_off2 (grid0.coords t) = ![512 * t.val, 0] := by rw [k0_off2_eq, coord_val]
theorem off3_eq (t : Fin cfg0.N) : k0_off3 (grid0.coords t) = ![512 * t.val, 0] := by rw [k0_off3_eq, coord_val]

section Any
variable {s : Shape} {e : EltTy} (mr : Memref sig .tc .vmem s e) (h : mr.IsWhole) (x : Vec F s e)

/-- With no store the buffer reads what it held. -/
theorem wr_nil : wr mr h x [] = x := by
  unfold wr; rw [View.writes_nil]; exact h.read_unread x

/-- A load of the buffer as it was reads it at the rectangle's element. -/
theorem readAt_unread (R : LoadRect s) (y : R.shape.Idx) :
    View.readAt (Elt F) mr.view R (h.unread x) y = x (R.idx y) := by
  rw [View.readAt_apply, h.read_unread]

/-- A load after stores reads the overwritten buffer at the rectangle's element. -/
theorem readAt_writes (L : List (View.Piece (Elt F) s e)) (R : LoadRect s) (y : R.shape.Idx) :
    View.readAt (Elt F) mr.view R (mr.view.writes (Elt F) (h.unread x) L) y = wr mr h x L (R.idx y) := rfl

end Any

section Rows
variable {d : Fin 2 → ℕ} {e : EltTy} (mr : Memref sig .tc .vmem (⟨2, d⟩ : Shape) e) (h : mr.IsWhole) (x : Vec F (⟨2, d⟩ : Shape) e)

/-- A row under the newest piece reads the piece's value at the row's position in it. -/
theorem wr_rows_mem {off size : Fin 2 → ℕ} {o : ℕ} (inb : ∀ a : Fin 2, off a + size a ≤ d a)
    (w : (Rect.unit (s := ⟨2, d⟩) off size inb).shape.Idx → Elt F e) (L : List (View.Piece (Elt F) (⟨2, d⟩ : Shape) e))
    (y : (⟨2, d⟩ : Shape).Idx) (z : (Rect.unit (s := ⟨2, d⟩) off size inb).shape.Idx) (hoff : off = ![o, 0])
    (hz0 : (y (0 : Fin 2)).val = o + (z (0 : Fin 2)).val) (hz1 : (y (1 : Fin 2)).val = (z (1 : Fin 2)).val) :
    wr mr h x ((⟨Rect.unit (s := ⟨2, d⟩) off size inb, w⟩ : View.Piece (Elt F) (⟨2, d⟩ : Shape) e) :: L) y = w z :=
  View.read_writes_cons_rows_of_mem mr.view (h.unread x) inb w L y z hoff hz0 hz1

/-- A row outside the newest piece reads what the rest of the list left. -/
theorem wr_rows_not_mem {off size : Fin 2 → ℕ} {o W : ℕ} (inb : ∀ a : Fin 2, off a + size a ≤ d a)
    (w : (Rect.unit (s := ⟨2, d⟩) off size inb).shape.Idx → Elt F e) (L : List (View.Piece (Elt F) (⟨2, d⟩ : Shape) e))
    (y : (⟨2, d⟩ : Shape).Idx) (hoff : off = ![o, 0]) (hW : size (0 : Fin 2) = W)
    (hy : (y (0 : Fin 2)).val < o ∨ o + W ≤ (y (0 : Fin 2)).val) :
    wr mr h x ((⟨Rect.unit (s := ⟨2, d⟩) off size inb, w⟩ : View.Piece (Elt F) (⟨2, d⟩ : Shape) e) :: L) y = wr mr h x L y :=
  View.read_writes_cons_rows_of_not_mem mr.view (h.unread x) inb w L y hoff hW hy

/-- A load of rows the newest piece covers reads the overwritten buffer, whatever it held before. -/
theorem readCov_rows [∀ e, Nonempty (Elt F e)] {off size : Fin 2 → ℕ} {o W : ℕ} (inb : ∀ a : Fin 2, off a + size a ≤ d a)
    (w : (Rect.unit (s := ⟨2, d⟩) off size inb).shape.Idx → Elt F e) (L : List (View.Piece (Elt F) (⟨2, d⟩ : Shape) e))
    (R : LoadRect (⟨2, d⟩ : Shape)) (y : R.shape.Idx) (hoff : off = ![o, 0]) (hW : size (0 : Fin 2) = W)
    (hD : size (1 : Fin 2) = d (1 : Fin 2)) (hy : o ≤ (R.idx y (0 : Fin 2)).val ∧ (R.idx y (0 : Fin 2)).val < o + W) :
    mr.view.readCov ((⟨Rect.unit (s := ⟨2, d⟩) off size inb, w⟩ : View.Piece (Elt F) (⟨2, d⟩ : Shape) e) :: L) R y
      = wr mr h x ((⟨Rect.unit (s := ⟨2, d⟩) off size inb, w⟩ : View.Piece (Elt F) (⟨2, d⟩ : Shape) e) :: L) (R.idx y) := by
  subst hoff
  unfold wr View.readCov
  rw [View.readAt_apply]
  exact View.read_writes_apply_eq (v := mr.view) (f := mr.view.junk) mr.view (h.unread x) (R.idx y) _
    ⟨⟨Rect.unit (s := ⟨2, d⟩) ![o, 0] size inb, w⟩, List.mem_cons_self,
      (Rect.mem_set_unit (inb := inb)).mpr (Rect.unit_rows_mem (R.idx y) hW hD hy)⟩

end Rows

/-- A rank-2 index is the index of its two coordinates' values. -/
theorem ix2_of_vals {n w : ℕ} (i : (⟨2, ![n, w]⟩ : Shape).Idx) (r : Fin n) (o : Fin w) (h0 : (i 0).val = r.val)
    (h1 : (i 1).val = o.val) : i = ix2 r o :=
  funext fun a => Fin.ext (by match a with | ⟨0, _⟩ => exact h0 | ⟨1, _⟩ => exact h1)

/-- The element a rectangle of whole rows from row o places a position at: row o plus the position's row, its column. -/
theorem idx_rows {d : Fin 2 → ℕ} {off size : Fin 2 → ℕ} {o : ℕ} (inb : ∀ a : Fin 2, off a + size a ≤ d a) (hoff : off = ![o, 0])
    (z : (Rect.unit (s := ⟨2, d⟩) off size inb).shape.Idx) :
    ((Rect.unit (s := ⟨2, d⟩) off size inb).toLoadRect.idx z (0 : Fin 2)).val = o + (z (0 : Fin 2)).val
      ∧ ((Rect.unit (s := ⟨2, d⟩) off size inb).toLoadRect.idx z (1 : Fin 2)).val = (z (1 : Fin 2)).val := by
  subst hoff
  exact ⟨by show o + 1 * (z (0 : Fin 2)).val = _; omega, by show 0 + 1 * (z (1 : Fin 2)).val = _; omega⟩

/-- The element a rectangle at row o, column c places a position at. -/
theorem idx_at {d : Fin 2 → ℕ} {size : Fin 2 → ℕ} (o c : ℕ) (inb : ∀ a : Fin 2, (![o, c] : Fin 2 → ℕ) a + size a ≤ d a)
    (z : (Rect.unit (s := ⟨2, d⟩) ![o, c] size inb).shape.Idx) :
    ((Rect.unit (s := ⟨2, d⟩) ![o, c] size inb).toLoadRect.idx z (0 : Fin 2)).val = o + (z (0 : Fin 2)).val
      ∧ ((Rect.unit (s := ⟨2, d⟩) ![o, c] size inb).toLoadRect.idx z (1 : Fin 2)).val = c + (z (1 : Fin 2)).val :=
  ⟨by show o + 1 * (z (0 : Fin 2)).val = _; omega, by show c + 1 * (z (1 : Fin 2)).val = _; omega⟩

/-- A whole rank-2 buffer loaded whole is its contents. -/
theorem load_whole2 {d : Fin 2 → ℕ} {e : EltTy} (mr : Memref sig .tc .vmem (⟨2, d⟩ : Shape) e) (h : mr.IsWhole)
    (x : Vec F (⟨2, d⟩ : Shape) e) (inb : ∀ a : Fin 2, (![0, 0] : Fin 2 → ℕ) a + d a ≤ d a) :
    View.readAt (Elt F) mr.view (Rect.unit (s := ⟨2, d⟩) ![0, 0] d inb).toLoadRect (h.unread x) = x := by
  rw [View.readAt_eq_ld, h.read_unread]
  exact View.ld_unit_zero (S := ⟨2, d⟩) (funext fun a => by match a with | ⟨0, _⟩ => rfl | ⟨1, _⟩ => rfl) _ x

/-- The point's block of the matrix, loaded whole, is the block. -/
theorem load_x0 (t : Fin cfg0.N) (x0 : Vec F S512x4096 .f32) :
    View.readAt (Elt F) (ms0 t).view (Rect.unit ![0, 0] ![512, 4096] inb_S512x4096_S512x4096_0_0).toLoadRect ((hs0 t).unread x0) = x0 := by
  rw [View.readAt_eq_ld, (hs0 t).read_unread]
  exact View.ld_unit_zero (S := S512x4096) (funext fun a => by match a with | ⟨0, _⟩ => rfl | ⟨1, _⟩ => rfl) _ x0

end Cert.KernelIdeal.Body

end
-- ==== Proof.KI.Target.lean ====
/-
  What the scratch buffers hold, as functions of the adjacency matrix and the two other arguments: the degree
  scales, the projected features, the scaled projected features, and the accumulator's partial sums.

  The accumulator of row r, column o gathers the terms A[r,k] · (scale_k · proj[k,o]) over ranges of k; a sum over
  consecutive ranges is the sum over their union, and the sum over all of [0, 4096) is the specification's sum.
-/
import proofs.«166917_g34531537059966_cont_sun_m_1070_24_alg».proof.Proof.Spec

noncomputable section

open scoped BigOperators

namespace Cert.KernelIdeal.Target

open Idealize.ShloMosaic Idealize.ShloMosaic.ValueIdx Cert.Proof

variable (A : (⟨2, ![4096, 4096]⟩ : Shape).Idx → EReal) (x1 : (⟨2, ![4096, 64]⟩ : Shape).Idx → EReal)
  (x2 : (⟨2, ![64, 64]⟩ : Shape).Idx → EReal)

/-- The degree scales, as a column. -/
def Dv : (⟨2, ![4096, 1]⟩ : Shape).Idx → EReal := fun i => Spec.kscale (Spec.deg A (i 0))
/-- The projected features. -/
def Pv : (⟨2, ![4096, 64]⟩ : Shape).Idx → EReal := fun i => Spec.proj x1 x2 (i 0) (i 1)
/-- The scaled projected features. -/
def Sv : (⟨2, ![4096, 64]⟩ : Shape).Idx → EReal := fun i => Spec.kscale (Spec.deg A (i 0)) * Spec.proj x1 x2 (i 0) (i 1)

/-- The k-th term of row r, column o of the product of the matrix with the scaled projected features. -/
def term (r : Fin 4096) (o : Fin 64) (n : ℕ) : EReal :=
  if h : n < 4096 then A (ix2 r ⟨n, h⟩) * Sv A x1 x2 (ix2 ⟨n, h⟩ o) else 0

/-- The terms over the columns [lo, hi). -/
def part (r : Fin 4096) (o : Fin 64) (lo hi : ℕ) : EReal := ∑ n ∈ Finset.Ico lo hi, term A x1 x2 r o n

/-- Consecutive ranges add up. -/
theorem part_add (r : Fin 4096) (o : Fin 64) {lo mid hi : ℕ} (h1 : lo ≤ mid) (h2 : mid ≤ hi) :
    part A x1 x2 r o lo mid + part A x1 x2 r o mid hi = part A x1 x2 r o lo hi :=
  Finset.sum_Ico_consecutive _ h1 h2

/-- A product of an entry of row r with the scaled features' entry of the same k, column o, is the k-th term. -/
theorem term_eq (r : Fin 4096) (o : Fin 64) (i : (⟨2, ![4096, 4096]⟩ : Shape).Idx) (i' : (⟨2, ![4096, 64]⟩ : Shape).Idx)
    (h0 : (i 0).val = r.val) (h1 : (i' 0).val = (i 1).val) (h2 : (i' 1).val = o.val) :
    A i * Sv A x1 x2 i' = term A x1 x2 r o (i 1).val := by
  unfold term
  rw [dif_pos (show (i 1).val < 4096 from (i 1).isLt)]
  congr 2
  · funext a; apply Fin.ext; match a with
    | ⟨0, _⟩ => exact h0
    | ⟨1, _⟩ => rfl
  · funext a; apply Fin.ext; match a with
    | ⟨0, _⟩ => exact h1
    | ⟨1, _⟩ => exact h2

/-- A block's sum over K columns from c on is the part over [c, c + K). -/
theorem blk_sum (r : Fin 4096) (o : Fin 64) (c K : ℕ) (f : Fin K → EReal)
    (hf : ∀ k : Fin K, f k = term A x1 x2 r o (c + k.val)) : ∑ k, f k = part A x1 x2 r o c (c + K) := by
  simp only [hf]
  rw [Fin.sum_univ_eq_sum_range (fun n => term A x1 x2 r o (c + n)) K, part, Finset.sum_Ico_eq_sum_range,
    Nat.add_sub_cancel_left]

/-- The part over all columns is the specification's sum. -/
theorem part_full (r : Fin 4096) (o : Fin 64) :
    part A x1 x2 r o 0 4096
      = ∑ k : Fin 4096, A (ix2 r k) * (Spec.kscale (Spec.deg A k) * Spec.proj x1 x2 k o) := by
  unfold part
  rw [← Finset.range_eq_Ico, ← Fin.sum_univ_eq_sum_range]
  refine Finset.sum_congr rfl fun k _ => ?_
  unfold term
  rw [dif_pos k.isLt]
  rfl

end Cert.KernelIdeal.Target

end
-- ==== Proof.KI.Base.lean ====
/-
  What holds of the scratch buffers after the first n grid points, whatever they held at the start: the rows of
  the first n blocks of the stashed matrix are the adjacency matrix's, those rows of the degree scales and of the
  scaled projected features are their targets, and after the first point the projected features are whole.

  One point's step overwrites block j's rows of the three row-blocked buffers from the point's block of the
  matrix and leaves the other rows; so the property passes from n = j to n = j + 1.
-/
import proofs.«166917_g34531537059966_cont_sun_m_1070_24_alg».proof.Proof.KI.Chain
import proofs.«166917_g34531537059966_cont_sun_m_1070_24_alg».proof.Proof.KI.Target
import Idealize.ShloMosaic.Lib.ValueIdx

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (A : Vec Ideal S4096x4096 .f32) (x1 : Vec Ideal S4096x64 .f32) (x2 : Vec Ideal S64x64 .f32)

/-- After n points: the first 512·n rows hold their targets. -/
structure Base (n : ℕ) (s : St Ideal) : Prop where
  hA : ∀ (r k : Fin 4096), r.val < 512 * n → s.A (ix2 r k) = A (ix2 r k)
  hD : ∀ (r : Fin 4096), r.val < 512 * n → s.D (ix2 r (0 : Fin 1)) = Dv A (ix2 r (0 : Fin 1))
  hG : 1 ≤ n → ∀ (r : Fin 4096) (o : Fin 64), s.G (ix2 r o) = Pv x1 x2 (ix2 r o)
  hS : ∀ (r : Fin 4096) (o : Fin 64), r.val < 512 * n → s.S (ix2 r o) = Sv A x1 x2 (ix2 r o)

/-- The same at an index not split into its coordinates. -/
theorem Base.hA' {n : ℕ} {s : St Ideal} (hb : Base A x1 x2 n s) (i : S4096x4096.Idx) (h : (i 0).val < 512 * n) : s.A i = A i := by
  obtain ⟨r, k, rfl⟩ : ∃ (r k : Fin 4096), i = ix2 r k := ⟨i 0, i 1, eq_ix2 i⟩
  exact hb.hA r k h
theorem Base.hS' {n : ℕ} {s : St Ideal} (hb : Base A x1 x2 n s) (i : S4096x64.Idx) (h : (i 0).val < 512 * n) : s.S i = Sv A x1 x2 i := by
  obtain ⟨r, o, rfl⟩ : ∃ (r : Fin 4096) (o : Fin 64), i = ix2 r o := ⟨i 0, i 1, eq_ix2 i⟩
  exact hb.hS r o h

/-- Nothing is asked of the state the region starts with. -/
theorem Base.zero (s : St Ideal) : Base A x1 x2 0 s :=
  ⟨fun r _ h => absurd h (by omega), fun r h => absurd h (by omega), fun h => absurd h (by omega), fun r _ h => absurd h (by omega)⟩

/-- One point's step on the row-blocked buffers: block j's rows are overwritten from the point's block of the
    matrix, the other rows are kept; the projected features are written at the first point and kept afterwards. -/
structure Step (j : ℕ) (blk : Vec Ideal S512x4096 .f32) (s s' : St Ideal) : Prop where
  A_in : ∀ (r k : Fin 4096) (z : Fin 512), r.val = 512 * j + z.val → s'.A (ix2 r k) = blk (ix2 z k)
  A_out : ∀ (r k : Fin 4096), (r.val < 512 * j ∨ 512 * j + 512 ≤ r.val) → s'.A (ix2 r k) = s.A (ix2 r k)
  D_in : ∀ (r : Fin 4096) (z : Fin 512), r.val = 512 * j + z.val →
    s'.D (ix2 r (0 : Fin 1)) = Spec.kscale (∑ k : Fin 4096, blk (ix2 z k))
  D_out : ∀ (r : Fin 4096), (r.val < 512 * j ∨ 512 * j + 512 ≤ r.val) → s'.D (ix2 r (0 : Fin 1)) = s.D (ix2 r (0 : Fin 1))
  S_in : ∀ (r : Fin 4096) (o : Fin 64) (z : Fin 512), r.val = 512 * j + z.val →
    s'.S (ix2 r o) = Spec.kscale (∑ k : Fin 4096, blk (ix2 z k)) * s'.G (ix2 r o)
  S_out : ∀ (r : Fin 4096) (o : Fin 64), (r.val < 512 * j ∨ 512 * j + 512 ≤ r.val) → s'.S (ix2 r o) = s.S (ix2 r o)
  G_new : (j = 0 ∧ ∀ (r : Fin 4096) (o : Fin 64), s'.G (ix2 r o) = Pv x1 x2 (ix2 r o)) ∨ (0 < j ∧ s'.G = s.G)

/-- The property passes through a step whose block is block j of the adjacency matrix. -/
theorem Base.step {j : ℕ} {blk : Vec Ideal S512x4096 .f32} {s s' : St Ideal} (hb : Base A x1 x2 j s)
    (hs : Step x1 x2 j blk s s')
    (hblk : ∀ (z : Fin 512) (k : Fin 4096) (r : Fin 4096), r.val = 512 * j + z.val → blk (ix2 z k) = A (ix2 r k)) :
    Base A x1 x2 (j + 1) s' := by
  have hG' : ∀ (r : Fin 4096) (o : Fin 64), s'.G (ix2 r o) = Pv x1 x2 (ix2 r o) := by
    rcases hs.G_new with ⟨_, h⟩ | ⟨hj, h⟩
    · exact h
    · intro r o; rw [h]; exact hb.hG hj r o
  have hdeg : ∀ (r : Fin 4096) (z : Fin 512), r.val = 512 * j + z.val →
      Spec.kscale (∑ k : Fin 4096, blk (ix2 z k)) = Spec.kscale (Spec.deg A r) := fun r z h =>
    congrArg Spec.kscale (Finset.sum_congr rfl fun k _ => hblk z k r h)
  refine ⟨fun r k h => ?_, fun r h => ?_, fun _ => hG', fun r o h => ?_⟩
  · by_cases hlt : r.val < 512 * j
    · rw [hs.A_out r k (Or.inl hlt)]; exact hb.hA r k hlt
    · have hz : r.val - 512 * j < 512 := by omega
      rw [hs.A_in r k ⟨r.val - 512 * j, hz⟩ (by show r.val = 512 * j + (r.val - 512 * j); omega)]
      exact hblk _ k r (by show r.val = 512 * j + (r.val - 512 * j); omega)
  · by_cases hlt : r.val < 512 * j
    · rw [hs.D_out r (Or.inl hlt)]; exact hb.hD r hlt
    · have hz : r.val - 512 * j < 512 := by omega
      rw [hs.D_in r ⟨r.val - 512 * j, hz⟩ (by show r.val = 512 * j + (r.val - 512 * j); omega)]
      exact hdeg r _ (by show r.val = 512 * j + (r.val - 512 * j); omega)
  · by_cases hlt : r.val < 512 * j
    · rw [hs.S_out r o (Or.inl hlt)]; exact hb.hS r o hlt
    · have hz : r.val - 512 * j < 512 := by omega
      rw [hs.S_in r o ⟨r.val - 512 * j, hz⟩ (by show r.val = 512 * j + (r.val - 512 * j); omega), hG' r o,
        hdeg r _ (by show r.val = 512 * j + (r.val - 512 * j); omega)]
      rfl

end Cert.KernelIdeal.Body

end
-- ==== Proof.KI.PayAt.lean ====
/-
  The kernel body's values read at an index, over the extended reals.

  Each value the body stores is a function of the values it loaded. A matrix product into a zero accumulator is,
  at row r and column o, the sum over the contracted axis ∑ₖ x[r,k] · y[k,o]; an accumulating step adds that sum
  to the running value; the product against a transposed matrix sums x[r,j] · w[o,j]. The scale of a block of
  rows is the masked reciprocal square root of each row's sum: an infinite reciprocal square root (of a zero or
  of an infinite or negative sum) is replaced by zero, which is the specification's scale of the row sum. A
  column [a,1] broadcast along rows reads its one entry of the row, a change of float format is the identity,
  and a cast to the same shape changes nothing.
-/
import proofs.«166917_g34531537059966_cont_sun_m_1070_24_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«166917_g34531537059966_cont_sun_m_1070_24_alg».proof.Proof.Spec

noncomputable section

open scoped BigOperators

namespace Cert.KernelIdeal.PayAt

open Idealize.ShloMosaic Idealize.ShloMosaic.ValueIdx Cert.KernelIdeal Cert.KernelIdeal.Gen Cert.Proof

/-! ### A plain product [a,K] · [K,b] at an index -/

section Plain
variable {a K b : ℕ} (wf : DotDims.WF (⟨2, ![a, K]⟩ : Shape) ⟨2, ![K, b]⟩ ⟨2, ![a, b]⟩ [1] [0] [0] [1] [] [])

/-- The dimension numbers of a plain product: the left operand's columns contracted against the right's rows. -/
abbrev plainDims : DotDims (⟨2, ![a, K]⟩ : Shape) ⟨2, ![K, b]⟩ ⟨2, ![a, b]⟩ := ⟨[1], [0], [0], [1], [], [], wf⟩

/-- The left operand is read at the result's row and the contraction's coordinate, -/
theorem plain_lhs_row (i : (⟨2, ![a, b]⟩ : Shape).Idx) (q : (plainDims wf).contr.Idx) :
    ((plainDims wf).lhsIdx i q 0).val = (i 0).val := by
  unfold DotDims.lhsIdx
  rw [dif_neg (show ¬(0 : Fin (⟨2, ![a, K]⟩ : Shape).rank) ∈ (plainDims wf).lhsBatch from List.not_mem_nil),
    dif_pos (show (0 : Fin (⟨2, ![a, K]⟩ : Shape).rank) ∈ (plainDims wf).lhsNonContracting from List.mem_singleton.mpr rfl)]
  rfl
theorem plain_lhs_col (i : (⟨2, ![a, b]⟩ : Shape).Idx) (q : (plainDims wf).contr.Idx) :
    ((plainDims wf).lhsIdx i q 1).val = (q ⟨0, Nat.one_pos⟩).val :=
  (plainDims wf).lhsIdx_val_of_single rfl i q
/-- the right operand at the contraction's coordinate and the result's column. -/
theorem plain_rhs_row (i : (⟨2, ![a, b]⟩ : Shape).Idx) (q : (plainDims wf).contr.Idx) :
    ((plainDims wf).rhsIdx i q 0).val = (q ⟨0, Nat.one_pos⟩).val :=
  (plainDims wf).rhsIdx_val_of_single rfl i q
theorem plain_rhs_col (i : (⟨2, ![a, b]⟩ : Shape).Idx) (q : (plainDims wf).contr.Idx) :
    ((plainDims wf).rhsIdx i q 1).val = (i 1).val := by
  unfold DotDims.rhsIdx
  rw [dif_neg (show ¬(1 : Fin (⟨2, ![K, b]⟩ : Shape).rank) ∈ (plainDims wf).rhsBatch from List.not_mem_nil),
    dif_pos (show (1 : Fin (⟨2, ![K, b]⟩ : Shape).rank) ∈ (plainDims wf).rhsNonContracting from List.mem_singleton.mpr rfl)]
  rfl

/-- So the product's sum over the contraction's indices is ∑ₖ x[r,k] · y[k,o]. -/
theorem plain_sum (x : (⟨2, ![a, K]⟩ : Shape).Idx → EReal) (y : (⟨2, ![K, b]⟩ : Shape).Idx → EReal) (r : Fin a) (o : Fin b) :
    ∑ q : (plainDims wf).contr.Idx, x ((plainDims wf).lhsIdx (ix2 r o) q) * y ((plainDims wf).rhsIdx (ix2 r o) q)
      = ∑ k : Fin K, x (ix2 r k) * y (ix2 k o) := by
  rw [← Equiv.sum_comp (contrEquiv1 (plainDims wf) K rfl rfl).symm]
  refine Finset.sum_congr rfl fun k _ => ?_
  have hk := contrEquiv1_symm_val (plainDims wf) K rfl rfl k
  have el : (plainDims wf).lhsIdx (ix2 r o) ((contrEquiv1 (plainDims wf) K rfl rfl).symm k) = ix2 r k :=
    funext fun c => Fin.ext (by
      match c with
      | ⟨0, _⟩ => exact plain_lhs_row wf _ _
      | ⟨1, _⟩ => exact (plain_lhs_col wf _ _).trans hk)
  have er : (plainDims wf).rhsIdx (ix2 r o) ((contrEquiv1 (plainDims wf) K rfl rfl).symm k) = ix2 k o :=
    funext fun c => Fin.ext (by
      match c with
      | ⟨0, _⟩ => exact (plain_rhs_row wf _ _).trans hk
      | ⟨1, _⟩ => exact plain_rhs_col wf _ _)
  rw [el, er]

end Plain

/-! ### A column: [a] cast to [a,1], and [a,1] broadcast to [a,b] -/

/-- An [a] array cast to [a,1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a,1] column broadcast to [a,b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-! ### The masked reciprocal square root -/

/-- An extended real's absolute value is +∞ exactly when it is +∞ or -∞. -/
theorem abs_eq_top (v : EReal) : max v (-v) = ⊤ ↔ v = ⊤ ∨ v = ⊥ := by
  induction v using EReal.rec with
  | bot => simp
  | top => simp
  | coe x =>
    have h : max ((x : ℝ) : EReal) (-((x : ℝ) : EReal)) ≠ ⊤ := by
      rw [← EReal.coe_neg]
      rcases max_choice ((x : ℝ) : EReal) ((-x : ℝ) : EReal) with h | h <;> rw [h] <;> exact EReal.coe_ne_top _
    simp [h]

/-- The reciprocal square root with an infinite value replaced by zero is the specification's scale. -/
theorem masked_rsqrt (s : EReal) :
    Scalar.select (Ideal.cmp .oeq (max (Ideal.rsqrt s) (-(Ideal.rsqrt s))) (Ideal.ofBits .f32 0x7F800000#32))
      (Ideal.ofBits .f32 0x00000000#32) (Ideal.rsqrt s) = Spec.kscale s := by
  have e : Ideal.ofBits .f32 0x7F800000#32 = ⊤ := by simp [Ideal.ofBits, Ideal.ieee]
  unfold Spec.kscale
  rw [e, Ideal.ofBits_zero_f32]
  by_cases h : Ideal.rsqrt s = ⊤ ∨ Ideal.rsqrt s = ⊥
  · rw [if_pos h]
    have h' := (abs_eq_top _).2 h
    simp [Scalar.select, Ideal.cmp, h']
  · rw [if_neg h]
    have h' : ¬max (Ideal.rsqrt s) (-(Ideal.rsqrt s)) = ⊤ := fun e' => h ((abs_eq_top _).1 e')
    simp [Scalar.select, Ideal.cmp, h']

/-! ### The matrix products -/

theorem pay15_at (v46 : FVec Ideal S2048x2048 .bf16) (v47 : FVec Ideal S2048x64 .bf16) (r : Fin 2048) (o : Fin 64) :
    k0_pay15 (F := Ideal) v46 v47 (ix2 r o) = ∑ k : Fin 2048, v46 (ix2 r k) * v47 (ix2 k o) := by
  unfold k0_pay15
  rw [shapeCast_self]
  simp only [matmul]
  rw [Ideal.matmul_constant_zero_apply]
  exact plain_sum dot_S2048x2048_S2048x64_S2048x64_1_0_0_1_n_n.wf v46 v47 r o

theorem pay1_at (v46 : FVec Ideal S1024x2048 .bf16) (v47 : FVec Ideal S2048x64 .bf16) (r : Fin 1024) (o : Fin 64) :
    k0_pay1 (F := Ideal) v46 v47 (ix2 r o) = ∑ k : Fin 2048, v46 (ix2 r k) * v47 (ix2 k o) := by
  unfold k0_pay1
  rw [shapeCast_self]
  simp only [matmul]
  rw [Ideal.matmul_constant_zero_apply]
  exact plain_sum dot_S1024x2048_S2048x64_S1024x64_1_0_0_1_n_n.wf v46 v47 r o

theorem pay3_at (v46 : FVec Ideal S512x3072 .bf16) (v47 : FVec Ideal S3072x64 .bf16) (r : Fin 512) (o : Fin 64) :
    k0_pay3 (F := Ideal) v46 v47 (ix2 r o) = ∑ k : Fin 3072, v46 (ix2 r k) * v47 (ix2 k o) := by
  unfold k0_pay3
  rw [shapeCast_self]
  simp only [matmul]
  rw [Ideal.matmul_constant_zero_apply]
  exact plain_sum dot_S512x3072_S3072x64_S512x64_1_0_0_1_n_n.wf v46 v47 r o

theorem pay8_at (v62 : FVec Ideal S512x4096 .bf16) (v63 : FVec Ideal S4096x64 .bf16) (r : Fin 512) (o : Fin 64) :
    k0_pay8 (F := Ideal) v62 v63 (ix2 r o) = ∑ k : Fin 4096, v62 (ix2 r k) * v63 (ix2 k o) := by
  unfold k0_pay8
  rw [shapeCast_self]
  simp only [matmul]
  rw [Ideal.matmul_constant_zero_apply]
  exact plain_sum dot_S512x4096_S4096x64_S512x64_1_0_0_1_n_n.wf v62 v63 r o

/-! ### The accumulating steps -/

theorem pay2_at (v52 : FVec Ideal S2048x64 .f32) (v53 : FVec Ideal S2048x1024 .bf16) (v54 : FVec Ideal S1024x64 .bf16) (r : Fin 2048) (o : Fin 64) :
    k0_pay2 (F := Ideal) v52 v53 v54 (ix2 r o) = v52 (ix2 r o) + ∑ k : Fin 1024, v53 (ix2 r k) * v54 (ix2 k o) := by
  unfold k0_pay2
  rw [shapeCast_self]
  simp only [matmul]
  refine (addf_apply _ _ _).trans (congrArg (v52 (ix2 r o) + ·) ?_)
  rw [Ideal.matmul_constant_zero_apply]
  exact plain_sum dot_S2048x1024_S1024x64_S2048x64_1_0_0_1_n_n.wf v53 v54 r o

theorem pay4_at (v52 : FVec Ideal S1024x64 .f32) (v53 : FVec Ideal S1024x1024 .bf16) (v54 : FVec Ideal S1024x64 .bf16) (r : Fin 1024) (o : Fin 64) :
    k0_pay4 (F := Ideal) v52 v53 v54 (ix2 r o) = v52 (ix2 r o) + ∑ k : Fin 1024, v53 (ix2 r k) * v54 (ix2 k o) := by
  unfold k0_pay4
  rw [shapeCast_self]
  simp only [matmul]
  refine (addf_apply _ _ _).trans (congrArg (v52 (ix2 r o) + ·) ?_)
  rw [Ideal.matmul_constant_zero_apply]
  exact plain_sum dot_S1024x1024_S1024x64_S1024x64_1_0_0_1_n_n.wf v53 v54 r o

theorem pay5_at (v60 : FVec Ideal S3072x64 .f32) (v61 : FVec Ideal S3072x512 .bf16) (v62 : FVec Ideal S512x64 .bf16) (r : Fin 3072) (o : Fin 64) :
    k0_pay5 (F := Ideal) v60 v61 v62 (ix2 r o) = v60 (ix2 r o) + ∑ k : Fin 512, v61 (ix2 r k) * v62 (ix2 k o) := by
  unfold k0_pay5
  rw [shapeCast_self]
  simp only [matmul]
  refine (addf_apply _ _ _).trans (congrArg (v60 (ix2 r o) + ·) ?_)
  rw [Ideal.matmul_constant_zero_apply]
  exact plain_sum dot_S3072x512_S512x64_S3072x64_1_0_0_1_n_n.wf v61 v62 r o

theorem pay6_at (v46 : FVec Ideal S3072x64 .f32) (v47 : FVec Ideal S3072x512 .bf16) (v48 : FVec Ideal S512x64 .bf16) (r : Fin 3072) (o : Fin 64) :
    k0_pay6 (F := Ideal) v46 v47 v48 (ix2 r o) = v46 (ix2 r o) + ∑ k : Fin 512, v47 (ix2 r k) * v48 (ix2 k o) := by
  unfold k0_pay6
  rw [shapeCast_self]
  simp only [matmul]
  refine (addf_apply _ _ _).trans (congrArg (v46 (ix2 r o) + ·) ?_)
  rw [Ideal.matmul_constant_zero_apply]
  exact plain_sum dot_S3072x512_S512x64_S3072x64_1_0_0_1_n_n.wf v47 v48 r o

theorem pay7_at (v54 : FVec Ideal S512x64 .f32) (v55 : FVec Ideal S512x1024 .bf16) (v56 : FVec Ideal S1024x64 .bf16) (r : Fin 512) (o : Fin 64) :
    k0_pay7 (F := Ideal) v54 v55 v56 (ix2 r o) = v54 (ix2 r o) + ∑ k : Fin 1024, v55 (ix2 r k) * v56 (ix2 k o) := by
  unfold k0_pay7
  rw [shapeCast_self]
  simp only [matmul]
  refine (addf_apply _ _ _).trans (congrArg (v54 (ix2 r o) + ·) ?_)
  rw [Ideal.matmul_constant_zero_apply]
  exact plain_sum dot_S512x1024_S1024x64_S512x64_1_0_0_1_n_n.wf v55 v56 r o

/-! ### The scaled features, and the product against the transposed weights -/

theorem pay9_at (v68 : FVec Ideal S4096x1 .f32) (v69 : FVec Ideal S4096x64 .f32) (r : Fin 4096) (o : Fin 64) :
    k0_pay9 (F := Ideal) v68 v69 (ix2 r o) = v68 (ix2 r (0 : Fin 1)) * v69 (ix2 r o) := by
  unfold k0_pay9
  refine (mulf_apply _ _ _).trans (congrArg (· * v69 (ix2 r o)) ?_)
  exact broadcastTo_a1_ab_apply v68 _ r o

theorem pay10_at (v46 : FVec Ideal S4096x64 .f32) (v47 : FVec Ideal S64x64 .f32) (r : Fin 4096) (o : Fin 64) :
    k0_pay10 (F := Ideal) v46 v47 (ix2 r o) = ∑ j : Fin 64, v46 (ix2 r j) * v47 (ix2 o j) := by
  unfold k0_pay10
  rw [shapeCast_self]
  simp only [matmul]
  rw [Ideal.matmul_constant_zero_apply]
  refine (plain_sum dot_S4096x64_S64x64_S4096x64_1_0_0_1_n_n.wf v46 _ r o).trans ?_
  refine Finset.sum_congr rfl fun j _ => congrArg (v46 (ix2 r j) * ·) ?_
  exact transpose_ix2_apply v47 _ j o

/-! ### The scale of a block of rows -/

/-- A block row's sum, kept as a column, is the sum of the row. -/
theorem rowsum_at (v3 : FVec Ideal S512x4096 .f32) (r : Fin 512) :
    shapeCast S512x1 (multiReduction (F := Ideal) .add [1] S512 v3 0x00000000#32 reduces_S512x4096_S512 (.inl rfl) rfl)
        shapeCasts_S512_S512x1 (ix2 r (0 : Fin 1))
      = ∑ k : Fin 4096, v3 (ix2 r k) := by
  refine (shapeCast_a_a1_apply _ _ r 0).trans ?_
  refine (Ideal.multiReduction_add_single v3 0x00000000#32 reduces_S512x4096_S512 (.inl rfl) rfl (ix1 r)).trans ?_
  refine Finset.sum_congr rfl fun k _ => congrArg v3 (funext fun c => Fin.ext ?_)
  match c with
  | ⟨0, _⟩ => rfl
  | ⟨1, _⟩ => rfl

theorem pay11_at (v3 : FVec Ideal S512x4096 .f32) (r : Fin 512) :
    k0_pay11 (F := Ideal) v3 (ix2 r (0 : Fin 1)) = Spec.kscale (∑ k : Fin 4096, v3 (ix2 r k)) := by
  unfold k0_pay11
  refine (masked_rsqrt _).trans ?_
  exact congrArg Spec.kscale (rowsum_at v3 r)

theorem pay12_eq (v3 : FVec Ideal S512x4096 .f32) : k0_pay12 (F := Ideal) v3 = k0_pay11 (F := Ideal) v3 := by
  unfold k0_pay12
  exact shapeCast_self _ _

theorem pay13_at (v3 : FVec Ideal S512x4096 .f32) (r : Fin 512) (k : Fin 4096) :
    k0_pay13 (F := Ideal) v3 (ix2 r k) = v3 (ix2 r k) := by
  unfold k0_pay13
  rw [shapeCast_self]
  rfl

theorem pay14_at (v3 : FVec Ideal S512x4096 .f32) (v25 : FVec Ideal S512x64 .f32) (r : Fin 512) (o : Fin 64) :
    k0_pay14 (F := Ideal) v3 v25 (ix2 r o) = Spec.kscale (∑ k : Fin 4096, v3 (ix2 r k)) * v25 (ix2 r o) := by
  unfold k0_pay14
  rw [shapeCast_self]
  refine (mulf_apply _ _ _).trans (congrArg (· * v25 (ix2 r o)) ?_)
  exact (broadcastTo_a1_ab_apply (k0_pay11 (F := Ideal) v3) _ r o).trans (pay11_at v3 r)

end Cert.KernelIdeal.PayAt

end
-- ==== Proof.KI.StepRowsA.lean ====
/-
  The first point's step on the row-blocked buffers: the projected features are written whole; block 0's rows of the stashed matrix, of the degree scales and of the scaled projected features are written from the point's block of the matrix.
-/
import proofs.«166917_g34531537059966_cont_sun_m_1070_24_alg».proof.Proof.KI.ReadLib
import proofs.«166917_g34531537059966_cont_sun_m_1070_24_alg».proof.Proof.KI.Base
import proofs.«166917_g34531537059966_cont_sun_m_1070_24_alg».proof.Proof.KI.PayAt

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (c : Dev nD) (x0 : Vec Ideal S512x4096 .f32) (x1 : Vec Ideal S4096x64 .f32) (x2 : Vec Ideal S64x64 .f32) (s : St Ideal)

/-- The projected features after the first point. -/
theorem stepA_G (r : Fin 4096) (o : Fin 64) : (stepA c x0 x1 x2 s).G (ix2 r o) = Pv x1 x2 (ix2 r o) := by
  unfold stepA kernelRunA; dsimp only
  unfold kernelRunA.sl.HG_1
  refine (wr_rows_mem scG hwG s.G _ _ _ (ix2 r o) (ix2 r o) rfl (by show r.val = 0 + r.val; omega) rfl).trans ?_
  rw [load_whole2 (ms1 t0_0) (hs1 t0_0) x1, load_whole2 (ms2 t0_0) (hs2 t0_0) x2]
  exact PayAt.pay10_at x1 x2 r o

/-- The block of the projected features the first point loads back is what it has just written. -/
theorem stepA_Gload (r : Fin 4096) (o : Fin 64) (z : Fin 512) (hz : r.val = 512 * 0 + z.val) :
    kernelRunA.sl.v25 c (ms1 t0_0) (hs1 t0_0) (ms2 t0_0) (hs2 t0_0) scG x1 x2 (ix2 z o) = (stepA c x0 x1 x2 s).G (ix2 r o) := by
  unfold stepA kernelRunA; dsimp only
  unfold kernelRunA.sl.v25 kernelRunA.sl.HG_1
  refine (readCov_rows scG hwG s.G _ _ _ _ _ rfl rfl rfl ?_).trans ?_
  · rw [(idx_rows _ (off3_eq t0_0) _).1]
    show 0 ≤ 512 * 0 + z.val ∧ 512 * 0 + z.val < 0 + 4096
    omega
  · exact congrArg _ (ix2_of_vals _ r o ((idx_rows _ (off3_eq t0_0) _).1.trans hz.symm) (idx_rows _ (off3_eq t0_0) _).2)

/-- The step of case A on the row-blocked buffers. -/
theorem stepA_rows  :
    Step x1 x2 0 x0 s (stepA c x0 x1 x2 s) := by
  refine ⟨?_, ?_, ?_, ?_, ?_, ?_, ?_⟩
  · intro r k z hz
    unfold stepA kernelRunA; dsimp only
    refine (wr_rows_mem scA hwA s.A _ _ _ (ix2 r k) (ix2 z k) (off2_eq t0_0) hz rfl).trans ?_
    rw [load_x0]
    exact PayAt.pay13_at x0 z k
  · intro r k hout
    unfold stepA kernelRunA; dsimp only
    exact (wr_rows_not_mem scA hwA s.A _ _ _ (ix2 r k) (off2_eq t0_0) rfl (show (r.val < 512 * t0_0.val ∨ 512 * t0_0.val + 512 ≤ r.val) from hout)).trans (congrFun (wr_nil scA hwA s.A) _)
  · intro r z hz
    unfold stepA kernelRunA; dsimp only
    refine (wr_rows_mem scD hwD s.D _ _ _ (ix2 r (0 : Fin 1)) (ix2 z (0 : Fin 1)) (off1_eq t0_0) hz rfl).trans ?_
    rw [load_x0, PayAt.pay12_eq]
    exact PayAt.pay11_at x0 z
  · intro r hout
    unfold stepA kernelRunA; dsimp only
    exact (wr_rows_not_mem scD hwD s.D _ _ _ (ix2 r (0 : Fin 1)) (off1_eq t0_0) rfl (show (r.val < 512 * t0_0.val ∨ 512 * t0_0.val + 512 ≤ r.val) from hout)).trans (congrFun (wr_nil scD hwD s.D) _)
  · intro r o z hz
    rw [← stepA_Gload c x0 x1 x2 s r o z hz]
    unfold stepA kernelRunA; dsimp only
    refine (wr_rows_mem scS hwS s.S _ _ _ (ix2 r o) (ix2 z o) (off3_eq t0_0) hz rfl).trans ?_
    rw [load_x0]
    exact PayAt.pay14_at x0 _ z o
  · intro r o hout
    unfold stepA kernelRunA; dsimp only
    exact (wr_rows_not_mem scS hwS s.S _ _ _ (ix2 r o) (off3_eq t0_0) rfl (show (r.val < 512 * t0_0.val ∨ 512 * t0_0.val + 512 ≤ r.val) from hout)).trans (congrFun (wr_nil scS hwS s.S) _)
  · exact Or.inl ⟨rfl, stepA_G c x0 x1 x2 s⟩

end Cert.KernelIdeal.Body

end
-- ==== Proof.KI.StepRowsB.lean ====
/-
  A plain point's step on the row-blocked buffers: block t's rows of the stashed matrix, of the degree scales and of the scaled projected features are written from the point's block of the matrix; the projected features are kept.
-/
import proofs.«166917_g34531537059966_cont_sun_m_1070_24_alg».proof.Proof.KI.ReadLib
import proofs.«166917_g34531537059966_cont_sun_m_1070_24_alg».proof.Proof.KI.Base
import proofs.«166917_g34531537059966_cont_sun_m_1070_24_alg».proof.Proof.KI.PayAt

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (c : Dev nD) (x0 : Vec Ideal S512x4096 .f32) (x1 : Vec Ideal S4096x64 .f32) (x2 : Vec Ideal S64x64 .f32) (s : St Ideal)

/-- The step of case B on the row-blocked buffers. -/
theorem stepB_rows (t : Fin cfg0.N) (hc0 : ¬cond0 (grid0.coords t)) (hc4 : ¬cond4 (grid0.coords t)) (hc5 : ¬cond5 (grid0.coords t)) (hc6 : ¬cond6 (grid0.coords t)) (hc7 : ¬cond7 (grid0.coords t)) (hpos : 0 < t.val) :
    Step x1 x2 t.val x0 s (stepB c t hc0 hc4 hc5 hc6 hc7 x0 x1 x2 s) := by
  refine ⟨?_, ?_, ?_, ?_, ?_, ?_, ?_⟩
  · intro r k z hz
    unfold stepB kernelRunB; dsimp only
    refine (wr_rows_mem scA hwA s.A _ _ _ (ix2 r k) (ix2 z k) (off2_eq t) hz rfl).trans ?_
    rw [load_x0]
    exact PayAt.pay13_at x0 z k
  · intro r k hout
    unfold stepB kernelRunB; dsimp only
    exact (wr_rows_not_mem scA hwA s.A _ _ _ (ix2 r k) (off2_eq t) rfl hout).trans (congrFun (wr_nil scA hwA s.A) _)
  · intro r z hz
    unfold stepB kernelRunB; dsimp only
    refine (wr_rows_mem scD hwD s.D _ _ _ (ix2 r (0 : Fin 1)) (ix2 z (0 : Fin 1)) (off1_eq t) hz rfl).trans ?_
    rw [load_x0, PayAt.pay12_eq]
    exact PayAt.pay11_at x0 z
  · intro r hout
    unfold stepB kernelRunB; dsimp only
    exact (wr_rows_not_mem scD hwD s.D _ _ _ (ix2 r (0 : Fin 1)) (off1_eq t) rfl hout).trans (congrFun (wr_nil scD hwD s.D) _)
  · intro r o z hz
    have hG : (stepB c t hc0 hc4 hc5 hc6 hc7 x0 x1 x2 s).G = s.G := by
      unfold stepB kernelRunB; dsimp only
      exact wr_nil scG hwG s.G
    rw [hG]
    unfold stepB kernelRunB; dsimp only
    refine (wr_rows_mem scS hwS s.S _ _ _ (ix2 r o) (ix2 z o) (off3_eq t) hz rfl).trans ?_
    rw [load_x0]
    refine (PayAt.pay14_at x0 _ z o).trans (congrArg (Spec.kscale _ * ·) ?_)
    refine (readAt_unread scG hwG s.G _ _).trans (congrArg s.G ?_)
    exact ix2_of_vals _ r o ((idx_rows _ (off3_eq t) (ix2 z o)).1.trans hz.symm) (idx_rows _ (off3_eq t) (ix2 z o)).2
  · intro r o hout
    unfold stepB kernelRunB; dsimp only
    exact (wr_rows_not_mem scS hwS s.S _ _ _ (ix2 r o) (off3_eq t) rfl hout).trans (congrFun (wr_nil scS hwS s.S) _)
  · refine Or.inr ⟨hpos, ?_⟩
    unfold stepB kernelRunB; dsimp only
    exact wr_nil scG hwG s.G

end Cert.KernelIdeal.Body

end
-- ==== Proof.KI.StepRowsC.lean ====
/-
  The step of the point 4 on the row-blocked buffers: block 4's rows of the stashed matrix, of the degree scales and of the scaled projected features are written from the point's block of the matrix; the projected features are kept.
-/
import proofs.«166917_g34531537059966_cont_sun_m_1070_24_alg».proof.Proof.KI.ReadLib
import proofs.«166917_g34531537059966_cont_sun_m_1070_24_alg».proof.Proof.KI.Base
import proofs.«166917_g34531537059966_cont_sun_m_1070_24_alg».proof.Proof.KI.PayAt

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (c : Dev nD) (x0 : Vec Ideal S512x4096 .f32) (x1 : Vec Ideal S4096x64 .f32) (x2 : Vec Ideal S64x64 .f32) (s : St Ideal)

/-- The step of case C on the row-blocked buffers. -/
theorem stepC_rows  :
    Step x1 x2 4 x0 s (stepC c x0 x1 x2 s) := by
  refine ⟨?_, ?_, ?_, ?_, ?_, ?_, ?_⟩
  · intro r k z hz
    unfold stepC kernelRunC; dsimp only
    refine (wr_rows_mem scA hwA s.A _ _ _ (ix2 r k) (ix2 z k) (off2_eq t0_4) hz rfl).trans ?_
    rw [load_x0]
    exact PayAt.pay13_at x0 z k
  · intro r k hout
    unfold stepC kernelRunC; dsimp only
    exact (wr_rows_not_mem scA hwA s.A _ _ _ (ix2 r k) (off2_eq t0_4) rfl (show (r.val < 512 * t0_4.val ∨ 512 * t0_4.val + 512 ≤ r.val) from hout)).trans (congrFun (wr_nil scA hwA s.A) _)
  · intro r z hz
    unfold stepC kernelRunC; dsimp only
    refine (wr_rows_mem scD hwD s.D _ _ _ (ix2 r (0 : Fin 1)) (ix2 z (0 : Fin 1)) (off1_eq t0_4) hz rfl).trans ?_
    rw [load_x0, PayAt.pay12_eq]
    exact PayAt.pay11_at x0 z
  · intro r hout
    unfold stepC kernelRunC; dsimp only
    exact (wr_rows_not_mem scD hwD s.D _ _ _ (ix2 r (0 : Fin 1)) (off1_eq t0_4) rfl (show (r.val < 512 * t0_4.val ∨ 512 * t0_4.val + 512 ≤ r.val) from hout)).trans (congrFun (wr_nil scD hwD s.D) _)
  · intro r o z hz
    have hG : (stepC c x0 x1 x2 s).G = s.G := by
      unfold stepC kernelRunC; dsimp only
      exact wr_nil scG hwG s.G
    rw [hG]
    unfold stepC kernelRunC; dsimp only
    refine (wr_rows_mem scS hwS s.S _ _ _ (ix2 r o) (ix2 z o) (off3_eq t0_4) hz rfl).trans ?_
    rw [load_x0]
    refine (PayAt.pay14_at x0 _ z o).trans (congrArg (Spec.kscale _ * ·) ?_)
    refine (readAt_unread scG hwG s.G _ _).trans (congrArg s.G ?_)
    exact ix2_of_vals _ r o ((idx_rows _ (off3_eq t0_4) (ix2 z o)).1.trans hz.symm) (idx_rows _ (off3_eq t0_4) (ix2 z o)).2
  · intro r o hout
    unfold stepC kernelRunC; dsimp only
    exact (wr_rows_not_mem scS hwS s.S _ _ _ (ix2 r o) (off3_eq t0_4) rfl (show (r.val < 512 * t0_4.val ∨ 512 * t0_4.val + 512 ≤ r.val) from hout)).trans (congrFun (wr_nil scS hwS s.S) _)
  · refine Or.inr ⟨by decide, ?_⟩
    unfold stepC kernelRunC; dsimp only
    exact wr_nil scG hwG s.G

end Cert.KernelIdeal.Body

end
-- ==== Proof.KI.StepRowsD.lean ====
/-
  The step of the point 5 on the row-blocked buffers: block 5's rows of the stashed matrix, of the degree scales and of the scaled projected features are written from the point's block of the matrix; the projected features are kept.
-/
import proofs.«166917_g34531537059966_cont_sun_m_1070_24_alg».proof.Proof.KI.ReadLib
import proofs.«166917_g34531537059966_cont_sun_m_1070_24_alg».proof.Proof.KI.Base
import proofs.«166917_g34531537059966_cont_sun_m_1070_24_alg».proof.Proof.KI.PayAt

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (c : Dev nD) (x0 : Vec Ideal S512x4096 .f32) (x1 : Vec Ideal S4096x64 .f32) (x2 : Vec Ideal S64x64 .f32) (s : St Ideal)

/-- The step of case D on the row-blocked buffers. -/
theorem stepD_rows  :
    Step x1 x2 5 x0 s (stepD c x0 x1 x2 s) := by
  refine ⟨?_, ?_, ?_, ?_, ?_, ?_, ?_⟩
  · intro r k z hz
    unfold stepD kernelRunD; dsimp only; try unfold kernelRunD.sl.HA_1; try unfold kernelRunD.sl.HS_1
    refine (wr_rows_mem scA hwA s.A _ _ _ (ix2 r k) (ix2 z k) (off2_eq t0_5) hz rfl).trans ?_
    rw [load_x0]
    exact PayAt.pay13_at x0 z k
  · intro r k hout
    unfold stepD kernelRunD; dsimp only; try unfold kernelRunD.sl.HA_1; try unfold kernelRunD.sl.HS_1
    exact (wr_rows_not_mem scA hwA s.A _ _ _ (ix2 r k) (off2_eq t0_5) rfl (show (r.val < 512 * t0_5.val ∨ 512 * t0_5.val + 512 ≤ r.val) from hout)).trans (congrFun (wr_nil scA hwA s.A) _)
  · intro r z hz
    unfold stepD kernelRunD; dsimp only; try unfold kernelRunD.sl.HA_1; try unfold kernelRunD.sl.HS_1
    refine (wr_rows_mem scD hwD s.D _ _ _ (ix2 r (0 : Fin 1)) (ix2 z (0 : Fin 1)) (off1_eq t0_5) hz rfl).trans ?_
    rw [load_x0, PayAt.pay12_eq]
    exact PayAt.pay11_at x0 z
  · intro r hout
    unfold stepD kernelRunD; dsimp only; try unfold kernelRunD.sl.HA_1; try unfold kernelRunD.sl.HS_1
    exact (wr_rows_not_mem scD hwD s.D _ _ _ (ix2 r (0 : Fin 1)) (off1_eq t0_5) rfl (show (r.val < 512 * t0_5.val ∨ 512 * t0_5.val + 512 ≤ r.val) from hout)).trans (congrFun (wr_nil scD hwD s.D) _)
  · intro r o z hz
    have hG : (stepD c x0 x1 x2 s).G = s.G := by
      unfold stepD kernelRunD; dsimp only; try unfold kernelRunD.sl.HA_1; try unfold kernelRunD.sl.HS_1
      exact wr_nil scG hwG s.G
    rw [hG]
    unfold stepD kernelRunD; dsimp only; try unfold kernelRunD.sl.HA_1; try unfold kernelRunD.sl.HS_1
    refine (wr_rows_mem scS hwS s.S _ _ _ (ix2 r o) (ix2 z o) (off3_eq t0_5) hz rfl).trans ?_
    rw [load_x0]
    refine (PayAt.pay14_at x0 _ z o).trans (congrArg (Spec.kscale _ * ·) ?_)
    refine (readAt_unread scG hwG s.G _ _).trans (congrArg s.G ?_)
    exact ix2_of_vals _ r o ((idx_rows _ (off3_eq t0_5) (ix2 z o)).1.trans hz.symm) (idx_rows _ (off3_eq t0_5) (ix2 z o)).2
  · intro r o hout
    unfold stepD kernelRunD; dsimp only; try unfold kernelRunD.sl.HA_1; try unfold kernelRunD.sl.HS_1
    exact (wr_rows_not_mem scS hwS s.S _ _ _ (ix2 r o) (off3_eq t0_5) rfl (show (r.val < 512 * t0_5.val ∨ 512 * t0_5.val + 512 ≤ r.val) from hout)).trans (congrFun (wr_nil scS hwS s.S) _)
  · refine Or.inr ⟨by decide, ?_⟩
    unfold stepD kernelRunD; dsimp only; try unfold kernelRunD.sl.HA_1; try unfold kernelRunD.sl.HS_1
    exact wr_nil scG hwG s.G

end Cert.KernelIdeal.Body

end
-- ==== Proof.KI.StepRowsE.lean ====
/-
  The step of the point 6 on the row-blocked buffers: block 6's rows of the stashed matrix, of the degree scales and of the scaled projected features are written from the point's block of the matrix; the projected features are kept.
-/
import proofs.«166917_g34531537059966_cont_sun_m_1070_24_alg».proof.Proof.KI.ReadLib
import proofs.«166917_g34531537059966_cont_sun_m_1070_24_alg».proof.Proof.KI.Base
import proofs.«166917_g34531537059966_cont_sun_m_1070_24_alg».proof.Proof.KI.PayAt

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (c : Dev nD) (x0 : Vec Ideal S512x4096 .f32) (x1 : Vec Ideal S4096x64 .f32) (x2 : Vec Ideal S64x64 .f32) (s : St Ideal)

/-- The step of case E on the row-blocked buffers. -/
theorem stepE_rows  :
    Step x1 x2 6 x0 s (stepE c x0 x1 x2 s) := by
  refine ⟨?_, ?_, ?_, ?_, ?_, ?_, ?_⟩
  · intro r k z hz
    unfold stepE kernelRunE; dsimp only; try unfold kernelRunE.sl.HA_1; try unfold kernelRunE.sl.HS_1
    refine (wr_rows_mem scA hwA s.A _ _ _ (ix2 r k) (ix2 z k) (off2_eq t0_6) hz rfl).trans ?_
    rw [load_x0]
    exact PayAt.pay13_at x0 z k
  · intro r k hout
    unfold stepE kernelRunE; dsimp only; try unfold kernelRunE.sl.HA_1; try unfold kernelRunE.sl.HS_1
    exact (wr_rows_not_mem scA hwA s.A _ _ _ (ix2 r k) (off2_eq t0_6) rfl (show (r.val < 512 * t0_6.val ∨ 512 * t0_6.val + 512 ≤ r.val) from hout)).trans (congrFun (wr_nil scA hwA s.A) _)
  · intro r z hz
    unfold stepE kernelRunE; dsimp only; try unfold kernelRunE.sl.HA_1; try unfold kernelRunE.sl.HS_1
    refine (wr_rows_mem scD hwD s.D _ _ _ (ix2 r (0 : Fin 1)) (ix2 z (0 : Fin 1)) (off1_eq t0_6) hz rfl).trans ?_
    rw [load_x0, PayAt.pay12_eq]
    exact PayAt.pay11_at x0 z
  · intro r hout
    unfold stepE kernelRunE; dsimp only; try unfold kernelRunE.sl.HA_1; try unfold kernelRunE.sl.HS_1
    exact (wr_rows_not_mem scD hwD s.D _ _ _ (ix2 r (0 : Fin 1)) (off1_eq t0_6) rfl (show (r.val < 512 * t0_6.val ∨ 512 * t0_6.val + 512 ≤ r.val) from hout)).trans (congrFun (wr_nil scD hwD s.D) _)
  · intro r o z hz
    have hG : (stepE c x0 x1 x2 s).G = s.G := by
      unfold stepE kernelRunE; dsimp only; try unfold kernelRunE.sl.HA_1; try unfold kernelRunE.sl.HS_1
      exact wr_nil scG hwG s.G
    rw [hG]
    unfold stepE kernelRunE; dsimp only; try unfold kernelRunE.sl.HA_1; try unfold kernelRunE.sl.HS_1
    refine (wr_rows_mem scS hwS s.S _ _ _ (ix2 r o) (ix2 z o) (off3_eq t0_6) hz rfl).trans ?_
    rw [load_x0]
    refine (PayAt.pay14_at x0 _ z o).trans (congrArg (Spec.kscale _ * ·) ?_)
    refine (readAt_unread scG hwG s.G _ _).trans (congrArg s.G ?_)
    exact ix2_of_vals _ r o ((idx_rows _ (off3_eq t0_6) (ix2 z o)).1.trans hz.symm) (idx_rows _ (off3_eq t0_6) (ix2 z o)).2
  · intro r o hout
    unfold stepE kernelRunE; dsimp only; try unfold kernelRunE.sl.HA_1; try unfold kernelRunE.sl.HS_1
    exact (wr_rows_not_mem scS hwS s.S _ _ _ (ix2 r o) (off3_eq t0_6) rfl (show (r.val < 512 * t0_6.val ∨ 512 * t0_6.val + 512 ≤ r.val) from hout)).trans (congrFun (wr_nil scS hwS s.S) _)
  · refine Or.inr ⟨by decide, ?_⟩
    unfold stepE kernelRunE; dsimp only; try unfold kernelRunE.sl.HA_1; try unfold kernelRunE.sl.HS_1
    exact wr_nil scG hwG s.G

end Cert.KernelIdeal.Body

end
-- ==== Proof.KI.StepRowsF.lean ====
/-
  The step of the point 7 on the row-blocked buffers: block 7's rows of the stashed matrix, of the degree scales and of the scaled projected features are written from the point's block of the matrix; the projected features are kept.
-/
import proofs.«166917_g34531537059966_cont_sun_m_1070_24_alg».proof.Proof.KI.ReadLib
import proofs.«166917_g34531537059966_cont_sun_m_1070_24_alg».proof.Proof.KI.Base
import proofs.«166917_g34531537059966_cont_sun_m_1070_24_alg».proof.Proof.KI.PayAt

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (c : Dev nD) (x0 : Vec Ideal S512x4096 .f32) (x1 : Vec Ideal S4096x64 .f32) (x2 : Vec Ideal S64x64 .f32) (s : St Ideal)

/-- The step of case F on the row-blocked buffers. -/
theorem stepF_rows  :
    Step x1 x2 7 x0 s (stepF c x0 x1 x2 s) := by
  refine ⟨?_, ?_, ?_, ?_, ?_, ?_, ?_⟩
  · intro r k z hz
    unfold stepF kernelRunF; dsimp only; try unfold kernelRunF.sl.HA_1; try unfold kernelRunF.sl.HD_1; try unfold kernelRunF.sl.HS_1
    refine (wr_rows_mem scA hwA s.A _ _ _ (ix2 r k) (ix2 z k) (off2_eq t0_7) hz rfl).trans ?_
    rw [load_x0]
    exact PayAt.pay13_at x0 z k
  · intro r k hout
    unfold stepF kernelRunF; dsimp only; try unfold kernelRunF.sl.HA_1; try unfold kernelRunF.sl.HD_1; try unfold kernelRunF.sl.HS_1
    exact (wr_rows_not_mem scA hwA s.A _ _ _ (ix2 r k) (off2_eq t0_7) rfl (show (r.val < 512 * t0_7.val ∨ 512 * t0_7.val + 512 ≤ r.val) from hout)).trans (congrFun (wr_nil scA hwA s.A) _)
  · intro r z hz
    unfold stepF kernelRunF; dsimp only; try unfold kernelRunF.sl.HA_1; try unfold kernelRunF.sl.HD_1; try unfold kernelRunF.sl.HS_1
    refine (wr_rows_mem scD hwD s.D _ _ _ (ix2 r (0 : Fin 1)) (ix2 z (0 : Fin 1)) (off1_eq t0_7) hz rfl).trans ?_
    rw [load_x0, PayAt.pay12_eq]
    exact PayAt.pay11_at x0 z
  · intro r hout
    unfold stepF kernelRunF; dsimp only; try unfold kernelRunF.sl.HA_1; try unfold kernelRunF.sl.HD_1; try unfold kernelRunF.sl.HS_1
    exact (wr_rows_not_mem scD hwD s.D _ _ _ (ix2 r (0 : Fin 1)) (off1_eq t0_7) rfl (show (r.val < 512 * t0_7.val ∨ 512 * t0_7.val + 512 ≤ r.val) from hout)).trans (congrFun (wr_nil scD hwD s.D) _)
  · intro r o z hz
    have hG : (stepF c x0 x1 x2 s).G = s.G := by
      unfold stepF kernelRunF; dsimp only; try unfold kernelRunF.sl.HA_1; try unfold kernelRunF.sl.HD_1; try unfold kernelRunF.sl.HS_1
      exact wr_nil scG hwG s.G
    rw [hG]
    unfold stepF kernelRunF; dsimp only; try unfold kernelRunF.sl.HA_1; try unfold kernelRunF.sl.HD_1; try unfold kernelRunF.sl.HS_1
    refine (wr_rows_mem scS hwS s.S _ _ _ (ix2 r o) (ix2 z o) (off3_eq t0_7) hz rfl).trans ?_
    rw [load_x0]
    refine (PayAt.pay14_at x0 _ z o).trans (congrArg (Spec.kscale _ * ·) ?_)
    refine (readAt_unread scG hwG s.G _ _).trans (congrArg s.G ?_)
    exact ix2_of_vals _ r o ((idx_rows _ (off3_eq t0_7) (ix2 z o)).1.trans hz.symm) (idx_rows _ (off3_eq t0_7) (ix2 z o)).2
  · intro r o hout
    unfold stepF kernelRunF; dsimp only; try unfold kernelRunF.sl.HA_1; try unfold kernelRunF.sl.HD_1; try unfold kernelRunF.sl.HS_1
    exact (wr_rows_not_mem scS hwS s.S _ _ _ (ix2 r o) (off3_eq t0_7) rfl (show (r.val < 512 * t0_7.val ∨ 512 * t0_7.val + 512 ≤ r.val) from hout)).trans (congrFun (wr_nil scS hwS s.S) _)
  · refine Or.inr ⟨by decide, ?_⟩
    unfold stepF kernelRunF; dsimp only; try unfold kernelRunF.sl.HA_1; try unfold kernelRunF.sl.HD_1; try unfold kernelRunF.sl.HS_1
    exact wr_nil scG hwG s.G

end Cert.KernelIdeal.Body

end
-- ==== Proof.KI.AccLib.lean ====
/-
  One term of a block product, read off the buffers: an entry of the stashed matrix in row r and column n times the
  scaled projected features' entry of row n, column o, is the n-th term of row r, column o of the full product,
  once both buffers hold their targets on those rows.
-/
import proofs.«166917_g34531537059966_cont_sun_m_1070_24_alg».proof.Proof.KI.ReadLib
import proofs.«166917_g34531537059966_cont_sun_m_1070_24_alg».proof.Proof.KI.Base

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (A : Vec Ideal S4096x4096 .f32) (x1 : Vec Ideal S4096x64 .f32) (x2 : Vec Ideal S64x64 .f32)

/-- The product of the two loaded entries is the term. -/
theorem blk_term (XA : Vec Ideal S4096x4096 .bf16) (XS : Vec Ideal S4096x64 .bf16) (r : Fin 4096) (o : Fin 64) (n : ℕ)
    (iA : S4096x4096.Idx) (iS : S4096x64.Idx) (hXA : XA iA = A iA) (hXS : XS iS = Sv A x1 x2 iS)
    (h0 : (iA 0).val = r.val) (h1 : (iA 1).val = n) (h2 : (iS 0).val = n) (h3 : (iS 1).val = o.val) :
    XA iA * XS iS = term A x1 x2 r o n := by
  rw [hXA, hXS]
  exact (term_eq A x1 x2 r o iA iS h0 (h2.trans h1.symm) h3).trans (congrArg _ h1)

/-- A load that the pieces cover reads the overwritten buffer. -/
theorem readCov_eq_wr {s : Shape} {e : EltTy} (mr : Memref sig .tc .vmem s e) (h : mr.IsWhole) (x : Vec Ideal s e)
    (L : List (View.Piece (Elt Ideal) s e)) (R : LoadRect s) (y : R.shape.Idx) (hcov : ∃ p ∈ L, R.idx y ∈ p.1.set) :
    mr.view.readCov L R y = wr mr h x L (R.idx y) := by
  unfold wr View.readCov
  rw [View.readAt_apply]
  exact View.read_writes_apply_eq (v := mr.view) (f := mr.view.junk) mr.view (h.unread x) (R.idx y) L hcov

end Cert.KernelIdeal.Body

end
-- ==== Proof.KI.AccC.lean ====
/-
  The accumulator after the fifth point: its first 2048 rows are set to the product of the stashed matrix's first 2048 rows and columns with the first 2048 rows of the scaled projected features — the terms over the columns [0, 2048).
-/
import proofs.«166917_g34531537059966_cont_sun_m_1070_24_alg».proof.Proof.KI.AccLib
import proofs.«166917_g34531537059966_cont_sun_m_1070_24_alg».proof.Proof.KI.PayAt

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (A : Vec Ideal S4096x4096 .f32) (c : Dev nD) (x0 : Vec Ideal S512x4096 .f32) (x1 : Vec Ideal S4096x64 .f32) (x2 : Vec Ideal S64x64 .f32) (s : St Ideal)

/-- Rows below 2048 of the accumulator hold the terms over [0, 2048). -/
theorem accC (hb : Base A x1 x2 4 s) (r : Fin 4096) (o : Fin 64) (hr : r.val < 2048) :
    (stepC c x0 x1 x2 s).C (ix2 r o) = part A x1 x2 r o 0 2048 := by
  unfold stepC kernelRunC; dsimp only
  refine (wr_rows_mem scC hwC s.C _ _ _ (ix2 r o) (ix2 (⟨r.val, hr⟩ : Fin 2048) o) rfl (by show r.val = 0 + r.val; omega) rfl).trans ?_
  refine (PayAt.pay15_at _ _ ⟨r.val, hr⟩ o).trans ?_
  refine blk_sum A x1 x2 r o 0 2048 _ fun k => ?_
  unfold kernelRunC.sl.v46 kernelRunC.sl.v47
  rw [readAt_unread, readAt_unread]
  refine blk_term A x1 x2 s.A s.S r o (0 + k.val) _ _ (Base.hA' A x1 x2 hb _ ?_) (Base.hS' A x1 x2 hb _ ?_)
    ((idx_at 0 0 _ _).1.trans (Nat.zero_add _)) (idx_at 0 0 _ _).2 (idx_at 0 0 _ _).1 ((idx_at 0 0 _ _).2.trans (Nat.zero_add _))
  · rw [(idx_at 0 0 _ _).1]; show 0 + r.val < 512 * 4; omega
  · rw [(idx_at 0 0 _ _).1]; show 0 + k.val < 512 * 4; omega

end Cert.KernelIdeal.Body

end
-- ==== Proof.KI.AccD.lean ====
/-
  The accumulator after the sixth point: the first 2048 rows gain the terms over the columns [2048, 3072), and the rows [2048, 3072) are set to the terms over [0, 2048).
-/
import proofs.«166917_g34531537059966_cont_sun_m_1070_24_alg».proof.Proof.KI.AccLib
import proofs.«166917_g34531537059966_cont_sun_m_1070_24_alg».proof.Proof.KI.PayAt

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (A : Vec Ideal S4096x4096 .f32) (c : Dev nD) (x0 : Vec Ideal S512x4096 .f32) (x1 : Vec Ideal S4096x64 .f32) (x2 : Vec Ideal S64x64 .f32) (s : St Ideal)

/-- Rows below 2048 gain the terms over [2048, 3072). -/
theorem accD_lo (hb : Base A x1 x2 5 s) (hb' : Base A x1 x2 6 (stepD c x0 x1 x2 s))
    (hC : ∀ (r : Fin 4096) (o : Fin 64), r.val < 2048 → s.C (ix2 r o) = part A x1 x2 r o 0 2048)
    (r : Fin 4096) (o : Fin 64) (hr : r.val < 2048) :
    (stepD c x0 x1 x2 s).C (ix2 r o) = part A x1 x2 r o 0 3072 := by
  have hA' := Base.hA' A x1 x2 hb'
  have hS' := Base.hS' A x1 x2 hb'
  unfold stepD kernelRunD at hA' hS'; dsimp only at hA' hS'
  unfold stepD kernelRunD; dsimp only
  refine (wr_rows_mem scC hwC s.C _ _ _ (ix2 r o) (ix2 (⟨r.val, hr⟩ : Fin 2048) o) rfl (by show r.val = 0 + r.val; omega) rfl).trans ?_
  refine (PayAt.pay2_at _ _ _ ⟨r.val, hr⟩ o).trans ?_
  rw [← part_add A x1 x2 r o (show 0 ≤ 2048 by omega) (show 2048 ≤ 3072 by omega)]
  refine congrArg₂ (· + ·) ?_ (blk_sum A x1 x2 r o 2048 1024 _ fun k => ?_)
  · unfold kernelRunD.sl.v52
    refine (readAt_unread scC hwC s.C _ _).trans ?_
    refine (congrArg s.C (ix2_of_vals _ r o ((idx_at 0 0 _ _).1.trans (by show 0 + r.val = r.val; omega)) ((idx_at 0 0 _ _).2.trans (Nat.zero_add _)))).trans ?_
    exact hC r o hr
  · unfold kernelRunD.sl.v53 kernelRunD.sl.v54
    refine (congrArg₂ (· * ·) (readAt_unread scA hwA s.A _ _) (readAt_writes scS hwS s.S _ _ _)).trans
      (blk_term A x1 x2 _ _ r o (2048 + k.val) _ _ (Base.hA' A x1 x2 hb _ ?_) (hS' _ ?_)
        ((idx_at 0 2048 _ _).1.trans (by show 0 + r.val = r.val; omega)) (idx_at 0 2048 _ _).2 (idx_at 2048 0 _ _).1 ((idx_at 2048 0 _ _).2.trans (Nat.zero_add _)))
    · rw [(idx_at 0 2048 _ _).1]; show 0 + r.val < 512 * 5; omega
    · rw [(idx_at 2048 0 _ _).1]; show 2048 + k.val < 512 * 6; omega

/-- Rows [2048, 3072) are set to the terms over [0, 2048). -/
theorem accD_hi (hb : Base A x1 x2 5 s) (hb' : Base A x1 x2 6 (stepD c x0 x1 x2 s))
    (r : Fin 4096) (o : Fin 64) (h1 : 2048 ≤ r.val) (h2 : r.val < 3072) :
    (stepD c x0 x1 x2 s).C (ix2 r o) = part A x1 x2 r o 0 2048 := by
  have hz : r.val - 2048 < 1024 := by omega
  have hA' := Base.hA' A x1 x2 hb'
  have hS' := Base.hS' A x1 x2 hb'
  unfold stepD kernelRunD at hA' hS'; dsimp only at hA' hS'
  unfold stepD kernelRunD; dsimp only
  refine (wr_rows_not_mem scC hwC s.C _ _ _ (ix2 r o) rfl rfl (Or.inr (by show 0 + 2048 ≤ r.val; omega))).trans ?_
  refine (wr_rows_mem scC hwC s.C _ _ _ (ix2 r o) (ix2 (⟨r.val - 2048, hz⟩ : Fin 1024) o) rfl (by show r.val = 2048 + (r.val - 2048); omega) rfl).trans ?_
  refine (PayAt.pay1_at _ _ ⟨r.val - 2048, hz⟩ o).trans ?_
  refine blk_sum A x1 x2 r o 0 2048 _ fun k => ?_
  unfold kernelRunD.sl.v46 kernelRunD.sl.v47
  refine (congrArg₂ (· * ·) (readAt_writes scA hwA s.A _ _ _) (readAt_unread scS hwS s.S _ _)).trans
    (blk_term A x1 x2 _ _ r o (0 + k.val) _ _ (hA' _ ?_) (Base.hS' A x1 x2 hb _ ?_)
      ((idx_at 2048 0 _ _).1.trans (by show 2048 + (r.val - 2048) = r.val; omega)) (idx_at 2048 0 _ _).2 (idx_at 0 0 _ _).1 ((idx_at 0 0 _ _).2.trans (Nat.zero_add _)))
  · rw [(idx_at 2048 0 _ _).1]; show 2048 + (r.val - 2048) < 512 * 6; omega
  · rw [(idx_at 0 0 _ _).1]; show 0 + k.val < 512 * 5; omega

end Cert.KernelIdeal.Body

end
-- ==== Proof.KI.AccE.lean ====
/-
  The accumulator after the seventh point: the rows [3072, 3584) are set to the terms over the columns [0, 3072); the rows [2048, 3072) gain the terms over [2048, 3072); then all rows below 3072 gain the terms over [3072, 3584).
-/
import proofs.«166917_g34531537059966_cont_sun_m_1070_24_alg».proof.Proof.KI.AccLib
import proofs.«166917_g34531537059966_cont_sun_m_1070_24_alg».proof.Proof.KI.PayAt

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (A : Vec Ideal S4096x4096 .f32) (c : Dev nD) (x0 : Vec Ideal S512x4096 .f32) (x1 : Vec Ideal S4096x64 .f32) (x2 : Vec Ideal S64x64 .f32) (s : St Ideal)

/-- Rows [3072, 3584) are set to the terms over [0, 3072). -/
theorem accE_hi (hb : Base A x1 x2 6 s) (hb' : Base A x1 x2 7 (stepE c x0 x1 x2 s))
    (r : Fin 4096) (o : Fin 64) (h1 : 3072 ≤ r.val) (h2 : r.val < 3584) :
    (stepE c x0 x1 x2 s).C (ix2 r o) = part A x1 x2 r o 0 3072 := by
  have hz : r.val - 3072 < 512 := by omega
  have hA' := Base.hA' A x1 x2 hb'
  have hS' := Base.hS' A x1 x2 hb'
  unfold stepE kernelRunE at hA' hS'; dsimp only at hA' hS'
  unfold kernelRunE.sl.HA_1 at hA'
  unfold kernelRunE.sl.HS_1 at hS'
  unfold stepE kernelRunE; dsimp only
  unfold kernelRunE.sl.HC_2
  refine (wr_rows_not_mem scC hwC s.C _ _ _ (ix2 r o) rfl rfl (Or.inr (by show 0 + 3072 ≤ r.val; omega))).trans ?_
  refine (wr_rows_not_mem scC hwC s.C _ _ _ (ix2 r o) rfl rfl (Or.inr (by show 2048 + 1024 ≤ r.val; omega))).trans ?_
  refine (wr_rows_mem scC hwC s.C _ _ _ (ix2 r o) (ix2 (⟨r.val - 3072, hz⟩ : Fin 512) o) rfl (by show r.val = 3072 + (r.val - 3072); omega) rfl).trans ?_
  refine (PayAt.pay3_at _ _ ⟨r.val - 3072, hz⟩ o).trans ?_
  refine blk_sum A x1 x2 r o 0 3072 _ fun k => ?_
  unfold kernelRunE.sl.v46 kernelRunE.sl.v47 kernelRunE.sl.HA_1
  refine (congrArg₂ (· * ·) (readCov_rows (o := 512 * t0_6.val) (W := 512) scA hwA s.A _ _ _ _ _ (off2_eq t0_6) ?_ ?_ ?_) (readAt_unread scS hwS s.S _ _)).trans ?_
  · rfl
  · rfl
  · rw [(idx_at 3072 0 _ _).1]; show 512 * 6 ≤ 3072 + (r.val - 3072) ∧ 3072 + (r.val - 3072) < 512 * 6 + 512; omega
  refine blk_term A x1 x2 _ _ r o (0 + k.val) _ _ (hA' _ ?_) (Base.hS' A x1 x2 hb _ ?_)
    ((idx_at 3072 0 _ _).1.trans (by show 3072 + (r.val - 3072) = r.val; omega)) (idx_at 3072 0 _ _).2 (idx_at 0 0 _ _).1 ((idx_at 0 0 _ _).2.trans (Nat.zero_add _))
  · rw [(idx_at 3072 0 _ _).1]; show 3072 + (r.val - 3072) < 512 * 7; omega
  · rw [(idx_at 0 0 _ _).1]; show 0 + k.val < 512 * 6; omega

/-- What the accumulator's rows below 3072 hold between the point's second and third products: the terms over [0, 3072). -/
theorem accE_mid (hb : Base A x1 x2 6 s)
    (hC1 : ∀ (r : Fin 4096) (o : Fin 64), r.val < 2048 → s.C (ix2 r o) = part A x1 x2 r o 0 3072)
    (hC2 : ∀ (r : Fin 4096) (o : Fin 64), 2048 ≤ r.val → r.val < 3072 → s.C (ix2 r o) = part A x1 x2 r o 0 2048)
    (r : Fin 4096) (o : Fin 64) (hr : r.val < 3072) :
    wr scC hwC s.C (kernelRunE.sl.HC_2 c (ms0 t0_6) (hs0 t0_6) scA hwA scS hwS scC hwC x0 s.A s.S s.C) (ix2 r o)
      = part A x1 x2 r o 0 3072 := by
  unfold kernelRunE.sl.HC_2
  by_cases hlo : r.val < 2048
  · refine (wr_rows_not_mem scC hwC s.C _ _ _ (ix2 r o) rfl rfl (Or.inl (by show r.val < 2048; omega))).trans ?_
    refine (wr_rows_not_mem scC hwC s.C _ _ _ (ix2 r o) rfl rfl (Or.inl (by show r.val < 3072; omega))).trans ?_
    exact (congrFun (wr_nil scC hwC s.C) _).trans (hC1 r o hlo)
  · have hz : r.val - 2048 < 1024 := by omega
    refine (wr_rows_mem scC hwC s.C _ _ _ (ix2 r o) (ix2 (⟨r.val - 2048, hz⟩ : Fin 1024) o) rfl (by show r.val = 2048 + (r.val - 2048); omega) rfl).trans ?_
    refine (PayAt.pay4_at _ _ _ ⟨r.val - 2048, hz⟩ o).trans ?_
    rw [← part_add A x1 x2 r o (show 0 ≤ 2048 by omega) (show 2048 ≤ 3072 by omega)]
    refine congrArg₂ (· + ·) ?_ (blk_sum A x1 x2 r o 2048 1024 _ fun k => ?_)
    · unfold kernelRunE.sl.v52
      refine (readAt_unread scC hwC s.C _ _).trans ?_
      refine (congrArg s.C (ix2_of_vals _ r o ((idx_at 2048 0 _ _).1.trans (by show 2048 + (r.val - 2048) = r.val; omega)) ((idx_at 2048 0 _ _).2.trans (Nat.zero_add _)))).trans ?_
      exact hC2 r o (by omega) hr
    · unfold kernelRunE.sl.v53 kernelRunE.sl.v54
      refine (congrArg₂ (· * ·) (readAt_unread scA hwA s.A _ _) (readAt_unread scS hwS s.S _ _)).trans ?_
      refine blk_term A x1 x2 _ _ r o (2048 + k.val) _ _ (Base.hA' A x1 x2 hb _ ?_) (Base.hS' A x1 x2 hb _ ?_)
        ((idx_at 2048 2048 _ _).1.trans (by show 2048 + (r.val - 2048) = r.val; omega)) (idx_at 2048 2048 _ _).2 (idx_at 2048 0 _ _).1 ((idx_at 2048 0 _ _).2.trans (Nat.zero_add _))
      · rw [(idx_at 2048 2048 _ _).1]; show 2048 + (r.val - 2048) < 512 * 6; omega
      · rw [(idx_at 2048 0 _ _).1]; show 2048 + k.val < 512 * 6; omega

/-- Rows below 3072 gain the terms over [3072, 3584). -/
theorem accE_lo (hb : Base A x1 x2 6 s) (hb' : Base A x1 x2 7 (stepE c x0 x1 x2 s))
    (hC1 : ∀ (r : Fin 4096) (o : Fin 64), r.val < 2048 → s.C (ix2 r o) = part A x1 x2 r o 0 3072)
    (hC2 : ∀ (r : Fin 4096) (o : Fin 64), 2048 ≤ r.val → r.val < 3072 → s.C (ix2 r o) = part A x1 x2 r o 0 2048)
    (r : Fin 4096) (o : Fin 64) (hr : r.val < 3072) :
    (stepE c x0 x1 x2 s).C (ix2 r o) = part A x1 x2 r o 0 3584 := by
  have hA' := Base.hA' A x1 x2 hb'
  have hS' := Base.hS' A x1 x2 hb'
  unfold stepE kernelRunE at hA' hS'; dsimp only at hA' hS'
  unfold kernelRunE.sl.HA_1 at hA'
  unfold kernelRunE.sl.HS_1 at hS'
  unfold stepE kernelRunE; dsimp only
  refine (wr_rows_mem scC hwC s.C _ _ _ (ix2 r o) (ix2 (⟨r.val, hr⟩ : Fin 3072) o) rfl (by show r.val = 0 + r.val; omega) rfl).trans ?_
  refine (PayAt.pay5_at _ _ _ ⟨r.val, hr⟩ o).trans ?_
  rw [← part_add A x1 x2 r o (show 0 ≤ 3072 by omega) (show 3072 ≤ 3584 by omega)]
  refine congrArg₂ (· + ·) ?_ (blk_sum A x1 x2 r o 3072 512 _ fun k => ?_)
  · unfold kernelRunE.sl.v60
    refine (readAt_writes scC hwC s.C _ _ _).trans ?_
    refine (congrArg _ (ix2_of_vals _ r o ((idx_at 0 0 _ _).1.trans (by show 0 + r.val = r.val; omega)) ((idx_at 0 0 _ _).2.trans (Nat.zero_add _)))).trans ?_
    exact accE_mid A c x0 x1 x2 s hb hC1 hC2 r o hr
  · unfold kernelRunE.sl.v61 kernelRunE.sl.v62 kernelRunE.sl.HS_1
    refine (congrArg₂ (· * ·) (readAt_unread scA hwA s.A _ _) (readCov_rows (o := 512 * t0_6.val) (W := 512) scS hwS s.S _ _ _ _ _ (off3_eq t0_6) ?_ ?_ ?_)).trans ?_
    · rfl
    · rfl
    · rw [(idx_at 3072 0 _ _).1]; show 512 * 6 ≤ 3072 + k.val ∧ 3072 + k.val < 512 * 6 + 512; omega
    refine blk_term A x1 x2 _ _ r o (3072 + k.val) _ _ (Base.hA' A x1 x2 hb _ ?_) (hS' _ ?_)
      ((idx_at 0 3072 _ _).1.trans (by show 0 + r.val = r.val; omega)) (idx_at 0 3072 _ _).2 (idx_at 3072 0 _ _).1 ((idx_at 3072 0 _ _).2.trans (Nat.zero_add _))
    · rw [(idx_at 0 3072 _ _).1]; show 0 + r.val < 512 * 6; omega
    · rw [(idx_at 3072 0 _ _).1]; show 3072 + k.val < 512 * 7; omega

end Cert.KernelIdeal.Body

end
-- ==== Proof.KI.AccF.lean ====
/-
  The accumulator after the last point, and the output block: the rows below 3072 gain the terms over the columns [3584, 4096), the rows [3072, 3584) gain those over [3072, 4096), the rows from 3584 on are set to all terms; so every row holds the whole sum, and the output is the degree scale times it.
-/
import proofs.«166917_g34531537059966_cont_sun_m_1070_24_alg».proof.Proof.KI.AccLib
import proofs.«166917_g34531537059966_cont_sun_m_1070_24_alg».proof.Proof.KI.PayAt

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

variable (A : Vec Ideal S4096x4096 .f32) (c : Dev nD) (x0 : Vec Ideal S512x4096 .f32) (x1 : Vec Ideal S4096x64 .f32) (x2 : Vec Ideal S64x64 .f32) (s : St Ideal)

/-- Every row of the accumulator holds the terms over all columns. -/
theorem accF (hb : Base A x1 x2 7 s) (hb' : Base A x1 x2 8 (stepF c x0 x1 x2 s))
    (hC1 : ∀ (r : Fin 4096) (o : Fin 64), r.val < 3072 → s.C (ix2 r o) = part A x1 x2 r o 0 3584)
    (hC2 : ∀ (r : Fin 4096) (o : Fin 64), 3072 ≤ r.val → r.val < 3584 → s.C (ix2 r o) = part A x1 x2 r o 0 3072)
    (r : Fin 4096) (o : Fin 64) :
    (stepF c x0 x1 x2 s).C (ix2 r o) = part A x1 x2 r o 0 4096 := by
  have hA' := Base.hA' A x1 x2 hb'
  have hS' := Base.hS' A x1 x2 hb'
  unfold stepF kernelRunF at hA' hS'; dsimp only at hA' hS'
  unfold kernelRunF.sl.HA_1 at hA'
  unfold kernelRunF.sl.HS_1 at hS'
  unfold stepF kernelRunF; dsimp only
  unfold kernelRunF.sl.HC_3
  by_cases h1 : r.val < 3072
  · refine (wr_rows_not_mem scC hwC s.C _ _ _ (ix2 r o) rfl rfl (Or.inl (by show r.val < 3584; omega))).trans ?_
    refine (wr_rows_not_mem scC hwC s.C _ _ _ (ix2 r o) rfl rfl (Or.inl (by show r.val < 3072; omega))).trans ?_
    refine (wr_rows_mem scC hwC s.C _ _ _ (ix2 r o) (ix2 (⟨r.val, h1⟩ : Fin 3072) o) rfl (by show r.val = 0 + r.val; omega) rfl).trans ?_
    refine (PayAt.pay6_at _ _ _ ⟨r.val, h1⟩ o).trans ?_
    rw [← part_add A x1 x2 r o (show 0 ≤ 3584 by omega) (show 3584 ≤ 4096 by omega)]
    refine congrArg₂ (· + ·) ?_ (blk_sum A x1 x2 r o 3584 512 _ fun k => ?_)
    · refine (readAt_unread scC hwC s.C _ _).trans ?_
      refine (congrArg s.C (ix2_of_vals _ r o ((idx_at 0 0 _ _).1.trans (by show 0 + r.val = r.val; omega)) ((idx_at 0 0 _ _).2.trans (Nat.zero_add _)))).trans ?_
      exact hC1 r o h1
    · unfold kernelRunF.sl.v47 kernelRunF.sl.v48 kernelRunF.sl.HS_1
      refine (congrArg₂ (· * ·) (readAt_unread scA hwA s.A _ _) (readCov_rows (o := 512 * t0_7.val) (W := 512) scS hwS s.S _ _ _ _ _ (off3_eq t0_7) ?_ ?_ ?_)).trans ?_
      · rfl
      · rfl
      · rw [(idx_at 3584 0 _ _).1]; show 512 * 7 ≤ 3584 + k.val ∧ 3584 + k.val < 512 * 7 + 512; omega
      refine blk_term A x1 x2 _ _ r o (3584 + k.val) _ _ (Base.hA' A x1 x2 hb _ ?_) (hS' _ ?_)
        ((idx_at 0 3584 _ _).1.trans (by show 0 + r.val = r.val; omega)) (idx_at 0 3584 _ _).2 (idx_at 3584 0 _ _).1 ((idx_at 3584 0 _ _).2.trans (Nat.zero_add _))
      · rw [(idx_at 0 3584 _ _).1]; show 0 + r.val < 512 * 7; omega
      · rw [(idx_at 3584 0 _ _).1]; show 3584 + k.val < 512 * 8; omega
  · by_cases h2 : r.val < 3584
    · have hz : r.val - 3072 < 512 := by omega
      refine (wr_rows_not_mem scC hwC s.C _ _ _ (ix2 r o) rfl rfl (Or.inl (by show r.val < 3584; omega))).trans ?_
      refine (wr_rows_mem scC hwC s.C _ _ _ (ix2 r o) (ix2 (⟨r.val - 3072, hz⟩ : Fin 512) o) rfl (by show r.val = 3072 + (r.val - 3072); omega) rfl).trans ?_
      refine (PayAt.pay7_at _ _ _ ⟨r.val - 3072, hz⟩ o).trans ?_
      rw [← part_add A x1 x2 r o (show 0 ≤ 3072 by omega) (show 3072 ≤ 4096 by omega)]
      refine congrArg₂ (· + ·) ?_ (blk_sum A x1 x2 r o 3072 1024 _ fun k => ?_)
      · unfold kernelRunF.sl.v54
        refine (readAt_unread scC hwC s.C _ _).trans ?_
        refine (congrArg s.C (ix2_of_vals _ r o ((idx_at 3072 0 _ _).1.trans (by show 3072 + (r.val - 3072) = r.val; omega)) ((idx_at 3072 0 _ _).2.trans (Nat.zero_add _)))).trans ?_
        exact hC2 r o (by omega) h2
      · unfold kernelRunF.sl.v55 kernelRunF.sl.HS_1
        refine (congrArg₂ (· * ·) (readAt_unread scA hwA s.A _ _) (readAt_writes scS hwS s.S _ _ _)).trans ?_
        refine blk_term A x1 x2 _ _ r o (3072 + k.val) _ _ (Base.hA' A x1 x2 hb _ ?_) (hS' _ ?_)
          ((idx_at 3072 3072 _ _).1.trans (by show 3072 + (r.val - 3072) = r.val; omega)) (idx_at 3072 3072 _ _).2 (idx_at 3072 0 _ _).1 ((idx_at 3072 0 _ _).2.trans (Nat.zero_add _))
        · rw [(idx_at 3072 3072 _ _).1]; show 3072 + (r.val - 3072) < 512 * 7; omega
        · rw [(idx_at 3072 0 _ _).1]; show 3072 + k.val < 512 * 8; omega
    · have hz : r.val - 3584 < 512 := by have := r.isLt; omega
      refine (wr_rows_mem scC hwC s.C _ _ _ (ix2 r o) (ix2 (⟨r.val - 3584, hz⟩ : Fin 512) o) rfl (by show r.val = 3584 + (r.val - 3584); omega) rfl).trans ?_
      refine (PayAt.pay8_at _ _ ⟨r.val - 3584, hz⟩ o).trans ?_
      refine blk_sum A x1 x2 r o 0 4096 _ fun k => ?_
      unfold kernelRunF.sl.v62 kernelRunF.sl.HA_1 kernelRunF.sl.HS_1
      refine (congrArg₂ (· * ·) (readCov_rows (o := 512 * t0_7.val) (W := 512) scA hwA s.A _ _ _ _ _ (off2_eq t0_7) ?_ ?_ ?_) (readAt_writes scS hwS s.S _ _ _)).trans ?_
      · rfl
      · rfl
      · rw [(idx_at 3584 0 _ _).1]; show 512 * 7 ≤ 3584 + (r.val - 3584) ∧ 3584 + (r.val - 3584) < 512 * 7 + 512; omega
      refine blk_term A x1 x2 _ _ r o (0 + k.val) _ _ (hA' _ ?_) (hS' _ ?_)
        ((idx_at 3584 0 _ _).1.trans (by show 3584 + (r.val - 3584) = r.val; omega)) (idx_at 3584 0 _ _).2 (idx_at 0 0 _ _).1 ((idx_at 0 0 _ _).2.trans (Nat.zero_add _))
      · rw [(idx_at 3584 0 _ _).1]; show 3584 + (r.val - 3584) < 512 * 8; omega
      · rw [(idx_at 0 0 _ _).1]; show 0 + k.val < 512 * 8; omega

/-- The three pieces the last point stores in the accumulator cover it. -/
theorem coverC3 (y : S4096x64.Idx) :
    ∃ p ∈ kernelRunF.sl.HC_3 c (ms0 t0_7) (hs0 t0_7) scA hwA scG hwG scS hwS scC hwC x0 s.A s.G s.S s.C, y ∈ p.1.set := by
  have hy := idx2_lt0 y
  unfold kernelRunF.sl.HC_3
  by_cases h1 : (y 0).val < 3072
  · refine ⟨_, List.mem_cons_of_mem _ (List.mem_cons_of_mem _ List.mem_cons_self), ?_⟩
    exact (Rect.mem_set_unit (inb := inb_S4096x64_S3072x64_0_0)).mpr (Rect.unit_rows_mem y rfl rfl ⟨Nat.zero_le _, by show (y 0).val < 0 + 3072; omega⟩)
  · by_cases h2 : (y 0).val < 3584
    · refine ⟨_, List.mem_cons_of_mem _ List.mem_cons_self, ?_⟩
      exact (Rect.mem_set_unit (inb := inb_S4096x64_S512x64_3072_0)).mpr (Rect.unit_rows_mem y rfl rfl ⟨by show 3072 ≤ (y 0).val; omega, by show (y 0).val < 3072 + 512; omega⟩)
    · refine ⟨_, List.mem_cons_self, ?_⟩
      exact (Rect.mem_set_unit (inb := inb_S4096x64_S512x64_3584_0)).mpr (Rect.unit_rows_mem y rfl rfl ⟨by show 3584 ≤ (y 0).val; omega, by show (y 0).val < 3584 + 512; omega⟩)

/-- The output block the last point leaves is the specification's result. -/
theorem outF_at (hb' : Base A x1 x2 8 (stepF c x0 x1 x2 s))
    (hC : ∀ (r : Fin 4096) (o : Fin 64), (stepF c x0 x1 x2 s).C (ix2 r o) = part A x1 x2 r o 0 4096)
    (r : Fin 4096) (o : Fin 64) :
    outF c x0 x1 x2 s (ix2 r o) = Spec.out A x1 x2 r o := by
  have hD' := hb'.hD
  unfold stepF kernelRunF at hD' hC; dsimp only at hD' hC
  unfold outF kernelRunF; dsimp only
  refine (View.read_writes_cons_rows_of_mem (ms3 t0_7).view _ _ _ [] (ix2 r o) (ix2 r o) rfl (by show r.val = 0 + r.val; omega) rfl).trans ?_
  unfold kernelRunF.sl.r
  refine (PayAt.pay9_at _ _ r o).trans ?_
  unfold Spec.out
  rw [← part_full A x1 x2 r o]
  refine congrArg₂ (· * ·) ?_ ?_
  · refine (readAt_writes scD hwD s.D _ _ _).trans ?_
    refine (congrArg _ (ix2_of_vals _ r (0 : Fin 1) ((idx_at 0 0 _ _).1.trans (by show 0 + r.val = r.val; omega)) ((idx_at 0 0 _ _).2.trans (Nat.zero_add _)))).trans ?_
    exact hD' r (by have := r.isLt; omega)
  · unfold kernelRunF.sl.v69
    refine (readCov_eq_wr scC hwC s.C _ _ _ (coverC3 c x0 s _)).trans ?_
    refine (congrArg _ (ix2_of_vals _ r o ((idx_at 0 0 _ _).1.trans (by show 0 + r.val = r.val; omega)) ((idx_at 0 0 _ _).2.trans (Nat.zero_add _)))).trans ?_
    exact hC r o

end Cert.KernelIdeal.Body

end
-- ==== Proof.KI.Value.lean ====
/-
  The kernel's result block is the specification's function of the adjacency matrix and the two other arguments,
  whatever the scratch buffers hold at the start.

  After each point the rows of the blocks done so far hold their targets in the stashed matrix, the degree scales and
  the scaled projected features; from the fifth point on the accumulator gathers, per range of rows, the terms over
  the columns done so far; after the last point every row holds all terms, and the output is the degree scale
  times that sum.
-/
import proofs.«166917_g34531537059966_cont_sun_m_1070_24_alg».proof.Proof.KI.StepRowsA
import proofs.«166917_g34531537059966_cont_sun_m_1070_24_alg».proof.Proof.KI.StepRowsB
import proofs.«166917_g34531537059966_cont_sun_m_1070_24_alg».proof.Proof.KI.StepRowsC
import proofs.«166917_g34531537059966_cont_sun_m_1070_24_alg».proof.Proof.KI.StepRowsD
import proofs.«166917_g34531537059966_cont_sun_m_1070_24_alg».proof.Proof.KI.StepRowsE
import proofs.«166917_g34531537059966_cont_sun_m_1070_24_alg».proof.Proof.KI.StepRowsF
import proofs.«166917_g34531537059966_cont_sun_m_1070_24_alg».proof.Proof.KI.AccC
import proofs.«166917_g34531537059966_cont_sun_m_1070_24_alg».proof.Proof.KI.AccD
import proofs.«166917_g34531537059966_cont_sun_m_1070_24_alg».proof.Proof.KI.AccE
import proofs.«166917_g34531537059966_cont_sun_m_1070_24_alg».proof.Proof.KI.AccF

set_option maxRecDepth 16384

noncomputable section

open scoped BigOperators

namespace Cert.KernelIdeal.Body

open Idealize.ShloMosaic Idealize.ShloMosaic.TcCoe Idealize.ShloMosaic.ValueIdx
open Idealize.SL.Sem
open Cert.KernelIdeal Cert.KernelIdeal.Gen

open Cert.KernelIdeal.Target Cert.Proof

/-- The output block the last point leaves is the specification's result, from any initial scratch state. -/
theorem out_value (c : Dev nD) (A : Vec Ideal S4096x4096 .f32) (x0 : Fin 8 → Vec Ideal S512x4096 .f32)
    (x1 : Vec Ideal S4096x64 .f32) (x2 : Vec Ideal S64x64 .f32)
    (hx0 : ∀ (j : Fin 8) (y : S512x4096.Idx) (i : S4096x4096.Idx), (i 0).val = 512 * j.val + (y 0).val → (i 1).val = (y 1).val → x0 j y = A i)
    (s0 : St Ideal) :
    outLast (F := Ideal) c x0 x1 x2 s0 = fun i => Cert.Proof.Spec.out A x1 x2 (i 0) (i 1) := by
  have hblk : ∀ (j : Fin 8) (z : Fin 512) (k : Fin 4096) (r : Fin 4096), r.val = 512 * j.val + z.val →
      x0 j (ix2 z k) = A (ix2 r k) := fun j z k r h => hx0 j (ix2 z k) (ix2 r k) h rfl
  have b0 : Base A x1 x2 0 (st c x0 x1 x2 s0 0) := Base.zero A x1 x2 s0
  have b1 : Base A x1 x2 1 (st c x0 x1 x2 s0 1) :=
    Base.step A x1 x2 b0 (stepA_rows c (x0 0) x1 x2 s0) (hblk 0)
  have b2 : Base A x1 x2 2 (st c x0 x1 x2 s0 2) :=
    Base.step A x1 x2 b1 (stepB_rows c (x0 1) x1 x2 (st c x0 x1 x2 s0 1) t0_1 _ _ _ _ _ (by decide)) (hblk 1)
  have b3 : Base A x1 x2 3 (st c x0 x1 x2 s0 3) :=
    Base.step A x1 x2 b2 (stepB_rows c (x0 2) x1 x2 (st c x0 x1 x2 s0 2) t0_2 _ _ _ _ _ (by decide)) (hblk 2)
  have b4 : Base A x1 x2 4 (st c x0 x1 x2 s0 4) :=
    Base.step A x1 x2 b3 (stepB_rows c (x0 3) x1 x2 (st c x0 x1 x2 s0 3) t0_3 _ _ _ _ _ (by decide)) (hblk 3)
  have b5 : Base A x1 x2 5 (st c x0 x1 x2 s0 5) :=
    Base.step A x1 x2 b4 (stepC_rows c (x0 4) x1 x2 (st c x0 x1 x2 s0 4)) (hblk 4)
  have b6 : Base A x1 x2 6 (st c x0 x1 x2 s0 6) :=
    Base.step A x1 x2 b5 (stepD_rows c (x0 5) x1 x2 (st c x0 x1 x2 s0 5)) (hblk 5)
  have b7 : Base A x1 x2 7 (st c x0 x1 x2 s0 7) :=
    Base.step A x1 x2 b6 (stepE_rows c (x0 6) x1 x2 (st c x0 x1 x2 s0 6)) (hblk 6)
  have b8 : Base A x1 x2 8 (st c x0 x1 x2 s0 8) :=
    Base.step A x1 x2 b7 (stepF_rows c (x0 7) x1 x2 (st c x0 x1 x2 s0 7)) (hblk 7)
  have c5 := accC A c (x0 4) x1 x2 (st c x0 x1 x2 s0 4) b4
  have c6lo := accD_lo A c (x0 5) x1 x2 (st c x0 x1 x2 s0 5) b5 b6 c5
  have c6hi := accD_hi A c (x0 5) x1 x2 (st c x0 x1 x2 s0 5) b5 b6
  have c7lo := accE_lo A c (x0 6) x1 x2 (st c x0 x1 x2 s0 6) b6 b7 c6lo c6hi
  have c7hi := accE_hi A c (x0 6) x1 x2 (st c x0 x1 x2 s0 6) b6 b7
  have c8 := accF A c (x0 7) x1 x2 (st c x0 x1 x2 s0 7) b7 b8 c7lo c7hi
  funext i
  obtain ⟨r, o, rfl⟩ : ∃ (r : Fin 4096) (o : Fin 64), i = ix2 r o := ⟨i 0, i 1, eq_ix2 i⟩
  exact outF_at A c (x0 7) x1 x2 (st c x0 x1 x2 s0 7) b8 c8 r o

end Cert.KernelIdeal.Body

end
-- ==== Proof.KI.Final.lean ====
/-
  The idealized kernel's run, read: its result array ends at the layer's result `Spec.out` of the three argument arrays —
  each input block is its part of its argument array, and the chain of the eight steps ends at `Spec.out` of those
  whatever the scratch buffers started with — and the argument arrays end as they began.
-/
import proofs.«166917_g34531537059966_cont_sun_m_1070_24_alg».proof.Proof.KI.BodyRun
import proofs.«166917_g34531537059966_cont_sun_m_1070_24_alg».proof.Proof.KI.Value
import proofs.«166917_g34531537059966_cont_sun_m_1070_24_alg».proof.Proof.Spec

set_option maxRecDepth 16384

noncomputable section

namespace Cert.KernelIdeal.Body

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- The layer's result of the three argument arrays on core `c`. -/
abbrev specOut (c : Dev nD) : Vec Ideal S4096x64 .f32 :=
  fun i => Cert.Proof.Spec.out (m ((c.tc : Thread nD τ).loc main_arg0)) (m ((c.tc : Thread nD τ).loc main_arg1)) (m ((c.tc : Thread nD τ).loc main_arg2)) (i 0) (i 1)

/-- The chain of the eight steps ends at the layer's result, whatever the scratch buffers started with. -/
theorem chain_value (c : Dev nD) (s0 : St Ideal) : outLast c (X0 m c) (X1 m c) (X2 m c) s0 = specOut m c := by
  rw [out_value c (m ((c.tc : Thread nD τ).loc main_arg0)) (X0 m c) (X1 m c) (X2 m c)
    (fun j y i h0 h1 => iblk0_apply m c (tOf j) y i h0 h1) s0, X1_eq, X2_eq]

/-- The idealized kernel's run: the result array at the layer's result, the arguments unchanged. -/
theorem run_value_ideal : θ_run defs (onTc (τ := τ) (main (F := Ideal))) ⟨m, fun _ => 0, ρ⟩ (fun r => ∀ c : Dev nD,
      r.2.mem ((c.tc : Thread nD τ).loc main_v0) = specOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_value m ρ (specOut m) (chain_value m)

/-- The idealized kernel's frame. -/
theorem frame_ideal : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame m ρ (specOut m) (chain_value m)

end Cert.KernelIdeal.Body

end
-- ==== Proof.K.Shared.lean ====
/-
  What the runs of the kernel body share: the five conditions the body branches on, as statements about the grid
  point, each decided over the eight points; where the output window is idle; the staging and scratch memrefs the
  body is called with; and the region's invariant opened into its five scratch buffers.
-/
import proofs.«166917_g34531537059966_cont_sun_m_1070_24_alg».proof.Proof.Gen.Kernel.Launch
import proofs.«166917_g34531537059966_cont_sun_m_1070_24_alg».proof.Proof.Gen.Kernel.Skeleton
import proofs.«166917_g34531537059966_cont_sun_m_1070_24_alg».proof.Proof.Gen.Kernel.Points
import proofs.«166917_g34531537059966_cont_sun_m_1070_24_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The body's first branch: taken at the point whose coordinate equals `k`. -/
abbrev condEq (k : BitVec 32) (i : grid0.Coords) : Prop :=
  (Scalar.cmpi .ne (Scalar.extui (Scalar.cmpi .eq (BitVec.ofNat 32 (i 0).val) k)) 0#32) = 1#1

abbrev cond0 (i : grid0.Coords) : Prop := condEq 0#32 i
abbrev cond4 (i : grid0.Coords) : Prop := condEq 4#32 i
abbrev cond5 (i : grid0.Coords) : Prop := condEq 5#32 i
abbrev cond6 (i : grid0.Coords) : Prop := condEq 6#32 i
abbrev cond7 (i : grid0.Coords) : Prop := k0_cond5 i = 1#1

theorem hcond0 : ∀ t : Fin cfg0.N, cond0 (grid0.coords t) ↔ t.val = 0 :=
  (by decide +kernel : ∀ t : Fin grid0.N, cond0 (grid0.coords t) ↔ t.val = 0)
theorem hcond4 : ∀ t : Fin cfg0.N, cond4 (grid0.coords t) ↔ t.val = 4 :=
  (by decide +kernel : ∀ t : Fin grid0.N, cond4 (grid0.coords t) ↔ t.val = 4)
theorem hcond5 : ∀ t : Fin cfg0.N, cond5 (grid0.coords t) ↔ t.val = 5 :=
  (by decide +kernel : ∀ t : Fin grid0.N, cond5 (grid0.coords t) ↔ t.val = 5)
theorem hcond6 : ∀ t : Fin cfg0.N, cond6 (grid0.coords t) ↔ t.val = 6 :=
  (by decide +kernel : ∀ t : Fin grid0.N, cond6 (grid0.coords t) ↔ t.val = 6)
theorem hcond7 : ∀ t : Fin cfg0.N, cond7 (grid0.coords t) ↔ t.val = 7 :=
  (by decide +kernel : ∀ t : Fin grid0.N, cond7 (grid0.coords t) ↔ t.val = 7)

/-- The point's coordinate is the point's number. -/
theorem coord_val : ∀ t : Fin cfg0.N, (grid0.coords t 0).val = t.val :=
  (by decide +kernel : ∀ t : Fin grid0.N, (grid0.coords t 0).val = t.val)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- The output window is idle, and not written back, at every point but the last. -/
theorem idleAt3 : ∀ t : Fin cfg0.N, t.val ≠ 7 → cfg0.idle 3 (grid0.coords t) = true := by decide +kernel
theorem noFlush3 : ∀ t : Fin cfg0.N, t.val ≠ 7 → (cfg0.win 3).flush t = false := by decide +kernel
theorem liveAt3 : ∀ t : Fin cfg0.N, t.val = 7 → cfg0.idle 3 (grid0.coords t) = false := by decide +kernel

/-! ## The memrefs the body is called with -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x64 .f32 := win0_3.stage (cfg0.slots t 3)
abbrev hs3 (t : Fin cfg0.N) : (ms3 t).IsWhole := hstage0_3 ((cfg0.slots t 3).cast nbuf0_3)

/-- The five scratch buffers: the stashed matrix, the degree scales, the projected features, the scaled
    projected features, and the accumulator. -/
abbrev scA : Memref sig .tc .vmem S4096x4096 .bf16 := Memref.whole cc0_scratch0
abbrev scD : Memref sig .tc .vmem S4096x1 .f32 := Memref.whole cc0_scratch1
abbrev scG : Memref sig .tc .vmem S4096x64 .f32 := Memref.whole cc0_scratch2
abbrev scS : Memref sig .tc .vmem S4096x64 .bf16 := Memref.whole cc0_scratch3
abbrev scC : Memref sig .tc .vmem S4096x64 .f32 := Memref.whole cc0_scratch4

/-- The region's invariant, with the scratch buffers as memrefs owned at some contents. -/
theorem PhiA_eq (c : Dev nD) :
    (Pipeline.ΦA spec0 c : sProp 𝕄)
      = iprop(iprop((∃ d, owns (c : Thread nD τ) scA fullShare d) ∗ (∃ d, owns (c : Thread nD τ) scD fullShare d)
          ∗ (∃ d, owns (c : Thread nD τ) scG fullShare d) ∗ (∃ d, owns (c : Thread nD τ) scS fullShare d)
          ∗ (∃ d, owns (c : Thread nD τ) scC fullShare d)) ∗ (∃ r, prngReg c r)) := by
  unfold Pipeline.ΦA; rw [scopedRest0_eq]; simp only [scA, scD, scG, scS, scC, owns_whole]; try rfl

end Cert.Kernel.Body

end
-- ==== Proof.K.RunB.lean ====
/-
  The body at the points where none of its branches is taken (points 1, 2 and 3): the point's block of the matrix is summed along its rows, the degree scales stored, the block stashed, and the block's rows of the scaled projected features stored.
-/
import proofs.«166917_g34531537059966_cont_sun_m_1070_24_alg».proof.Proof.K.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunB (c : Dev nD) (i : grid0.Coords) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (hc0 : ¬cond0 i) (hc4 : ¬cond4 i) (hc5 : ¬cond5 i) (hc6 : ¬cond6 i) (hc7 : ¬cond7 i)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, ?_, [], ?_, [], fun xi3 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HA]; · iexact HA
    isplitl [HD]; · iexact HD
    isplitl [HG]; · iexact HG
    isplitl [HS]; · iexact HS
    iexact HC

end Cert.Kernel.Body

end
-- ==== Proof.K.RunA.lean ====
/-
  The body at the first point: the projected features are computed whole and stored; then, as at every point, the block's degree scales, the stashed block and the block's rows of the scaled projected features.
-/
import proofs.«166917_g34531537059966_cont_sun_m_1070_24_alg».proof.Proof.K.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunA (c : Dev nD) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel (grid0.coords t0_0) arg1 harg1 arg2 harg2 arg3 harg3 arg4 harg4 arg5 harg5 arg6 harg6 arg7 harg7 arg8 harg8 arg9 harg9) K } := by
  refine ⟨?_, ?_, ?_, ?_, [], fun xi3 E K => ?run⟩
  case run =>
    have hc0 : cond0 (grid0.coords t0_0) := (hcond0 t0_0).mpr rfl
    have hc4 : ¬cond4 (grid0.coords t0_0) := fun h => absurd ((hcond4 t0_0).mp h) (by decide)
    have hc5 : ¬cond5 (grid0.coords t0_0) := fun h => absurd ((hcond5 t0_0).mp h) (by decide)
    have hc6 : ¬cond6 (grid0.coords t0_0) := fun h => absurd ((hcond6 t0_0).mp h) (by decide)
    have hc7 : ¬cond7 (grid0.coords t0_0) := fun h => absurd ((hcond7 t0_0).mp h) (by decide)
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HA]; · iexact HA
    isplitl [HD]; · iexact HD
    isplitl [HG]; · iexact HG
    isplitl [HS]; · iexact HS
    iexact HC

end Cert.Kernel.Body

end
-- ==== Proof.K.RunC.lean ====
/-
  The body at point 4: after the point's own stores, the accumulator's first 2048 rows are set to the product of the stashed matrix's first 2048 rows and columns with the first 2048 rows of the scaled projected features.
-/
import proofs.«166917_g34531537059966_cont_sun_m_1070_24_alg».proof.Proof.K.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunC (c : Dev nD) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel (grid0.coords t0_4) arg1 harg1 arg2 harg2 arg3 harg3 arg4 harg4 arg5 harg5 arg6 harg6 arg7 harg7 arg8 harg8 arg9 harg9) K } := by
  refine ⟨?_, ?_, [], ?_, ?_, fun xi3 E K => ?run⟩
  case run =>
    have hc0 : ¬cond0 (grid0.coords t0_4) := fun h => absurd ((hcond0 t0_4).mp h) (by decide)
    have hc4 : cond4 (grid0.coords t0_4) := (hcond4 t0_4).mpr rfl
    have hc5 : ¬cond5 (grid0.coords t0_4) := fun h => absurd ((hcond5 t0_4).mp h) (by decide)
    have hc6 : ¬cond6 (grid0.coords t0_4) := fun h => absurd ((hcond6 t0_4).mp h) (by decide)
    have hc7 : ¬cond7 (grid0.coords t0_4) := fun h => absurd ((hcond7 t0_4).mp h) (by decide)
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HA]; · iexact HA
    isplitl [HD]; · iexact HD
    isplitl [HG]; · iexact HG
    isplitl [HS]; · iexact HS
    iexact HC

end Cert.Kernel.Body

end
-- ==== Proof.K.RunD.lean ====
/-
  The body at point 5: rows 2048 to 3071 of the accumulator are set to their product over the first 2048 columns, and the first 2048 rows gain their product over columns 2048 to 3071.
-/
import proofs.«166917_g34531537059966_cont_sun_m_1070_24_alg».proof.Proof.K.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunD (c : Dev nD) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel (grid0.coords t0_5) arg1 harg1 arg2 harg2 arg3 harg3 arg4 harg4 arg5 harg5 arg6 harg6 arg7 harg7 arg8 harg8 arg9 harg9) K } := by
  refine ⟨?_, ?_, [], ?_, ?_, fun xi3 E K => ?run⟩
  case run =>
    have hc0 : ¬cond0 (grid0.coords t0_5) := fun h => absurd ((hcond0 t0_5).mp h) (by decide)
    have hc4 : ¬cond4 (grid0.coords t0_5) := fun h => absurd ((hcond4 t0_5).mp h) (by decide)
    have hc5 : cond5 (grid0.coords t0_5) := (hcond5 t0_5).mpr rfl
    have hc6 : ¬cond6 (grid0.coords t0_5) := fun h => absurd ((hcond6 t0_5).mp h) (by decide)
    have hc7 : ¬cond7 (grid0.coords t0_5) := fun h => absurd ((hcond7 t0_5).mp h) (by decide)
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HA]; · iexact HA
    isplitl [HD]; · iexact HD
    isplitl [HG]; · iexact HG
    isplitl [HS]; · iexact HS
    iexact HC

end Cert.Kernel.Body

end
-- ==== Proof.K.RunE.lean ====
/-
  The body at point 6: rows 3072 to 3583 of the accumulator are set to their product over the first 3072 columns, rows 2048 to 3071 gain columns 2048 to 3071, and the first 3072 rows gain columns 3072 to 3583.
-/
import proofs.«166917_g34531537059966_cont_sun_m_1070_24_alg».proof.Proof.K.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunE (c : Dev nD) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel (grid0.coords t0_6) arg1 harg1 arg2 harg2 arg3 harg3 arg4 harg4 arg5 harg5 arg6 harg6 arg7 harg7 arg8 harg8 arg9 harg9) K } := by
  refine ⟨?_, ?_, [], ?_, ?_, fun xi3 E K => ?run⟩
  case run =>
    have hc0 : ¬cond0 (grid0.coords t0_6) := fun h => absurd ((hcond0 t0_6).mp h) (by decide)
    have hc4 : ¬cond4 (grid0.coords t0_6) := fun h => absurd ((hcond4 t0_6).mp h) (by decide)
    have hc5 : ¬cond5 (grid0.coords t0_6) := fun h => absurd ((hcond5 t0_6).mp h) (by decide)
    have hc6 : cond6 (grid0.coords t0_6) := (hcond6 t0_6).mpr rfl
    have hc7 : ¬cond7 (grid0.coords t0_6) := fun h => absurd ((hcond7 t0_6).mp h) (by decide)
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HA]; · iexact HA
    isplitl [HD]; · iexact HD
    isplitl [HG]; · iexact HG
    isplitl [HS]; · iexact HS
    iexact HC

end Cert.Kernel.Body

end
-- ==== Proof.K.RunF.lean ====
/-
  The body at the last point: the remaining column ranges are added to the accumulator, its last 512 rows are set to their whole product, and the output block is the accumulator scaled row by row by the degree scales.
-/
import proofs.«166917_g34531537059966_cont_sun_m_1070_24_alg».proof.Proof.K.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case: from the three input blocks, the output buffer and the five scratch buffers at given
    contents, the body runs to its end, leaving the inputs as they were and each scratch buffer at its previous
    contents overwritten by the listed pieces (newest first). The pieces are found by running the body. -/
noncomputable def kernelRunF (c : Dev nD) (arg1 : Memref sig .tc .vmem S512x4096 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S4096x64 .f32) (harg4 : arg4.IsWhole) (arg5 : Memref sig .tc .vmem S4096x4096 .bf16) (harg5 : arg5.IsWhole) (arg6 : Memref sig .tc .vmem S4096x1 .f32) (harg6 : arg6.IsWhole) (arg7 : Memref sig .tc .vmem S4096x64 .f32) (harg7 : arg7.IsWhole) (arg8 : Memref sig .tc .vmem S4096x64 .bf16) (harg8 : arg8.IsWhole) (arg9 : Memref sig .tc .vmem S4096x64 .f32) (harg9 : arg9.IsWhole)
    (x0 : Vec F S512x4096 .f32) (x1 : Vec F S4096x64 .f32) (x2 : Vec F S64x64 .f32)
    (xA : Vec F S4096x4096 .bf16) (xD : Vec F S4096x1 .f32) (xG : Vec F S4096x64 .f32) (xS : Vec F S4096x64 .bf16) (xC : Vec F S4096x64 .f32) :
    Σ' (LO : List (View.Piece (Elt F) S4096x64 .f32)) (LA : List (View.Piece (Elt F) S4096x4096 .bf16)) (LD : List (View.Piece (Elt F) S4096x1 .f32)) (LG : List (View.Piece (Elt F) S4096x64 .f32)) (LS : List (View.Piece (Elt F) S4096x64 .bf16)), { LC : List (View.Piece (Elt F) S4096x64 .f32) //
      ∀ (xi3 : Vec F S4096x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xA ∗ owns (c : Thread nD τ) arg6 fullShare xD ∗ owns (c : Thread nD τ) arg7 fullShare xG ∗ owns (c : Thread nD τ) arg8 fullShare xS ∗ owns (c : Thread nD τ) arg9 fullShare xC
            ∗ (iprop(owns (c : Thread nD τ) arg1 fullShare x0 ∗ owns (c : Thread nD τ) arg2 fullShare x1 ∗ owns (c : Thread nD τ) arg3 fullShare x2 ∗ (arg4.view.loc (c : Thread nD τ) ↦[arg4.view.set]{fullShare} arg4.view.writes (Elt F) (harg4.unread xi3) LO)
                ∗ (arg5.view.loc (c : Thread nD τ) ↦[arg5.view.set]{fullShare} arg5.view.writes (Elt F) (harg5.unread xA) LA)
                ∗ (arg6.view.loc (c : Thread nD τ) ↦[arg6.view.set]{fullShare} arg6.view.writes (Elt F) (harg6.unread xD) LD)
                ∗ (arg7.view.loc (c : Thread nD τ) ↦[arg7.view.set]{fullShare} arg7.view.writes (Elt F) (harg7.unread xG) LG)
                ∗ (arg8.view.loc (c : Thread nD τ) ↦[arg8.view.set]{fullShare} arg8.view.writes (Elt F) (harg8.unread xS) LS)
                ∗ (arg9.view.loc (c : Thread nD τ) ↦[arg9.view.set]{fullShare} arg9.view.writes (Elt F) (harg9.unread xC) LC)) -∗ K ⟨⟩))
          ⊢ wp frame (wpE (defs₀ (F := F)) Variants.none c none) E (cc0__fused_kernel (grid0.coords t0_7) arg1 harg1 arg2 harg2 arg3 harg3 arg4 harg4 arg5 harg5 arg6 harg6 arg7 harg7 arg8 harg8 arg9 harg9) K } := by
  refine ⟨?_, ?_, ?_, [], ?_, ?_, fun xi3 E K => ?run⟩
  case run =>
    have hc0 : ¬cond0 (grid0.coords t0_7) := fun h => absurd ((hcond0 t0_7).mp h) (by decide)
    have hc4 : ¬cond4 (grid0.coords t0_7) := fun h => absurd ((hcond4 t0_7).mp h) (by decide)
    have hc5 : ¬cond5 (grid0.coords t0_7) := fun h => absurd ((hcond5 t0_7).mp h) (by decide)
    have hc6 : ¬cond6 (grid0.coords t0_7) := fun h => absurd ((hcond6 t0_7).mp h) (by decide)
    have hc7 : cond7 (grid0.coords t0_7) := (hcond7 t0_7).mpr rfl
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fA, %hfA, HA⟩, ⟨%fD, %hfD, HD⟩, ⟨%fG, %hfG, HG⟩, ⟨%fS, %hfS, HS⟩, ⟨%fC, %hfC, HC⟩, Hk⟩
    obtain rfl := harg1.eq_unread hf0; obtain rfl := harg2.eq_unread hf1; obtain rfl := harg3.eq_unread hf2; obtain rfl := harg4.eq_unread hf3
    obtain rfl := harg5.eq_unread hfA; obtain rfl := harg6.eq_unread hfD; obtain rfl := harg7.eq_unread hfG; obtain rfl := harg8.eq_unread hfS; obtain rfl := harg9.eq_unread hfC
    sl_exec (disch := first | exact hc0 | exact hc4 | exact hc5 | exact hc6 | exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexact H3
    isplitl [HA]; · iexact HA
    isplitl [HD]; · iexact HD
    isplitl [HG]; · iexact HG
    isplitl [HS]; · iexact HS
    iexact HC

end Cert.Kernel.Body

end
-- ==== Proof.K.State.lean ====
/-
  The five scratch buffers' contents as one state, and the body as a step on it: in each of the six cases of the
  body's branches the new state is the old one overwritten by the pieces that case's run found.
-/
import proofs.«166917_g34531537059966_cont_sun_m_1070_24_alg».proof.Proof.K.RunA
import proofs.«166917_g34531537059966_cont_sun_m_1070_24_alg».proof.Proof.K.RunC
import proofs.«166917_g34531537059966_cont_sun_m_1070_24_alg».proof.Proof.K.RunD
import proofs.«166917_g34531537059966_cont_sun_m_1070_24_alg».proof.Proof.K.RunE
import proofs.«166917_g34531537059966_cont_sun_m_1070_24_alg».proof.Proof.K.RunF

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contents of the five scratch buffers: the stashed matrix, the degree scales, the projected features, the
    scaled projected features, the accumulator. -/
structure St (F : FTy → Type) where
  A : Vec F S4096x4096 .bf16
  D : Vec F S4096x1 .f32
  G : Vec F S4096x64 .f32
  S : Vec F S4096x64 .bf16
  C : Vec F S4096x64 .f32

abbrev hwA : scA.IsWhole := Memref.isWhole_whole _
abbrev hwD : scD.IsWhole := Memref.isWhole_whole _
abbrev hwG : scG.IsWhole := Memref.isWhole_whole _
abbrev hwS : scS.IsWhole := Memref.isWhole_whole _
abbrev hwC : scC.IsWhole := Memref.isWhole_whole _

/-- What a whole buffer that held `x` reads after the pieces `L` (newest first) are written into it. -/
def wr {s : Shape} {e : EltTy} (mr : Memref sig .tc .vmem s e) (h : mr.IsWhole) (x : Vec F s e) (L : List (View.Piece (Elt F) s e)) : Vec F s e :=
  mr.view.read (Elt F) (mr.view.writes (Elt F) (h.unread x) L)

/-- The five scratch buffers owned at the state's contents. -/
def owned (c : Dev nD) (s : St F) : sProp 𝕄 :=
  iprop(owns (c : Thread nD τ) scA fullShare s.A ∗ owns (c : Thread nD τ) scD fullShare s.D ∗ owns (c : Thread nD τ) scG fullShare s.G
    ∗ owns (c : Thread nD τ) scS fullShare s.S ∗ owns (c : Thread nD τ) scC fullShare s.C)

/-- The scratch state after the body in case A: each buffer at its previous contents overwritten by the pieces the run found. -/
def stepA (c : Dev nD) (x0 : Vec F S512x4096 .f32) (x1 : Vec F S4096x64 .f32) (x2 : Vec F S64x64 .f32) (s : St F) : St F :=
  ⟨wr scA hwA s.A (kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).1, wr scD hwD s.D (kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.1, wr scG hwG s.G (kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.2.1,
   wr scS hwS s.S (kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.2.2.1, wr scC hwC s.C (kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.2.2.2.1⟩

set_option maxHeartbeats 1000000 in
/-- The body in case A, from the scratch state `s` and the input blocks, to the state `stepA … s`. -/
theorem soundA (c : Dev nD) (x0 : Vec F S512x4096 .f32) (x1 : Vec F S4096x64 .f32) (x2 : Vec F S64x64 .f32) (s : St F) (d3 : Vec F S4096x64 .f32) :
    iprop(owned c s ∗ owns (c : Thread nD τ) (ms0 t0_0) fullShare x0 ∗ owns (c : Thread nD τ) (ms1 t0_0) fullShare x1 ∗ owns (c : Thread nD τ) (ms2 t0_0) fullShare x2 ∗ owns (c : Thread nD τ) (ms3 t0_0) fullShare d3)
      ⊢ wp frame (wpE (defs₀ (F := F)) Variants.none c none) Set.univ (bodyAt0 t0_0) (fun _ =>
          iprop(owned c (stepA c x0 x1 x2 s) ∗ owns (c : Thread nD τ) (ms0 t0_0) fullShare x0 ∗ owns (c : Thread nD τ) (ms1 t0_0) fullShare x1 ∗ owns (c : Thread nD τ) (ms2 t0_0) fullShare x2 ∗ owns (c : Thread nD τ) (ms3 t0_0) fullShare d3)) := by
  unfold owned bodyAt0
  iintro ⟨⟨HA, HD, HG, HS, HC⟩, H0, H1, H2, H3⟩
  iapply ((kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepA wr; dsimp only; iexists _; isplitr
      swap; · iexact HA
      ipureintro; rfl
    isplitl [HD]
    · unfold owns stepA wr; dsimp only; iexists _; isplitr
      swap; · iexact HD
      ipureintro; rfl
    isplitl [HG]
    · unfold owns stepA wr; dsimp only; iexists _; isplitr
      swap; · iexact HG
      ipureintro; rfl
    isplitl [HS]
    · unfold owns stepA wr; dsimp only; iexists _; isplitr
      swap; · iexact HS
      ipureintro; rfl
    unfold owns stepA wr; dsimp only; iexists _; isplitr
    swap; · iexact HC
    ipureintro; rfl
  isplitl [H0]; · iexact H0
  isplitl [H1]; · iexact H1
  isplitl [H2]; · iexact H2
  iexact H3

/-- The scratch state after the body in case B: each buffer at its previous contents overwritten by the pieces the run found. -/
def stepB (c : Dev nD) (t : Fin cfg0.N) (hc0 : ¬cond0 (grid0.coords t)) (hc4 : ¬cond4 (grid0.coords t)) (hc5 : ¬cond5 (grid0.coords t)) (hc6 : ¬cond6 (grid0.coords t)) (hc7 : ¬cond7 (grid0.coords t)) (x0 : Vec F S512x4096 .f32) (x1 : Vec F S4096x64 .f32) (x2 : Vec F S64x64 .f32) (s : St F) : St F :=
  ⟨wr scA hwA s.A (kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).1, wr scD hwD s.D (kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.1, wr scG hwG s.G (kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.2.1,
   wr scS hwS s.S (kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.2.2.1, wr scC hwC s.C (kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.2.2.2.1⟩

set_option maxHeartbeats 1000000 in
/-- The body in case B, from the scratch state `s` and the input blocks, to the state `stepB … s`. -/
theorem soundB (c : Dev nD) (t : Fin cfg0.N) (hc0 : ¬cond0 (grid0.coords t)) (hc4 : ¬cond4 (grid0.coords t)) (hc5 : ¬cond5 (grid0.coords t)) (hc6 : ¬cond6 (grid0.coords t)) (hc7 : ¬cond7 (grid0.coords t)) (x0 : Vec F S512x4096 .f32) (x1 : Vec F S4096x64 .f32) (x2 : Vec F S64x64 .f32) (s : St F) (d3 : Vec F S4096x64 .f32) :
    iprop(owned c s ∗ owns (c : Thread nD τ) (ms0 t) fullShare x0 ∗ owns (c : Thread nD τ) (ms1 t) fullShare x1 ∗ owns (c : Thread nD τ) (ms2 t) fullShare x2 ∗ owns (c : Thread nD τ) (ms3 t) fullShare d3)
      ⊢ wp frame (wpE (defs₀ (F := F)) Variants.none c none) Set.univ (bodyAt0 t) (fun _ =>
          iprop(owned c (stepB c t hc0 hc4 hc5 hc6 hc7 x0 x1 x2 s) ∗ owns (c : Thread nD τ) (ms0 t) fullShare x0 ∗ owns (c : Thread nD τ) (ms1 t) fullShare x1 ∗ owns (c : Thread nD τ) (ms2 t) fullShare x2 ∗ owns (c : Thread nD τ) (ms3 t) fullShare d3)) := by
  unfold owned bodyAt0
  iintro ⟨⟨HA, HD, HG, HS, HC⟩, H0, H1, H2, H3⟩
  iapply ((kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepB wr; dsimp only; iexists _; isplitr
      swap; · iexact HA
      ipureintro; rfl
    isplitl [HD]
    · unfold owns stepB wr; dsimp only; iexists _; isplitr
      swap; · iexact HD
      ipureintro; rfl
    isplitl [HG]
    · unfold owns stepB wr; dsimp only; iexists _; isplitr
      swap; · iexact HG
      ipureintro; rfl
    isplitl [HS]
    · unfold owns stepB wr; dsimp only; iexists _; isplitr
      swap; · iexact HS
      ipureintro; rfl
    unfold owns stepB wr; dsimp only; iexists _; isplitr
    swap; · iexact HC
    ipureintro; rfl
  isplitl [H0]; · iexact H0
  isplitl [H1]; · iexact H1
  isplitl [H2]; · iexact H2
  iexact H3

/-- The scratch state after the body in case C: each buffer at its previous contents overwritten by the pieces the run found. -/
def stepC (c : Dev nD) (x0 : Vec F S512x4096 .f32) (x1 : Vec F S4096x64 .f32) (x2 : Vec F S64x64 .f32) (s : St F) : St F :=
  ⟨wr scA hwA s.A (kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).1, wr scD hwD s.D (kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.1, wr scG hwG s.G (kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.2.1,
   wr scS hwS s.S (kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.2.2.1, wr scC hwC s.C (kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.2.2.2.1⟩

set_option maxHeartbeats 1000000 in
/-- The body in case C, from the scratch state `s` and the input blocks, to the state `stepC … s`. -/
theorem soundC (c : Dev nD) (x0 : Vec F S512x4096 .f32) (x1 : Vec F S4096x64 .f32) (x2 : Vec F S64x64 .f32) (s : St F) (d3 : Vec F S4096x64 .f32) :
    iprop(owned c s ∗ owns (c : Thread nD τ) (ms0 t0_4) fullShare x0 ∗ owns (c : Thread nD τ) (ms1 t0_4) fullShare x1 ∗ owns (c : Thread nD τ) (ms2 t0_4) fullShare x2 ∗ owns (c : Thread nD τ) (ms3 t0_4) fullShare d3)
      ⊢ wp frame (wpE (defs₀ (F := F)) Variants.none c none) Set.univ (bodyAt0 t0_4) (fun _ =>
          iprop(owned c (stepC c x0 x1 x2 s) ∗ owns (c : Thread nD τ) (ms0 t0_4) fullShare x0 ∗ owns (c : Thread nD τ) (ms1 t0_4) fullShare x1 ∗ owns (c : Thread nD τ) (ms2 t0_4) fullShare x2 ∗ owns (c : Thread nD τ) (ms3 t0_4) fullShare d3)) := by
  unfold owned bodyAt0
  iintro ⟨⟨HA, HD, HG, HS, HC⟩, H0, H1, H2, H3⟩
  iapply ((kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepC wr; dsimp only; iexists _; isplitr
      swap; · iexact HA
      ipureintro; rfl
    isplitl [HD]
    · unfold owns stepC wr; dsimp only; iexists _; isplitr
      swap; · iexact HD
      ipureintro; rfl
    isplitl [HG]
    · unfold owns stepC wr; dsimp only; iexists _; isplitr
      swap; · iexact HG
      ipureintro; rfl
    isplitl [HS]
    · unfold owns stepC wr; dsimp only; iexists _; isplitr
      swap; · iexact HS
      ipureintro; rfl
    unfold owns stepC wr; dsimp only; iexists _; isplitr
    swap; · iexact HC
    ipureintro; rfl
  isplitl [H0]; · iexact H0
  isplitl [H1]; · iexact H1
  isplitl [H2]; · iexact H2
  iexact H3

/-- The scratch state after the body in case D: each buffer at its previous contents overwritten by the pieces the run found. -/
def stepD (c : Dev nD) (x0 : Vec F S512x4096 .f32) (x1 : Vec F S4096x64 .f32) (x2 : Vec F S64x64 .f32) (s : St F) : St F :=
  ⟨wr scA hwA s.A (kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).1, wr scD hwD s.D (kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.1, wr scG hwG s.G (kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.2.1,
   wr scS hwS s.S (kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.2.2.1, wr scC hwC s.C (kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.2.2.2.1⟩

set_option maxHeartbeats 1000000 in
/-- The body in case D, from the scratch state `s` and the input blocks, to the state `stepD … s`. -/
theorem soundD (c : Dev nD) (x0 : Vec F S512x4096 .f32) (x1 : Vec F S4096x64 .f32) (x2 : Vec F S64x64 .f32) (s : St F) (d3 : Vec F S4096x64 .f32) :
    iprop(owned c s ∗ owns (c : Thread nD τ) (ms0 t0_5) fullShare x0 ∗ owns (c : Thread nD τ) (ms1 t0_5) fullShare x1 ∗ owns (c : Thread nD τ) (ms2 t0_5) fullShare x2 ∗ owns (c : Thread nD τ) (ms3 t0_5) fullShare d3)
      ⊢ wp frame (wpE (defs₀ (F := F)) Variants.none c none) Set.univ (bodyAt0 t0_5) (fun _ =>
          iprop(owned c (stepD c x0 x1 x2 s) ∗ owns (c : Thread nD τ) (ms0 t0_5) fullShare x0 ∗ owns (c : Thread nD τ) (ms1 t0_5) fullShare x1 ∗ owns (c : Thread nD τ) (ms2 t0_5) fullShare x2 ∗ owns (c : Thread nD τ) (ms3 t0_5) fullShare d3)) := by
  unfold owned bodyAt0
  iintro ⟨⟨HA, HD, HG, HS, HC⟩, H0, H1, H2, H3⟩
  iapply ((kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepD wr; dsimp only; iexists _; isplitr
      swap; · iexact HA
      ipureintro; rfl
    isplitl [HD]
    · unfold owns stepD wr; dsimp only; iexists _; isplitr
      swap; · iexact HD
      ipureintro; rfl
    isplitl [HG]
    · unfold owns stepD wr; dsimp only; iexists _; isplitr
      swap; · iexact HG
      ipureintro; rfl
    isplitl [HS]
    · unfold owns stepD wr; dsimp only; iexists _; isplitr
      swap; · iexact HS
      ipureintro; rfl
    unfold owns stepD wr; dsimp only; iexists _; isplitr
    swap; · iexact HC
    ipureintro; rfl
  isplitl [H0]; · iexact H0
  isplitl [H1]; · iexact H1
  isplitl [H2]; · iexact H2
  iexact H3

/-- The scratch state after the body in case E: each buffer at its previous contents overwritten by the pieces the run found. -/
def stepE (c : Dev nD) (x0 : Vec F S512x4096 .f32) (x1 : Vec F S4096x64 .f32) (x2 : Vec F S64x64 .f32) (s : St F) : St F :=
  ⟨wr scA hwA s.A (kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).1, wr scD hwD s.D (kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.1, wr scG hwG s.G (kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.2.1,
   wr scS hwS s.S (kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.2.2.1, wr scC hwC s.C (kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.2.2.2.1⟩

set_option maxHeartbeats 1000000 in
/-- The body in case E, from the scratch state `s` and the input blocks, to the state `stepE … s`. -/
theorem soundE (c : Dev nD) (x0 : Vec F S512x4096 .f32) (x1 : Vec F S4096x64 .f32) (x2 : Vec F S64x64 .f32) (s : St F) (d3 : Vec F S4096x64 .f32) :
    iprop(owned c s ∗ owns (c : Thread nD τ) (ms0 t0_6) fullShare x0 ∗ owns (c : Thread nD τ) (ms1 t0_6) fullShare x1 ∗ owns (c : Thread nD τ) (ms2 t0_6) fullShare x2 ∗ owns (c : Thread nD τ) (ms3 t0_6) fullShare d3)
      ⊢ wp frame (wpE (defs₀ (F := F)) Variants.none c none) Set.univ (bodyAt0 t0_6) (fun _ =>
          iprop(owned c (stepE c x0 x1 x2 s) ∗ owns (c : Thread nD τ) (ms0 t0_6) fullShare x0 ∗ owns (c : Thread nD τ) (ms1 t0_6) fullShare x1 ∗ owns (c : Thread nD τ) (ms2 t0_6) fullShare x2 ∗ owns (c : Thread nD τ) (ms3 t0_6) fullShare d3)) := by
  unfold owned bodyAt0
  iintro ⟨⟨HA, HD, HG, HS, HC⟩, H0, H1, H2, H3⟩
  iapply ((kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepE wr; dsimp only; iexists _; isplitr
      swap; · iexact HA
      ipureintro; rfl
    isplitl [HD]
    · unfold owns stepE wr; dsimp only; iexists _; isplitr
      swap; · iexact HD
      ipureintro; rfl
    isplitl [HG]
    · unfold owns stepE wr; dsimp only; iexists _; isplitr
      swap; · iexact HG
      ipureintro; rfl
    isplitl [HS]
    · unfold owns stepE wr; dsimp only; iexists _; isplitr
      swap; · iexact HS
      ipureintro; rfl
    unfold owns stepE wr; dsimp only; iexists _; isplitr
    swap; · iexact HC
    ipureintro; rfl
  isplitl [H0]; · iexact H0
  isplitl [H1]; · iexact H1
  isplitl [H2]; · iexact H2
  iexact H3

/-- The scratch state after the body in case F: each buffer at its previous contents overwritten by the pieces the run found. -/
def stepF (c : Dev nD) (x0 : Vec F S512x4096 .f32) (x1 : Vec F S4096x64 .f32) (x2 : Vec F S64x64 .f32) (s : St F) : St F :=
  ⟨wr scA hwA s.A (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.1, wr scD hwD s.D (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.1, wr scG hwG s.G (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.2.1,
   wr scS hwS s.S (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.2.2.1, wr scC hwC s.C (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.2.2.2.1⟩

/-- What the last point leaves in the output block: the pieces it stores there, which cover the block. -/
def outF (c : Dev nD) (x0 : Vec F S512x4096 .f32) (x1 : Vec F S4096x64 .f32) (x2 : Vec F S64x64 .f32) (s : St F) : Vec F S4096x64 .f32 :=
  (ms3 t0_7).view.read (Elt F) ((ms3 t0_7).view.writes (Elt F) (ms3 t0_7).view.junk (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).1)

theorem coverF (c : Dev nD) (x0 : Vec F S512x4096 .f32) (x1 : Vec F S4096x64 .f32) (x2 : Vec F S64x64 .f32) (s : St F) (y : S4096x64.Idx) :
    ∃ pc ∈ (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).1, y ∈ pc.1.set :=
  View.cover_of_tiledL (kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).1 S4096x64.size (by sl_kernel_rfl) y

set_option maxHeartbeats 1000000 in
/-- The body in case F, from the scratch state `s` and the input blocks, to the state `stepF … s`. -/
theorem soundF (c : Dev nD) (x0 : Vec F S512x4096 .f32) (x1 : Vec F S4096x64 .f32) (x2 : Vec F S64x64 .f32) (s : St F) (d3 : Vec F S4096x64 .f32) :
    iprop(owned c s ∗ owns (c : Thread nD τ) (ms0 t0_7) fullShare x0 ∗ owns (c : Thread nD τ) (ms1 t0_7) fullShare x1 ∗ owns (c : Thread nD τ) (ms2 t0_7) fullShare x2 ∗ owns (c : Thread nD τ) (ms3 t0_7) fullShare d3)
      ⊢ wp frame (wpE (defs₀ (F := F)) Variants.none c none) Set.univ (bodyAt0 t0_7) (fun _ =>
          iprop(owned c (stepF c x0 x1 x2 s) ∗ owns (c : Thread nD τ) (ms0 t0_7) fullShare x0 ∗ owns (c : Thread nD τ) (ms1 t0_7) fullShare x1 ∗ owns (c : Thread nD τ) (ms2 t0_7) fullShare x2 ∗ owns (c : Thread nD τ) (ms3 t0_7) fullShare (outF c x0 x1 x2 s))) := by
  unfold owned bodyAt0
  iintro ⟨⟨HA, HD, HG, HS, HC⟩, H0, H1, H2, H3⟩
  iapply ((kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  isplitl [HA HD HG HS HC]
  · isplitl [HA]
    · unfold owns stepF wr; dsimp only; iexists _; isplitr
      swap; · iexact HA
      ipureintro; rfl
    isplitl [HD]
    · unfold owns stepF wr; dsimp only; iexists _; isplitr
      swap; · iexact HD
      ipureintro; rfl
    isplitl [HG]
    · unfold owns stepF wr; dsimp only; iexists _; isplitr
      swap; · iexact HG
      ipureintro; rfl
    isplitl [HS]
    · unfold owns stepF wr; dsimp only; iexists _; isplitr
      swap; · iexact HS
      ipureintro; rfl
    unfold owns stepF wr; dsimp only; iexists _; isplitr
    swap; · iexact HC
    ipureintro; rfl
  isplitl [H0]; · iexact H0
  isplitl [H1]; · iexact H1
  isplitl [H2]; · iexact H2
  unfold owns outF; iexists _; isplitr
  swap; · iexact H3
  ipureintro; exact View.read_writes_of_cover _ _ _ _ _ (coverF c x0 x1 x2 s)

end Cert.Kernel.Body

end
-- ==== Proof.K.Sound.lean ====
/-
  The body's run in each of its six cases, stated to an arbitrary continuation: from the scratch buffers owned at a state
  and the staging buffers at their blocks, the body runs to the continuation with the scratch buffers owned at the
  stepped state, the input buffers as they were, and the output buffer untouched or, at the last point, at the block stored.
-/
import proofs.«166917_g34531537059966_cont_sun_m_1070_24_alg».proof.Proof.K.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body in case A, to any continuation that takes the stepped state. -/
theorem runA (c : Dev nD) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t0_0) fullShare x0 ∗ owns (c : Thread nD τ) (ms1 t0_0) fullShare x1 ∗ owns (c : Thread nD τ) (ms2 t0_0) fullShare x2 ∗ owns (c : Thread nD τ) (ms3 t0_0) fullShare d3
        ∗ (iprop(owned c (stepA c x0 x1 x2 s) ∗ owns (c : Thread nD τ) (ms0 t0_0) fullShare x0 ∗ owns (c : Thread nD τ) (ms1 t0_0) fullShare x1 ∗ owns (c : Thread nD τ) (ms2 t0_0) fullShare x2 ∗ owns (c : Thread nD τ) (ms3 t0_0) fullShare d3) -∗ K ⟨⟩))
      ⊢ wp frame (wpE (defs₀ (F := F)) Variants.none c none) Set.univ (bodyAt0 t0_0) K := by
  unfold owned bodyAt0
  iintro ⟨⟨HA, HD, HG, HS, HC⟩, H0, H1, H2, H3, Hk⟩
  iapply ((kernelRunA c (ms0 t0_0) (hs0 t0_0) (ms1 t0_0) (hs1 t0_0) (ms2 t0_0) (hs2 t0_0) (ms3 t0_0) (hs3 t0_0) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepA wr; dsimp only; iexists _; isplitr
      swap; · iexact HA
      ipureintro; rfl
    isplitl [HD]
    · unfold owns stepA wr; dsimp only; iexists _; isplitr
      swap; · iexact HD
      ipureintro; rfl
    isplitl [HG]
    · unfold owns stepA wr; dsimp only; iexists _; isplitr
      swap; · iexact HG
      ipureintro; rfl
    isplitl [HS]
    · unfold owns stepA wr; dsimp only; iexists _; isplitr
      swap; · iexact HS
      ipureintro; rfl
    unfold owns stepA wr; dsimp only; iexists _; isplitr
    swap; · iexact HC
    ipureintro; rfl
  isplitl [H0]; · iexact H0
  isplitl [H1]; · iexact H1
  isplitl [H2]; · iexact H2
  iexact H3

set_option maxHeartbeats 1000000 in
/-- The body in case B, to any continuation that takes the stepped state. -/
theorem runB (c : Dev nD) (t : Fin cfg0.N) (hc0 : ¬cond0 (grid0.coords t)) (hc4 : ¬cond4 (grid0.coords t)) (hc5 : ¬cond5 (grid0.coords t)) (hc6 : ¬cond6 (grid0.coords t)) (hc7 : ¬cond7 (grid0.coords t)) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t) fullShare x0 ∗ owns (c : Thread nD τ) (ms1 t) fullShare x1 ∗ owns (c : Thread nD τ) (ms2 t) fullShare x2 ∗ owns (c : Thread nD τ) (ms3 t) fullShare d3
        ∗ (iprop(owned c (stepB c t hc0 hc4 hc5 hc6 hc7 x0 x1 x2 s) ∗ owns (c : Thread nD τ) (ms0 t) fullShare x0 ∗ owns (c : Thread nD τ) (ms1 t) fullShare x1 ∗ owns (c : Thread nD τ) (ms2 t) fullShare x2 ∗ owns (c : Thread nD τ) (ms3 t) fullShare d3) -∗ K ⟨⟩))
      ⊢ wp frame (wpE (defs₀ (F := F)) Variants.none c none) Set.univ (bodyAt0 t) K := by
  unfold owned bodyAt0
  iintro ⟨⟨HA, HD, HG, HS, HC⟩, H0, H1, H2, H3, Hk⟩
  iapply ((kernelRunB c (grid0.coords t) (ms0 t) (hs0 t) (ms1 t) (hs1 t) (ms2 t) (hs2 t) (ms3 t) (hs3 t) scA hwA scD hwD scG hwG scS hwS scC hwC hc0 hc4 hc5 hc6 hc7 x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepB wr; dsimp only; iexists _; isplitr
      swap; · iexact HA
      ipureintro; rfl
    isplitl [HD]
    · unfold owns stepB wr; dsimp only; iexists _; isplitr
      swap; · iexact HD
      ipureintro; rfl
    isplitl [HG]
    · unfold owns stepB wr; dsimp only; iexists _; isplitr
      swap; · iexact HG
      ipureintro; rfl
    isplitl [HS]
    · unfold owns stepB wr; dsimp only; iexists _; isplitr
      swap; · iexact HS
      ipureintro; rfl
    unfold owns stepB wr; dsimp only; iexists _; isplitr
    swap; · iexact HC
    ipureintro; rfl
  isplitl [H0]; · iexact H0
  isplitl [H1]; · iexact H1
  isplitl [H2]; · iexact H2
  iexact H3

set_option maxHeartbeats 1000000 in
/-- The body in case C, to any continuation that takes the stepped state. -/
theorem runC (c : Dev nD) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t0_4) fullShare x0 ∗ owns (c : Thread nD τ) (ms1 t0_4) fullShare x1 ∗ owns (c : Thread nD τ) (ms2 t0_4) fullShare x2 ∗ owns (c : Thread nD τ) (ms3 t0_4) fullShare d3
        ∗ (iprop(owned c (stepC c x0 x1 x2 s) ∗ owns (c : Thread nD τ) (ms0 t0_4) fullShare x0 ∗ owns (c : Thread nD τ) (ms1 t0_4) fullShare x1 ∗ owns (c : Thread nD τ) (ms2 t0_4) fullShare x2 ∗ owns (c : Thread nD τ) (ms3 t0_4) fullShare d3) -∗ K ⟨⟩))
      ⊢ wp frame (wpE (defs₀ (F := F)) Variants.none c none) Set.univ (bodyAt0 t0_4) K := by
  unfold owned bodyAt0
  iintro ⟨⟨HA, HD, HG, HS, HC⟩, H0, H1, H2, H3, Hk⟩
  iapply ((kernelRunC c (ms0 t0_4) (hs0 t0_4) (ms1 t0_4) (hs1 t0_4) (ms2 t0_4) (hs2 t0_4) (ms3 t0_4) (hs3 t0_4) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepC wr; dsimp only; iexists _; isplitr
      swap; · iexact HA
      ipureintro; rfl
    isplitl [HD]
    · unfold owns stepC wr; dsimp only; iexists _; isplitr
      swap; · iexact HD
      ipureintro; rfl
    isplitl [HG]
    · unfold owns stepC wr; dsimp only; iexists _; isplitr
      swap; · iexact HG
      ipureintro; rfl
    isplitl [HS]
    · unfold owns stepC wr; dsimp only; iexists _; isplitr
      swap; · iexact HS
      ipureintro; rfl
    unfold owns stepC wr; dsimp only; iexists _; isplitr
    swap; · iexact HC
    ipureintro; rfl
  isplitl [H0]; · iexact H0
  isplitl [H1]; · iexact H1
  isplitl [H2]; · iexact H2
  iexact H3

set_option maxHeartbeats 1000000 in
/-- The body in case D, to any continuation that takes the stepped state. -/
theorem runD (c : Dev nD) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t0_5) fullShare x0 ∗ owns (c : Thread nD τ) (ms1 t0_5) fullShare x1 ∗ owns (c : Thread nD τ) (ms2 t0_5) fullShare x2 ∗ owns (c : Thread nD τ) (ms3 t0_5) fullShare d3
        ∗ (iprop(owned c (stepD c x0 x1 x2 s) ∗ owns (c : Thread nD τ) (ms0 t0_5) fullShare x0 ∗ owns (c : Thread nD τ) (ms1 t0_5) fullShare x1 ∗ owns (c : Thread nD τ) (ms2 t0_5) fullShare x2 ∗ owns (c : Thread nD τ) (ms3 t0_5) fullShare d3) -∗ K ⟨⟩))
      ⊢ wp frame (wpE (defs₀ (F := F)) Variants.none c none) Set.univ (bodyAt0 t0_5) K := by
  unfold owned bodyAt0
  iintro ⟨⟨HA, HD, HG, HS, HC⟩, H0, H1, H2, H3, Hk⟩
  iapply ((kernelRunD c (ms0 t0_5) (hs0 t0_5) (ms1 t0_5) (hs1 t0_5) (ms2 t0_5) (hs2 t0_5) (ms3 t0_5) (hs3 t0_5) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepD wr; dsimp only; iexists _; isplitr
      swap; · iexact HA
      ipureintro; rfl
    isplitl [HD]
    · unfold owns stepD wr; dsimp only; iexists _; isplitr
      swap; · iexact HD
      ipureintro; rfl
    isplitl [HG]
    · unfold owns stepD wr; dsimp only; iexists _; isplitr
      swap; · iexact HG
      ipureintro; rfl
    isplitl [HS]
    · unfold owns stepD wr; dsimp only; iexists _; isplitr
      swap; · iexact HS
      ipureintro; rfl
    unfold owns stepD wr; dsimp only; iexists _; isplitr
    swap; · iexact HC
    ipureintro; rfl
  isplitl [H0]; · iexact H0
  isplitl [H1]; · iexact H1
  isplitl [H2]; · iexact H2
  iexact H3

set_option maxHeartbeats 1000000 in
/-- The body in case E, to any continuation that takes the stepped state. -/
theorem runE (c : Dev nD) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t0_6) fullShare x0 ∗ owns (c : Thread nD τ) (ms1 t0_6) fullShare x1 ∗ owns (c : Thread nD τ) (ms2 t0_6) fullShare x2 ∗ owns (c : Thread nD τ) (ms3 t0_6) fullShare d3
        ∗ (iprop(owned c (stepE c x0 x1 x2 s) ∗ owns (c : Thread nD τ) (ms0 t0_6) fullShare x0 ∗ owns (c : Thread nD τ) (ms1 t0_6) fullShare x1 ∗ owns (c : Thread nD τ) (ms2 t0_6) fullShare x2 ∗ owns (c : Thread nD τ) (ms3 t0_6) fullShare d3) -∗ K ⟨⟩))
      ⊢ wp frame (wpE (defs₀ (F := F)) Variants.none c none) Set.univ (bodyAt0 t0_6) K := by
  unfold owned bodyAt0
  iintro ⟨⟨HA, HD, HG, HS, HC⟩, H0, H1, H2, H3, Hk⟩
  iapply ((kernelRunE c (ms0 t0_6) (hs0 t0_6) (ms1 t0_6) (hs1 t0_6) (ms2 t0_6) (hs2 t0_6) (ms3 t0_6) (hs3 t0_6) scA hwA scD hwD scG hwG scS hwS scC hwC x0 x1 x2 s.A s.D s.G s.S s.C).2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepE wr; dsimp only; iexists _; isplitr
      swap; · iexact HA
      ipureintro; rfl
    isplitl [HD]
    · unfold owns stepE wr; dsimp only; iexists _; isplitr
      swap; · iexact HD
      ipureintro; rfl
    isplitl [HG]
    · unfold owns stepE wr; dsimp only; iexists _; isplitr
      swap; · iexact HG
      ipureintro; rfl
    isplitl [HS]
    · unfold owns stepE wr; dsimp only; iexists _; isplitr
      swap; · iexact HS
      ipureintro; rfl
    unfold owns stepE wr; dsimp only; iexists _; isplitr
    swap; · iexact HC
    ipureintro; rfl
  isplitl [H0]; · iexact H0
  isplitl [H1]; · iexact H1
  isplitl [H2]; · iexact H2
  iexact H3

set_option maxHeartbeats 1000000 in
/-- The body in case F, to any continuation that takes the stepped state. -/
theorem runF (c : Dev nD) (x0 : Vec F S512x4096 .f32) (x1 : Vec F S4096x64 .f32) (x2 : Vec F S64x64 .f32) (s : St F) (d3 : Vec F S4096x64 .f32) (K : PUnit → sProp 𝕄) :
    iprop(owned c s ∗ owns (c : Thread nD τ) (ms0 t0_7) fullShare x0 ∗ owns (c : Thread nD τ) (ms1 t0_7) fullShare x1 ∗ owns (c : Thread nD τ) (ms2 t0_7) fullShare x2 ∗ owns (c : Thread nD τ) (ms3 t0_7) fullShare d3
        ∗ (iprop(owned c (stepF c x0 x1 x2 s) ∗ owns (c : Thread nD τ) (ms0 t0_7) fullShare x0 ∗ owns (c : Thread nD τ) (ms1 t0_7) fullShare x1 ∗ owns (c : Thread nD τ) (ms2 t0_7) fullShare x2 ∗ owns (c : Thread nD τ) (ms3 t0_7) fullShare (outF c x0 x1 x2 s)) -∗ K ⟨⟩))
      ⊢ wp frame (wpE (defs₀ (F := F)) Variants.none c none) Set.univ (bodyAt0 t0_7) K := by
  unfold owned bodyAt0
  iintro ⟨⟨HA, HD, HG, HS, HC⟩, H0, H1, H2, H3, Hk⟩
  iapply ((kernelRunF c (ms0 t0_7) (hs0 t0_7) (ms1 t0_7) (hs1 t0_7) (ms2 t0_7) (hs2 t0_7) (ms3 t0_7) (hs3 t0_7) scA hwA scD hwD scG hwG scS hwS scC hwC x0 x1 x2 s.A s.D s.G s.S s.C).2.2.2.2.2.2 d3 Set.univ _)
  isplitl [H0]; · iexact H0
  isplitl [H1]; · iexact H1
  isplitl [H2]; · iexact H2
  isplitl [H3]; · iexact H3
  isplitl [HA]; · iexact HA
  isplitl [HD]; · iexact HD
  isplitl [HG]; · iexact HG
  isplitl [HS]; · iexact HS
  isplitl [HC]; · iexact HC
  iintro ⟨H0, H1, H2, H3, HA, HD, HG, HS, HC⟩
  iapply Hk
  isplitl [HA HD HG HS HC]
  · isplitl [HA]
    · unfold owns stepF wr; dsimp only; iexists _; isplitr
      swap; · iexact HA
      ipureintro; rfl
    isplitl [HD]
    · unfold owns stepF wr; dsimp only; iexists _; isplitr
      swap; · iexact HD
      ipureintro; rfl
    isplitl [HG]
    · unfold owns stepF wr; dsimp only; iexists _; isplitr
      swap; · iexact HG
      ipureintro; rfl
    isplitl [HS]
    · unfold owns stepF wr; dsimp only; iexists _; isplitr
      swap; · iexact HS
      ipureintro; rfl
    unfold owns stepF wr; dsimp only; iexists _; isplitr
    swap; · iexact HC
    ipureintro; rfl
  isplitl [H0]; · iexact H0
  isplitl [H1]; · iexact H1
  isplitl [H2]; · iexact H2
  unfold owns outF; iexists _; isplitr
  swap; · iexact H3
  ipureintro; exact View.read_writes_of_cover _ _ _ _ _ (coverF c x0 x1 x2 s)

end Cert.Kernel.Body

end
-- ==== Proof.K.FrameData.lean ====
/-
  The pipeline's proof data for the frame of the program: each input window's buffer holds its block at every point;
  the output window's contents are not named; the region's invariant is the same before and after every point — the
  scratch buffers and the generator register at some contents.
-/
import proofs.«166917_g34531537059966_cont_sun_m_1070_24_alg».proof.Proof.K.Sound

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem nc0 (t : Fin cfg0.N) (h : t.val ≠ 0) : ¬cond0 (grid0.coords t) := fun hc => h ((hcond0 t).mp hc)
theorem nc4 (t : Fin cfg0.N) (h : t.val ≠ 4) : ¬cond4 (grid0.coords t) := fun hc => h ((hcond4 t).mp hc)
theorem nc5 (t : Fin cfg0.N) (h : t.val ≠ 5) : ¬cond5 (grid0.coords t) := fun hc => h ((hcond5 t).mp hc)
theorem nc6 (t : Fin cfg0.N) (h : t.val ≠ 6) : ¬cond6 (grid0.coords t) := fun hc => h ((hcond6 t).mp hc)
theorem nc7 (t : Fin cfg0.N) (h : t.val ≠ 7) : ¬cond7 (grid0.coords t) := fun hc => h ((hcond7 t).mp hc)

/-- The output window is the one whose contents are not named. -/
def forgets0 : Fin 4 → Bool := fun w => w.val == 3

/-- The proof data: the arrays as the region finds them; each input's buffer at its block; the output's not named;
    the region's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare d))

/-- What the body is called with: the region's invariant opened into its scratch buffers, the input buffers at their blocks. -/
theorem bodyPre_eq (c : Dev nD) (t : Fin cfg0.N) :
    bodyPre m c t = iprop(iprop(iprop((∃ d, owns (c : Thread nD τ) scA fullShare d) ∗ (∃ d, owns (c : Thread nD τ) scD fullShare d)
          ∗ (∃ d, owns (c : Thread nD τ) scG fullShare d) ∗ (∃ d, owns (c : Thread nD τ) scS fullShare d)
          ∗ (∃ d, owns (c : Thread nD τ) scC fullShare d)) ∗ (∃ r, prngReg c r)) ∗ (dats m 0 c).owesAt () t.castSucc
      ∗ (∃ d : (cfg0.win 0).block.Idx → Elt F (cfg0.win 0).elt, owns (c : Thread nD τ) (ms0 t) fullShare (iblk m c 0 t))
      ∗ (∃ d : (cfg0.win 1).block.Idx → Elt F (cfg0.win 1).elt, owns (c : Thread nD τ) (ms1 t) fullShare (iblk m c 1 t))
      ∗ (∃ d : (cfg0.win 2).block.Idx → Elt F (cfg0.win 2).elt, owns (c : Thread nD τ) (ms2 t) fullShare (iblk m c 2 t))
      ∗ (∃ d, owns (c : Thread nD τ) (ms3 t) fullShare d)) := by
  unfold bodyPre
  simp only [before0_0, before0_1, before0_2]
  rw [show (dats m 0 c).Φ t.castSucc = Pipeline.ΦA spec0 c from rfl, PhiA_eq]

/-- What the body returns, likewise. -/
theorem bodyPost_eq (c : Dev nD) (t : Fin cfg0.N) :
    bodyPost m c t = iprop(iprop(iprop((∃ d, owns (c : Thread nD τ) scA fullShare d) ∗ (∃ d, owns (c : Thread nD τ) scD fullShare d)
          ∗ (∃ d, owns (c : Thread nD τ) scG fullShare d) ∗ (∃ d, owns (c : Thread nD τ) scS fullShare d)
          ∗ (∃ d, owns (c : Thread nD τ) scC fullShare d)) ∗ (∃ r, prngReg c r)) ∗ (dats m 0 c).owesAt () t.castSucc
      ∗ owns (c : Thread nD τ) (ms0 t) fullShare (iblk m c 0 t)
      ∗ owns (c : Thread nD τ) (ms1 t) fullShare (iblk m c 1 t)
      ∗ owns (c : Thread nD τ) (ms2 t) fullShare (iblk m c 2 t)
      ∗ (∃ d, owns (c : Thread nD τ) (ms3 t) fullShare d)) := by
  unfold bodyPost
  rw [show (dats m 0 c).owesAt () t.succ = (dats m 0 c).owesAt () t.castSucc from rfl,
    show (dats m 0 c).Φ t.succ = Pipeline.ΦA spec0 c from rfl, PhiA_eq, after0_0, after0_1, after0_2]

end Cert.Kernel.Body

end
-- ==== Proof.K.FramePt0.lean ====
/-
  The body at point 0 of the grid meets its part of the pipeline's obligation: from the region's invariant and the
  staging buffers at their blocks it runs to the region's invariant again, the input buffers as they were and the
  output buffer at some contents.
-/
import proofs.«166917_g34531537059966_cont_sun_m_1070_24_alg».proof.Proof.K.FrameData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem sound_pt0 (c : Dev nD) :
    bodyPre m c t0_0 ⊢ wp frame (wpE (defs₀ (F := F)) Variants.none c none) Set.univ (bodyAt0 t0_0) (fun _ => bodyPost m c t0_0) := by
  rw [bodyPre_eq, bodyPost_eq]
  iintro ⟨⟨⟨⟨%dA, HA⟩, ⟨%dD, HD⟩, ⟨%dG, HG⟩, ⟨%dS, HS⟩, ⟨%dC, HC⟩⟩, Hg⟩, Ho, ⟨%d0, H0⟩, ⟨%d1, H1⟩, ⟨%d2, H2⟩, ⟨%d3, H3⟩⟩
  iapply (runA c (iblk m c 0 t0_0) (iblk m c 1 t0_0) (iblk m c 2 t0_0) (⟨dA, dD, dG, dS, dC⟩ : St F) d3 _)
  isplitl [HA HD HG HS HC]
  · unfold owned; dsimp only
    isplitl [HA]; · iexact HA
    isplitl [HD]; · iexact HD
    isplitl [HG]; · iexact HG
    isplitl [HS]; · iexact HS
    iexact HC
  isplitl [H0]; · iexact H0
  isplitl [H1]; · iexact H1
  isplitl [H2]; · iexact H2
  isplitl [H3]; · iexact H3
  unfold owned
  iintro ⟨⟨HA, HD, HG, HS, HC⟩, H0, H1, H2, H3⟩
  isplitl [HA HD HG HS HC Hg]
  · isplitr [Hg]
    · isplitl [HA]; · iexists _; iexact HA
      isplitl [HD]; · iexists _; iexact HD
      isplitl [HG]; · iexists _; iexact HG
      isplitl [HS]; · iexists _; iexact HS
      iexists _; iexact HC
    iexact Hg
  isplitl [Ho]; · iexact Ho
  isplitl [H0]; · iexact H0
  isplitl [H1]; · iexact H1
  isplitl [H2]; · iexact H2
  iexists _; iexact H3

end Cert.Kernel.Body

end
-- ==== Proof.K.FramePt1.lean ====
/-
  The body at point 1 of the grid meets its part of the pipeline's obligation: from the region's invariant and the
  staging buffers at their blocks it runs to the region's invariant again, the input buffers as they were and the
  output buffer at some contents.
-/
import proofs.«166917_g34531537059966_cont_sun_m_1070_24_alg».proof.Proof.K.FrameData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem sound_pt1 (c : Dev nD) :
    bodyPre m c t0_1 ⊢ wp frame (wpE (defs₀ (F := F)) Variants.none c none) Set.univ (bodyAt0 t0_1) (fun _ => bodyPost m c t0_1) := by
  rw [bodyPre_eq, bodyPost_eq]
  iintro ⟨⟨⟨⟨%dA, HA⟩, ⟨%dD, HD⟩, ⟨%dG, HG⟩, ⟨%dS, HS⟩, ⟨%dC, HC⟩⟩, Hg⟩, Ho, ⟨%d0, H0⟩, ⟨%d1, H1⟩, ⟨%d2, H2⟩, ⟨%d3, H3⟩⟩
  iapply (runB c t0_1 (nc0 t0_1 (by decide)) (nc4 t0_1 (by decide)) (nc5 t0_1 (by decide)) (nc6 t0_1 (by decide)) (nc7 t0_1 (by decide)) (iblk m c 0 t0_1) (iblk m c 1 t0_1) (iblk m c 2 t0_1) (⟨dA, dD, dG, dS, dC⟩ : St F) d3 _)
  isplitl [HA HD HG HS HC]
  · unfold owned; dsimp only
    isplitl [HA]; · iexact HA
    isplitl [HD]; · iexact HD
    isplitl [HG]; · iexact HG
    isplitl [HS]; · iexact HS
    iexact HC
  isplitl [H0]; · iexact H0
  isplitl [H1]; · iexact H1
  isplitl [H2]; · iexact H2
  isplitl [H3]; · iexact H3
  unfold owned
  iintro ⟨⟨HA, HD, HG, HS, HC⟩, H0, H1, H2, H3⟩
  isplitl [HA HD HG HS HC Hg]
  · isplitr [Hg]
    · isplitl [HA]; · iexists _; iexact HA
      isplitl [HD]; · iexists _; iexact HD
      isplitl [HG]; · iexists _; iexact HG
      isplitl [HS]; · iexists _; iexact HS
      iexists _; iexact HC
    iexact Hg
  isplitl [Ho]; · iexact Ho
  isplitl [H0]; · iexact H0
  isplitl [H1]; · iexact H1
  isplitl [H2]; · iexact H2
  iexists _; iexact H3

end Cert.Kernel.Body

end
-- ==== Proof.K.FramePt2.lean ====
/-
  The body at point 2 of the grid meets its part of the pipeline's obligation: from the region's invariant and the
  staging buffers at their blocks it runs to the region's invariant again, the input buffers as they were and the
  output buffer at some contents.
-/
import proofs.«166917_g34531537059966_cont_sun_m_1070_24_alg».proof.Proof.K.FrameData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem sound_pt2 (c : Dev nD) :
    bodyPre m c t0_2 ⊢ wp frame (wpE (defs₀ (F := F)) Variants.none c none) Set.univ (bodyAt0 t0_2) (fun _ => bodyPost m c t0_2) := by
  rw [bodyPre_eq, bodyPost_eq]
  iintro ⟨⟨⟨⟨%dA, HA⟩, ⟨%dD, HD⟩, ⟨%dG, HG⟩, ⟨%dS, HS⟩, ⟨%dC, HC⟩⟩, Hg⟩, Ho, ⟨%d0, H0⟩, ⟨%d1, H1⟩, ⟨%d2, H2⟩, ⟨%d3, H3⟩⟩
  iapply (runB c t0_2 (nc0 t0_2 (by decide)) (nc4 t0_2 (by decide)) (nc5 t0_2 (by decide)) (nc6 t0_2 (by decide)) (nc7 t0_2 (by decide)) (iblk m c 0 t0_2) (iblk m c 1 t0_2) (iblk m c 2 t0_2) (⟨dA, dD, dG, dS, dC⟩ : St F) d3 _)
  isplitl [HA HD HG HS HC]
  · unfold owned; dsimp only
    isplitl [HA]; · iexact HA
    isplitl [HD]; · iexact HD
    isplitl [HG]; · iexact HG
    isplitl [HS]; · iexact HS
    iexact HC
  isplitl [H0]; · iexact H0
  isplitl [H1]; · iexact H1
  isplitl [H2]; · iexact H2
  isplitl [H3]; · iexact H3
  unfold owned
  iintro ⟨⟨HA, HD, HG, HS, HC⟩, H0, H1, H2, H3⟩
  isplitl [HA HD HG HS HC Hg]
  · isplitr [Hg]
    · isplitl [HA]; · iexists _; iexact HA
      isplitl [HD]; · iexists _; iexact HD
      isplitl [HG]; · iexists _; iexact HG
      isplitl [HS]; · iexists _; iexact HS
      iexists _; iexact HC
    iexact Hg
  isplitl [Ho]; · iexact Ho
  isplitl [H0]; · iexact H0
  isplitl [H1]; · iexact H1
  isplitl [H2]; · iexact H2
  iexists _; iexact H3

end Cert.Kernel.Body

end
-- ==== Proof.K.FramePt3.lean ====
/-
  The body at point 3 of the grid meets its part of the pipeline's obligation: from the region's invariant and the
  staging buffers at their blocks it runs to the region's invariant again, the input buffers as they were and the
  output buffer at some contents.
-/
import proofs.«166917_g34531537059966_cont_sun_m_1070_24_alg».proof.Proof.K.FrameData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem sound_pt3 (c : Dev nD) :
    bodyPre m c t0_3 ⊢ wp frame (wpE (defs₀ (F := F)) Variants.none c none) Set.univ (bodyAt0 t0_3) (fun _ => bodyPost m c t0_3) := by
  rw [bodyPre_eq, bodyPost_eq]
  iintro ⟨⟨⟨⟨%dA, HA⟩, ⟨%dD, HD⟩, ⟨%dG, HG⟩, ⟨%dS, HS⟩, ⟨%dC, HC⟩⟩, Hg⟩, Ho, ⟨%d0, H0⟩, ⟨%d1, H1⟩, ⟨%d2, H2⟩, ⟨%d3, H3⟩⟩
  iapply (runB c t0_3 (nc0 t0_3 (by decide)) (nc4 t0_3 (by decide)) (nc5 t0_3 (by decide)) (nc6 t0_3 (by decide)) (nc7 t0_3 (by decide)) (iblk m c 0 t0_3) (iblk m c 1 t0_3) (iblk m c 2 t0_3) (⟨dA, dD, dG, dS, dC⟩ : St F) d3 _)
  isplitl [HA HD HG HS HC]
  · unfold owned; dsimp only
    isplitl [HA]; · iexact HA
    isplitl [HD]; · iexact HD
    isplitl [HG]; · iexact HG
    isplitl [HS]; · iexact HS
    iexact HC
  isplitl [H0]; · iexact H0
  isplitl [H1]; · iexact H1
  isplitl [H2]; · iexact H2
  isplitl [H3]; · iexact H3
  unfold owned
  iintro ⟨⟨HA, HD, HG, HS, HC⟩, H0, H1, H2, H3⟩
  isplitl [HA HD HG HS HC Hg]
  · isplitr [Hg]
    · isplitl [HA]; · iexists _; iexact HA
      isplitl [HD]; · iexists _; iexact HD
      isplitl [HG]; · iexists _; iexact HG
      isplitl [HS]; · iexists _; iexact HS
      iexists _; iexact HC
    iexact Hg
  isplitl [Ho]; · iexact Ho
  isplitl [H0]; · iexact H0
  isplitl [H1]; · iexact H1
  isplitl [H2]; · iexact H2
  iexists _; iexact H3

end Cert.Kernel.Body

end
-- ==== Proof.K.FramePt4.lean ====
/-
  The body at point 4 of the grid meets its part of the pipeline's obligation: from the region's invariant and the
  staging buffers at their blocks it runs to the region's invariant again, the input buffers as they were and the
  output buffer at some contents.
-/
import proofs.«166917_g34531537059966_cont_sun_m_1070_24_alg».proof.Proof.K.FrameData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem sound_pt4 (c : Dev nD) :
    bodyPre m c t0_4 ⊢ wp frame (wpE (defs₀ (F := F)) Variants.none c none) Set.univ (bodyAt0 t0_4) (fun _ => bodyPost m c t0_4) := by
  rw [bodyPre_eq, bodyPost_eq]
  iintro ⟨⟨⟨⟨%dA, HA⟩, ⟨%dD, HD⟩, ⟨%dG, HG⟩, ⟨%dS, HS⟩, ⟨%dC, HC⟩⟩, Hg⟩, Ho, ⟨%d0, H0⟩, ⟨%d1, H1⟩, ⟨%d2, H2⟩, ⟨%d3, H3⟩⟩
  iapply (runC c (iblk m c 0 t0_4) (iblk m c 1 t0_4) (iblk m c 2 t0_4) (⟨dA, dD, dG, dS, dC⟩ : St F) d3 _)
  isplitl [HA HD HG HS HC]
  · unfold owned; dsimp only
    isplitl [HA]; · iexact HA
    isplitl [HD]; · iexact HD
    isplitl [HG]; · iexact HG
    isplitl [HS]; · iexact HS
    iexact HC
  isplitl [H0]; · iexact H0
  isplitl [H1]; · iexact H1
  isplitl [H2]; · iexact H2
  isplitl [H3]; · iexact H3
  unfold owned
  iintro ⟨⟨HA, HD, HG, HS, HC⟩, H0, H1, H2, H3⟩
  isplitl [HA HD HG HS HC Hg]
  · isplitr [Hg]
    · isplitl [HA]; · iexists _; iexact HA
      isplitl [HD]; · iexists _; iexact HD
      isplitl [HG]; · iexists _; iexact HG
      isplitl [HS]; · iexists _; iexact HS
      iexists _; iexact HC
    iexact Hg
  isplitl [Ho]; · iexact Ho
  isplitl [H0]; · iexact H0
  isplitl [H1]; · iexact H1
  isplitl [H2]; · iexact H2
  iexists _; iexact H3

end Cert.Kernel.Body

end
-- ==== Proof.K.FramePt5.lean ====
/-
  The body at point 5 of the grid meets its part of the pipeline's obligation: from the region's invariant and the
  staging buffers at their blocks it runs to the region's invariant again, the input buffers as they were and the
  output buffer at some contents.
-/
import proofs.«166917_g34531537059966_cont_sun_m_1070_24_alg».proof.Proof.K.FrameData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem sound_pt5 (c : Dev nD) :
    bodyPre m c t0_5 ⊢ wp frame (wpE (defs₀ (F := F)) Variants.none c none) Set.univ (bodyAt0 t0_5) (fun _ => bodyPost m c t0_5) := by
  rw [bodyPre_eq, bodyPost_eq]
  iintro ⟨⟨⟨⟨%dA, HA⟩, ⟨%dD, HD⟩, ⟨%dG, HG⟩, ⟨%dS, HS⟩, ⟨%dC, HC⟩⟩, Hg⟩, Ho, ⟨%d0, H0⟩, ⟨%d1, H1⟩, ⟨%d2, H2⟩, ⟨%d3, H3⟩⟩
  iapply (runD c (iblk m c 0 t0_5) (iblk m c 1 t0_5) (iblk m c 2 t0_5) (⟨dA, dD, dG, dS, dC⟩ : St F) d3 _)
  isplitl [HA HD HG HS HC]
  · unfold owned; dsimp only
    isplitl [HA]; · iexact HA
    isplitl [HD]; · iexact HD
    isplitl [HG]; · iexact HG
    isplitl [HS]; · iexact HS
    iexact HC
  isplitl [H0]; · iexact H0
  isplitl [H1]; · iexact H1
  isplitl [H2]; · iexact H2
  isplitl [H3]; · iexact H3
  unfold owned
  iintro ⟨⟨HA, HD, HG, HS, HC⟩, H0, H1, H2, H3⟩
  isplitl [HA HD HG HS HC Hg]
  · isplitr [Hg]
    · isplitl [HA]; · iexists _; iexact HA
      isplitl [HD]; · iexists _; iexact HD
      isplitl [HG]; · iexists _; iexact HG
      isplitl [HS]; · iexists _; iexact HS
      iexists _; iexact HC
    iexact Hg
  isplitl [Ho]; · iexact Ho
  isplitl [H0]; · iexact H0
  isplitl [H1]; · iexact H1
  isplitl [H2]; · iexact H2
  iexists _; iexact H3

end Cert.Kernel.Body

end
-- ==== Proof.K.FramePt6.lean ====
/-
  The body at point 6 of the grid meets its part of the pipeline's obligation: from the region's invariant and the
  staging buffers at their blocks it runs to the region's invariant again, the input buffers as they were and the
  output buffer at some contents.
-/
import proofs.«166917_g34531537059966_cont_sun_m_1070_24_alg».proof.Proof.K.FrameData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem sound_pt6 (c : Dev nD) :
    bodyPre m c t0_6 ⊢ wp frame (wpE (defs₀ (F := F)) Variants.none c none) Set.univ (bodyAt0 t0_6) (fun _ => bodyPost m c t0_6) := by
  rw [bodyPre_eq, bodyPost_eq]
  iintro ⟨⟨⟨⟨%dA, HA⟩, ⟨%dD, HD⟩, ⟨%dG, HG⟩, ⟨%dS, HS⟩, ⟨%dC, HC⟩⟩, Hg⟩, Ho, ⟨%d0, H0⟩, ⟨%d1, H1⟩, ⟨%d2, H2⟩, ⟨%d3, H3⟩⟩
  iapply (runE c (iblk m c 0 t0_6) (iblk m c 1 t0_6) (iblk m c 2 t0_6) (⟨dA, dD, dG, dS, dC⟩ : St F) d3 _)
  isplitl [HA HD HG HS HC]
  · unfold owned; dsimp only
    isplitl [HA]; · iexact HA
    isplitl [HD]; · iexact HD
    isplitl [HG]; · iexact HG
    isplitl [HS]; · iexact HS
    iexact HC
  isplitl [H0]; · iexact H0
  isplitl [H1]; · iexact H1
  isplitl [H2]; · iexact H2
  isplitl [H3]; · iexact H3
  unfold owned
  iintro ⟨⟨HA, HD, HG, HS, HC⟩, H0, H1, H2, H3⟩
  isplitl [HA HD HG HS HC Hg]
  · isplitr [Hg]
    · isplitl [HA]; · iexists _; iexact HA
      isplitl [HD]; · iexists _; iexact HD
      isplitl [HG]; · iexists _; iexact HG
      isplitl [HS]; · iexists _; iexact HS
      iexists _; iexact HC
    iexact Hg
  isplitl [Ho]; · iexact Ho
  isplitl [H0]; · iexact H0
  isplitl [H1]; · iexact H1
  isplitl [H2]; · iexact H2
  iexists _; iexact H3

end Cert.Kernel.Body

end
-- ==== Proof.K.FramePt7.lean ====
/-
  The body at point 7 of the grid meets its part of the pipeline's obligation: from the region's invariant and the
  staging buffers at their blocks it runs to the region's invariant again, the input buffers as they were and the
  output buffer at some contents.
-/
import proofs.«166917_g34531537059966_cont_sun_m_1070_24_alg».proof.Proof.K.FrameData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem sound_pt7 (c : Dev nD) :
    bodyPre m c t0_7 ⊢ wp frame (wpE (defs₀ (F := F)) Variants.none c none) Set.univ (bodyAt0 t0_7) (fun _ => bodyPost m c t0_7) := by
  rw [bodyPre_eq, bodyPost_eq]
  iintro ⟨⟨⟨⟨%dA, HA⟩, ⟨%dD, HD⟩, ⟨%dG, HG⟩, ⟨%dS, HS⟩, ⟨%dC, HC⟩⟩, Hg⟩, Ho, ⟨%d0, H0⟩, ⟨%d1, H1⟩, ⟨%d2, H2⟩, ⟨%d3, H3⟩⟩
  iapply (runF c (iblk m c 0 t0_7) (iblk m c 1 t0_7) (iblk m c 2 t0_7) (⟨dA, dD, dG, dS, dC⟩ : St F) d3 _)
  isplitl [HA HD HG HS HC]
  · unfold owned; dsimp only
    isplitl [HA]; · iexact HA
    isplitl [HD]; · iexact HD
    isplitl [HG]; · iexact HG
    isplitl [HS]; · iexact HS
    iexact HC
  isplitl [H0]; · iexact H0
  isplitl [H1]; · iexact H1
  isplitl [H2]; · iexact H2
  isplitl [H3]; · iexact H3
  unfold owned
  iintro ⟨⟨HA, HD, HG, HS, HC⟩, H0, H1, H2, H3⟩
  isplitl [HA HD HG HS HC Hg]
  · isplitr [Hg]
    · isplitl [HA]; · iexists _; iexact HA
      isplitl [HD]; · iexists _; iexact HD
      isplitl [HG]; · iexists _; iexact HG
      isplitl [HS]; · iexists _; iexact HS
      iexists _; iexact HC
    iexact Hg
  isplitl [Ho]; · iexact Ho
  isplitl [H0]; · iexact H0
  isplitl [H1]; · iexact H1
  isplitl [H2]; · iexact H2
  iexists _; iexact H3

end Cert.Kernel.Body

end
-- ==== Proof.K.Frame.lean ====
/-
  The frame of the program: every execution terminates and the three argument arrays end unchanged. The body meets the
  pipeline's obligation at each of the eight grid points with the output window's contents not named; the library's
  frame run over that proof data ends with every input array as the region found it, which is as launched.
-/
import proofs.«166917_g34531537059966_cont_sun_m_1070_24_alg».proof.Proof.K.FramePt0
import proofs.«166917_g34531537059966_cont_sun_m_1070_24_alg».proof.Proof.K.FramePt1
import proofs.«166917_g34531537059966_cont_sun_m_1070_24_alg».proof.Proof.K.FramePt2
import proofs.«166917_g34531537059966_cont_sun_m_1070_24_alg».proof.Proof.K.FramePt3
import proofs.«166917_g34531537059966_cont_sun_m_1070_24_alg».proof.Proof.K.FramePt4
import proofs.«166917_g34531537059966_cont_sun_m_1070_24_alg».proof.Proof.K.FramePt5
import proofs.«166917_g34531537059966_cont_sun_m_1070_24_alg».proof.Proof.K.FramePt6
import proofs.«166917_g34531537059966_cont_sun_m_1070_24_alg».proof.Proof.K.FramePt7

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  rcases fin_N0 t with rfl | rfl | rfl | rfl | rfl | rfl | rfl | rfl
  · exact sound_pt0 m c
  · exact sound_pt1 m c
  · exact sound_pt2 m c
  · exact sound_pt3 m c
  · exact sound_pt4 m c
  · exact sound_pt5 m c
  · exact sound_pt6 m c
  · exact sound_pt7 m c

/-- The library's body obligation, at every point, the output window's contents not named. -/
theorem body_obligation (c : Dev nD) : BodyObligation (dats (F := F) m 0 c) (defs₀ (F := F)) Variants.none () Set.univ forgets0 := fun t => by
  rw [bigSep_W0, bigSep_W0]
  exact sound_body m c t

set_option backward.isDefEq.respectTransparency.types false in
/-- Every weakly fair execution of the program terminates, and every final state has every input array of the pipeline
    as the region found it. -/
theorem run_main : θ_run defs (onTc (τ := τ) (main (F := F))) (s₀ m ρ) (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame claim's post from the frame run's: each argument array is a staged input, read at the end as the region
    found it, which is as launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun ((rdat c).ArrAt_in 0 rfl _) _) ((h c).1 0)).trans ((hA c 0).trans (V_main_arg0 m c)),
     (Eq.mp (congrFun ((rdat c).ArrAt_in 1 rfl _) _) ((h c).1 1)).trans ((hA c 1).trans (V_main_arg1 m c)),
     (Eq.mp (congrFun ((rdat c).ArrAt_in 2 rfl _) _) ((h c).1 2)).trans ((hA c 2).trans (V_main_arg2 m c))⟩) h

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

end Cert.Kernel.Body

end
-- ==== Proof.lean ====
/-
  The five claims of this certificate.

  The kernel computes a graph-convolution layer `D^(-1/2) A D^(-1/2) F Wᵀ` in one pass over eight row blocks of the
  adjacency matrix `A`: at block `j` it sums the block's rows to the degrees, takes their reciprocal square roots (an
  infinite one replaced by zero), stashes the block, and scales the block's rows of `G = F Wᵀ`; as soon as enough degree
  scales are known it accumulates strips of `A · (d ⊙ G)`, and at the last block it scales the accumulated rows by the
  degree scales. The reference scales `A` on both sides first and multiplies by `F` and then by `Wᵀ`.
  Over the extended reals, with every input entry real, both are
  `out[r,o] = d(r) · ∑ₖ A[r,k] · (d(k) · ∑ⱼ F[k,j] · W[o,j])` with `d` the masked reciprocal square root of the row
  sum: the kernel by reading each step's stores index by index (the strips' column ranges partition the columns), the
  reference by distributing its outer sums; the reference's power `x^(-1/2)` and the kernel's reciprocal square root,
  once masked, agree on every real degree (both are zero on a degree that is not positive).
  The frames: the reference's is its run with the result dropped; the idealized kernel's comes with its value run; the
  word-level kernel's is the same run of the body with nothing said of the output's contents. Nothing was rewritten by
  the idealization, so the preservation claim is trivial.
-/
import proofs.«166917_g34531537059966_cont_sun_m_1070_24_alg».proof.Defs
import proofs.«166917_g34531537059966_cont_sun_m_1070_24_alg».proof.Proof.Gen.Kernel
import proofs.«166917_g34531537059966_cont_sun_m_1070_24_alg».proof.Proof.Gen.KernelIdeal
import proofs.«166917_g34531537059966_cont_sun_m_1070_24_alg».proof.Proof.Gen.ReferenceIdeal
import proofs.«166917_g34531537059966_cont_sun_m_1070_24_alg».proof.Proof.Gen.Pre_finite_inputs
import proofs.«166917_g34531537059966_cont_sun_m_1070_24_alg».proof.Proof.RefRun
import proofs.«166917_g34531537059966_cont_sun_m_1070_24_alg».proof.Proof.RefAssembly
import proofs.«166917_g34531537059966_cont_sun_m_1070_24_alg».proof.Proof.KI.Final
import proofs.«166917_g34531537059966_cont_sun_m_1070_24_alg».proof.Proof.K.Frame

noncomputable section

namespace Cert.Proof

open Idealize.ShloMosaic Idealize.SL.Sem

/-- The word-level kernel runs to the end and keeps its arguments. -/
theorem frame_k : Cert.frame_Kernel := fun m ρ _ => Cert.Kernel.Body.frame m ρ

/-- The idealized kernel runs to the end and keeps its arguments. -/
theorem frame_ki : Cert.frame_KernelIdeal := fun m ρ _ => Cert.KernelIdeal.Body.frame_ideal m ρ

/-- The idealization rewrote nothing. -/
theorem preserves : Cert.preserves_Kernel_KernelIdeal := trivial

/-- Both idealized programs end with the layer's result of the (agreeing) argument arrays. -/
theorem algebraic : Cert.algebraic_KernelIdeal_ReferenceIdeal := fun m g m' g' hpre hagree =>
  ⟨fun c => Cert.KernelIdeal.Body.specOut m c, Cert.KernelIdeal.Body.run_value_ideal m g,
    Cert.Proof.RefSide.ref_run m m' g' hpre hagree⟩

theorem claim : Cert.Claim :=
  ⟨Cert.Kernel.Gen.facts, Cert.KernelIdeal.Gen.facts, Cert.ReferenceIdeal.Gen.facts, Cert.Pre_finite_inputs.Gen.facts,
    frame_k, frame_ki, Cert.Proof.RefSide.frame_ri, preserves, algebraic⟩

end Cert.Proof

end
